-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1024x128 : Shape := ⟨2, ![1024, 128]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S32x2048x1024 .f32) (main_arg1 : FVec F S1024x128 .f32) (main_arg2 : FVec F S1024x128 .f32) (main_arg3 : FVec F S1024x128 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S32x2048x1024 : Shape := ⟨3, ![32, 2048, 1024]⟩
abbrev S1024x128 : Shape := ⟨2, ![1024, 128]⟩
abbrev S1024x384 : Shape := ⟨2, ![1024, 384]⟩
abbrev S32x2048x128 : Shape := ⟨3, ![32, 2048, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x1 : Shape := ⟨2, ![1024, 1]⟩
abbrev S128x1024 : Shape := ⟨2, ![128, 1024]⟩
abbrev S1024 : Shape := ⟨1, ![1024]⟩

abbrev nBuf : Space → Nat
  | .hbm => 9
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x384, .f32⟩
  | .hbm, ⟨5, _⟩ => ⟨S32x2048x128, .bf16⟩
  | .hbm, ⟨6, _⟩ => ⟨S32x2048x128, .bf16⟩
  | .hbm, ⟨7, _⟩ => ⟨S32x2048x128, .bf16⟩
  | .hbm, ⟨8, _⟩ => ⟨S32x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x384, .f32⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .f32⟩
  | .local _ .vmem, ⟨16, _⟩ => ⟨S1x1024x128, .f32⟩
  | .local _ .vmem, ⟨17, _⟩ => ⟨S1024x1, .f32⟩
  | .local _ .vmem, ⟨18, _⟩ => ⟨S1024x1, .f32⟩
  | .local _ .vmem, ⟨19, _⟩ => ⟨S1024x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![32, 2, 2], ![false, false, false]⟩

def k1_cond4 (i : grid1.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x128_S1024x128_S1024x128_S1024x384_d1 : Shape.Concatenates [S1024x128, S1024x128, S1024x128] S1024x384 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  slices_S1024x384_o0_0_S1024x128 : S1024x384.Slices ![0, 0] S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  slices_S1024x384_o0_128_S1024x128 : S1024x384.Slices ![0, 128] S1024x128
  slices_S1024x384_o0_256_S1024x128 : S1024x384.Slices ![0, 256] S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  iota_S1024x1024_d0_w32 : S1024x1024.Iotas .tc 32 [0]
  iota_S1024x1024_d1_w32 : S1024x1024.Iotas .tc 32 [1]
  dot_S1024x1024_S1024x384_S1024x384_1_0_0_1_n_n_wf : DotDims.WF S1024x1024 S1024x384 S1024x384 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x2048x128.size a
  hwx0_2 : ∀ i : grid0.Coords, EltTy.bits .bf16 = 32 ∨ (Rect.block (s := S32x2048x128) S1x1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .bf16 = 32 ∨ (Rect.block (s := S32x2048x128) S1x1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S32x2048x128.size a
  hwx0_4 : ∀ i : grid0.Coords, EltTy.bits .bf16 = 32 ∨ (Rect.block (s := S32x2048x128) S1x1024x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S32x2048x128.size a
  hwx1_0 : ∀ i : grid1.Coords, EltTy.bits .bf16 = 32 ∨ (Rect.block (s := S32x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S32x2048x128.size a
  hwx1_1 : ∀ i : grid1.Coords, EltTy.bits .bf16 = 32 ∨ (Rect.block (s := S32x2048x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S32x2048x128.size a
  hwx1_2 : ∀ i : grid1.Coords, EltTy.bits .bf16 = 32 ∨ (Rect.block (s := S32x2048x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S32x2048x128.size a
  hwx1_3 : ∀ i : grid1.Coords, EltTy.bits .f32 = 32 ∨ (Rect.block (s := S32x2048x128) S1x1024x128.size (cc1_transform_3 i) (hinb1_3 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S1024x128 : Shape := ⟨2, ![1024, 128]⟩
abbrev S32x2048x128 : Shape := ⟨3, ![32, 2048, 128]⟩
abbrev S32x2048x2048 : Shape := ⟨3, ![32, 2048, 2048]⟩
abbrev S_ : Shape := ⟨0, ![]⟩
abbrev S2048x2048 : Shape := ⟨2, ![2048, 2048]⟩
abbrev S32x2048 : Shape := ⟨2, ![32, 2048]⟩
abbrev S32x2048x1 : Shape := ⟨3, ![32, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S32x2048x2048, .f32⟩
  | .hbm, ⟨8, _⟩ => ⟨S_, .f32⟩
  | .hbm, ⟨9, _⟩ => ⟨S32x2048x2048, .f32⟩
  | .hbm, ⟨10, _⟩ => ⟨S32x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S32x2048x2048, .i1⟩
  | .hbm, ⟨25, _⟩ => ⟨S32x2048x2048, .f32⟩
  | .hbm, ⟨26, _⟩ => ⟨S32x2048x2048, .f32⟩
  | .hbm, ⟨27, _⟩ => ⟨S_, .f32⟩
  | .hbm, ⟨28, _⟩ => ⟨S32x2048, .f32⟩
  | .hbm, ⟨29, _⟩ => ⟨S_, .f32⟩
  | .hbm, ⟨30, _⟩ => ⟨S32x2048, .f32⟩
  | .hbm, ⟨31, _⟩ => ⟨S32x2048, .f32⟩
  | .hbm, ⟨32, _⟩ => ⟨S32x2048x1, .f32⟩
  | .hbm, ⟨33, _⟩ => ⟨S32x2048x2048, .f32⟩
  | .hbm, ⟨34, _⟩ => ⟨S32x2048x2048, .f32⟩
  | .hbm, ⟨35, _⟩ => ⟨S32x2048x2048, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S32x2048x2048, .f32⟩
  | .hbm, ⟨40, _⟩ => ⟨S32x2048x2048, .f32⟩
  | .hbm, ⟨41, _⟩ => ⟨S32x2048x128, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  bcast_S_S2048x2048 : S_.BroadcastsInDim S2048x2048 (![] : Fin 0 → Fin S2048x2048.rank)
  bcast_S2048x2048_S32x2048x2048_1_2 : S2048x2048.BroadcastsInDim S32x2048x2048 (![1, 2] : Fin 2 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x1024_S1024x128_S32x2048x128_2_0_01_1_n_n_wf : DotDims.WF S32x2048x1024 S1024x128 S32x2048x128 [2] [0] [0, 1] [1] [] []
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x1024_S1024x128_S32x2048x128_2_0_01_1_n_n : DotDims S32x2048x1024 S1024x128 S32x2048x128 where
  lhsContracting := [2]
  rhsContracting := [0]
  lhsNonContracting := [0, 1]
  rhsNonContracting := [1]
  lhsBatch := []
  rhsBatch := []
  wf := dot_S32x2048x1024_S1024x128_S32x2048x128_2_0_01_1_n_n_wf
def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.BitsProjBody.lean ====
/-
  Region 0 of the kernel's @main (the program as printed, read at any float instance): the QKV projection. At each of the 64 grid points the body loads one
  1024×1024 block of x and the whole joined weight matrix [Wq | Wk | Wv] (1024×384), multiplies them into a zero
  accumulator and stores the three 128-column slices of the product into the three output windows. This module states
  what each output window's buffer holds after the body (the three slices of the product, as one store each), runs the
  body symbolically, and packages the result as the pipeline's proof data and body obligation at an arbitrary
  valuation `V` of the core's buffers on entry to the region.
-/
import proofs.«168448_j29377576304777_2_alg».proof.Proof.Gen.Kernel.Launch
import proofs.«168448_j29377576304777_2_alg».proof.Proof.Gen.Kernel.Skeleton
import proofs.«168448_j29377576304777_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the block of x at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole joined weight matrix at every point (it is fetched once). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S1x1024x1024 := Rect.unit (s := S1x1024x1024) ![0, 0, 0] S1x1024x1024.size inb_S1x1024x1024_S1x1024x1024_0_0_0
abbrev rW : Rect S1024x384 := Rect.unit (s := S1024x384) ![0, 0] S1024x384.size inb_S1024x384_S1024x384_0_0
abbrev rO : Rect S1x1024x128 := Rect.unit (s := S1x1024x128) ![0, 0, 0] S1x1024x128.size inb_S1x1024x128_S1x1024x128_0_0_0

/-- What the body leaves in the Q window's buffer: columns 0–127 of the product, one store. -/
def outQ (x0 : Vec F S1x1024x1024 .f32) (w0 : Vec F S1024x384 .f32) : Vec F S1x1024x128 .bf16 :=
  View.canon [⟨rO, k0_pay2 (View.ld x0 rX) (View.ld w0 rW)⟩]
/-- The K window's: columns 128–255. -/
def outK (x0 : Vec F S1x1024x1024 .f32) (w0 : Vec F S1024x384 .f32) : Vec F S1x1024x128 .bf16 :=
  View.canon [⟨rO, k0_pay3 (View.ld x0 rX) (View.ld w0 rW)⟩]
/-- The V window's: columns 256–383. -/
def outV (x0 : Vec F S1x1024x1024 .f32) (w0 : Vec F S1024x384 .f32) : Vec F S1x1024x128 .bf16 :=
  View.canon [⟨rO, k0_pay4 (View.ld x0 rX) (View.ld w0 rW)⟩]

/-- One whole-block store covers the block. -/
theorem coverO (p0 : Vec F S1x1024x128 .bf16) (y : S1x1024x128.Idx) :
    ∃ pc ∈ ([⟨rO, p0⟩] : List (View.Piece (Elt F) S1x1024x128 .bf16)), y ∈ pc.1.set :=
  View.cover_of_tiled [⟨rO, p0⟩] S1x1024x128.size (by rfl) y

set_option maxHeartbeats 1000000 in
/-- The body on whole staging memrefs: the two inputs are read and left as they were, each output ends at its slice. -/
theorem sound_kernel (c : Dev nD) (E : Set ℕ) (i : grid0.Coords)
    (arg2 : Memref sig .tc .vmem S1x1024x1024 .f32) (harg2 : arg2.IsWhole) (arg3 : Memref sig .tc .vmem S1024x384 .f32) (harg3 : arg3.IsWhole)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole)
    (x0 : Vec F S1x1024x1024 .f32) (w0 : Vec F S1024x384 .f32) (K : PUnit → sProp 𝕄) :
    iprop(owns (c : Thread nD τ) arg2 fullShare x0 ∗ owns (c : Thread nD τ) arg3 fullShare w0
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare w0
            ∗ owns (c : Thread nD τ) arg4 fullShare (outQ x0 w0) ∗ owns (c : Thread nD τ) arg5 fullShare (outK x0 w0)
            ∗ owns (c : Thread nD τ) arg6 fullShare (outV x0 w0)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The proof data of the projection's pipeline -/

/-- The arrays as the region finds them; after the body each input's buffer still at its block, each output's at its
    slice of the product of the two input blocks; the body's invariant is the scoped rest and the generator register,
    untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outQ (iblk V c 0 t) (iblk V c 1 t)
    | ⟨3, _⟩ => outK (iblk V c 0 t) (iblk V c 1 t)
    | ⟨4, _⟩ => outV (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outQ (iblk V c 0 t) (iblk V c 1 t) := by dsimp only [dat]
theorem after_3 (c : Dev nD) (t : Fin cfg0.N) : (dat V c).after 3 t = outK (iblk V c 0 t) (iblk V c 1 t) := by dsimp only [dat]
theorem after_4 (c : Dev nD) (t : Fin cfg0.N) : (dat V c).after 4 t = outV (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, and after the last point it is given back. -/
theorem hin (c : Dev nD) : Pipeline.ΦA spec0 c ⊢ (dat V c).Φ 0 := by
  rw [show (dat V c).Φ 0 = Pipeline.ΦA spec0 c from rfl]
theorem hout (c : Dev nD) : (dat V c).Φ (Fin.last cfg0.N) ⊢ Pipeline.ΦA spec0 c := by
  rw [show (dat V c).Φ (Fin.last cfg0.N) = Pipeline.ΦA spec0 c from rfl]

end Cert.Kernel.Proj

end
-- ==== Proof.BitsAttnShared.lean ====
/-
  Region 1 of the kernel's @main (the program as printed, read at any float instance): causal attention, one batch element and one 1024-row query tile at a
  time, the key tiles visited in order (grid 32 × 2 × 2, the key-tile axis innermost). Three scratch buffers carry the
  running row maximum, the running normaliser and the running weighted sum of value rows from one key tile to the
  next. This module holds what the four kinds of grid point share: the body's four branch conditions as functions of
  the grid point and their closed forms over the 128 points, where the output window is idle, and the region's
  invariant with the three scratch buffers named.
  The grid point t = 4·b + 2·qi + ki. The four kinds: t ≡ 0 (mod 4): first (and diagonal) key tile of query tile 0;
  t ≡ 1: the skipped tile above the diagonal, where only the final division happens; t ≡ 2: first (unmasked) key tile
  of query tile 1; t ≡ 3: the diagonal tile of query tile 1, then the final division.
-/
import proofs.«168448_j29377576304777_2_alg».proof.Proof.Gen.Kernel.Launch
import proofs.«168448_j29377576304777_2_alg».proof.Proof.Gen.Kernel.Skeleton
import proofs.«168448_j29377576304777_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "This is the first key tile" (the scratch is reset). -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 2 = 0 :=
  (by decide +kernel : ∀ t : Fin grid1.N, condFirst (grid1.coords t) ↔ t.val % 2 = 0)

/-- "The key tile lies strictly below the diagonal" (no mask). -/
abbrev condBelow (i : grid1.Coords) : Prop := (Scalar.cmpi .ne (Scalar.extui (Scalar.cmpi .slt (BitVec.ofNat 32 (i 2).val) (BitVec.ofNat 32 (i 1).val))) 0#32) = 1#1
theorem hcondBelow : ∀ t : Fin cfg1.N, condBelow (grid1.coords t) ↔ t.val % 4 = 2 :=
  (by decide +kernel : ∀ t : Fin grid1.N, condBelow (grid1.coords t) ↔ t.val % 4 = 2)

/-- "The key tile is the diagonal one" (triangular mask). -/
abbrev condDiag (i : grid1.Coords) : Prop := (Scalar.cmpi .ne (Scalar.extui (Scalar.cmpi .eq (BitVec.ofNat 32 (i 2).val) (BitVec.ofNat 32 (i 1).val))) 0#32) = 1#1
theorem hcondDiag : ∀ t : Fin cfg1.N, condDiag (grid1.coords t) ↔ (t.val % 4 = 0 ∨ t.val % 4 = 3) :=
  (by decide +kernel : ∀ t : Fin grid1.N, condDiag (grid1.coords t) ↔ (t.val % 4 = 0 ∨ t.val % 4 = 3))

/-- "This is the last key tile" (the output is written). -/
abbrev condLast (i : grid1.Coords) : Prop := k1_cond4 i = 1#1
theorem hcondLast : ∀ t : Fin cfg1.N, condLast (grid1.coords t) ↔ t.val % 2 = 1 :=
  (by decide +kernel : ∀ t : Fin grid1.N, condLast (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- At the first key tile nothing is stored into the output window and its block is not written back. -/
theorem idleAt_3 : ∀ t : Fin cfg1.N, t.val % 2 = 0 → cfg1.idle 3 (grid1.coords t) = true := by decide +kernel
theorem noFlush_3 : ∀ t : Fin cfg1.N, t.val % 2 = 0 → (cfg1.win 3).flush t = false := by decide +kernel
/-- At the last key tile the output window is stored whole. -/
theorem liveAt_3 : ∀ t : Fin cfg1.N, t.val % 2 = 1 → cfg1.idle 3 (grid1.coords t) = false := by decide +kernel

/-! ## The staging memrefs and the scratch -/

abbrev msQ (t : Fin cfg1.N) : Memref sig .tc .vmem S1x1024x128 .bf16 := win1_0.stage (cfg1.slots t 0)
abbrev hsQ (t : Fin cfg1.N) : (msQ t).IsWhole := hstage1_0 ((cfg1.slots t 0).cast nbuf1_0)
abbrev msK (t : Fin cfg1.N) : Memref sig .tc .vmem S1x1024x128 .bf16 := win1_1.stage (cfg1.slots t 1)
abbrev hsK (t : Fin cfg1.N) : (msK t).IsWhole := hstage1_1 ((cfg1.slots t 1).cast nbuf1_1)
abbrev msV (t : Fin cfg1.N) : Memref sig .tc .vmem S1x1024x128 .bf16 := win1_2.stage (cfg1.slots t 2)
abbrev hsV (t : Fin cfg1.N) : (msV t).IsWhole := hstage1_2 ((cfg1.slots t 2).cast nbuf1_2)
abbrev msO (t : Fin cfg1.N) : Memref sig .tc .vmem S1x1024x128 .f32 := win1_3.stage (cfg1.slots t 3)
abbrev hsO (t : Fin cfg1.N) : (msO t).IsWhole := hstage1_3 ((cfg1.slots t 3).cast nbuf1_3)
/-- The running row maximum, the running normaliser, the running weighted sum. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-- The scoped buffers of the core that this region never touches (the other region's staging buffers), each at some
    contents, conjoined with `X` last. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ X)

/-- The same buffers alone. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

theorem restWith_split (c : Dev nD) (X : sProp 𝕄) : restWith c X ⊢ iprop(otherStaging c ∗ X) := by
  unfold restWith otherStaging
  iintro ⟨H1, H2, H3, H4, H5, H6, H7, H8, H9, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact HX

theorem restWith_join (c : Dev nD) (X : sProp 𝕄) : iprop(otherStaging c ∗ X) ⊢ restWith c X := by
  unfold restWith otherStaging
  iintro ⟨⟨H1, H2, H3, H4, H5, H6, H7, H8, H9⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HX

/-- The class invariant with the three scratch buffers named as memrefs owned at some contents. -/
theorem PhiA_eq (c : Dev nD) :
    (Pipeline.ΦA spec1 c : sProp 𝕄)
      = iprop(restWith c iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; unfold restWith; simp only [scM, scL, scA, owns_whole]; try rfl

end Cert.Kernel.Attn

end
-- ==== Proof.BitsAttnRunA.lean ====
/-
  The attention body run symbolically at a grid point of the first kind (first key tile of query tile 0: the scratch
  is reset, then the diagonal tile is folded in under the triangular mask).
-/
import proofs.«168448_j29377576304777_2_alg».proof.Proof.BitsAttnShared

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key tile of query tile 0 (reset, then the masked diagonal update): the inputs and the idle output window are handed back as found, each scratch buffer ends with the pieces the run finds. -/
noncomputable def kernelRun_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : condFirst i) (hc1 : ¬condBelow i) (hc2 : condDiag i) (hc3 : ¬condLast i)
    (xq xk xv : Vec F S1x1024x128 .bf16) :
    Σ' (LM : List (View.Piece (Elt F) S1024x1 .f32)) (LL : List (View.Piece (Elt F) S1024x1 .f32)), { LA : List (View.Piece (Elt F) S1024x128 .f32) //
      ∀ (xo : Vec F S1x1024x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xo ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Attn

end
-- ==== Proof.BitsAttnRunB.lean ====
/-
  The attention body run symbolically at a grid point of the second kind (the key tile above the diagonal of query
  tile 0 is skipped: only the final division of the weighted sum by the normaliser happens).
-/
import proofs.«168448_j29377576304777_2_alg».proof.Proof.BitsAttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the skipped key tile of query tile 0 (only the final division): the inputs and the three scratch buffers are handed back as found, the output window ends with the pieces the run finds. -/
noncomputable def kernelRun_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬condFirst i) (hc1 : ¬condBelow i) (hc2 : ¬condDiag i) (hc3 : condLast i)
    (xq xk xv : Vec F S1x1024x128 .bf16) (xm xl : Vec F S1024x1 .f32) (xa : Vec F S1024x128 .f32) :
    { LO : List (View.Piece (Elt F) S1x1024x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO) ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Attn

end
-- ==== Proof.BitsAttnRunC.lean ====
/-
  The attention body run symbolically at a grid point of the third kind (first key tile of query tile 1: the scratch
  is reset, then the unmasked tile is folded in).
-/
import proofs.«168448_j29377576304777_2_alg».proof.Proof.BitsAttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key tile of query tile 1 (reset, then the unmasked update): the inputs and the idle output window are handed back as found, each scratch buffer ends with the pieces the run finds. -/
noncomputable def kernelRun_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : condFirst i) (hc1 : condBelow i) (hc2 : ¬condDiag i) (hc3 : ¬condLast i)
    (xq xk xv : Vec F S1x1024x128 .bf16) :
    Σ' (LM : List (View.Piece (Elt F) S1024x1 .f32)) (LL : List (View.Piece (Elt F) S1024x1 .f32)), { LA : List (View.Piece (Elt F) S1024x128 .f32) //
      ∀ (xo : Vec F S1x1024x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xo ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Attn

end
-- ==== Proof.BitsAttnRunD.lean ====
/-
  The attention body run symbolically at a grid point of the fourth kind (the diagonal key tile of query tile 1 is
  folded into what the tile before left, then the final division happens).
-/
import proofs.«168448_j29377576304777_2_alg».proof.Proof.BitsAttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the diagonal key tile of query tile 1 (the masked update over what the tile before left, then the final division): the inputs are handed back as found, the scratch buffers and the output window end with the pieces the run finds. -/
noncomputable def kernelRun_D (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬condFirst i) (hc1 : ¬condBelow i) (hc2 : condDiag i) (hc3 : condLast i)
    (xq xk xv : Vec F S1x1024x128 .bf16) (xm xl : Vec F S1024x1 .f32) (xa : Vec F S1024x128 .f32) :
    Σ' (LO : List (View.Piece (Elt F) S1x1024x128 .f32)) (LM : List (View.Piece (Elt F) S1024x1 .f32)) (LL : List (View.Piece (Elt F) S1024x1 .f32)), { LA : List (View.Piece (Elt F) S1024x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Attn

end
-- ==== Proof.BitsAttnData.lean ====
/-
  The proof data of the attention region: what the three scratch buffers (running row maximum, running normaliser,
  running weighted sum) and the output window hold after the body at each grid point, by recursion on the point —
  at the first key tile of a query tile the scratch is what that tile alone gives, at the next tile it is the previous
  contents updated (or, for the skipped tile above the diagonal, unchanged), and the output window is stored at the last
  key tile from the scratch — the region's invariant between points, and the body obligation at every point.
-/
import proofs.«168448_j29377576304777_2_alg».proof.Proof.BitsAttnRunD

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Views through which the output window's and the scratch buffers' contents are stated. -/
abbrev VO : View sig .tc .vmem S1x1024x128 .f32 := (Memref.whole cc1_stg3_0 : Memref sig .tc .vmem S1x1024x128 .f32).view
abbrev VM : View sig .tc .vmem S1024x1 .f32 := scM.view
abbrev VL : View sig .tc .vmem S1024x1 .f32 := scL.view
abbrev VA : View sig .tc .vmem S1024x128 .f32 := scA.view

/-- The output block, the running maximum, the running normaliser, the running weighted sum. -/
abbrev St (F : FTy → Type) : Type := Vec F S1x1024x128 .f32 × Vec F S1024x1 .f32 × Vec F S1024x1 .f32 × Vec F S1024x128 .f32

/-! ## The four kinds of point, each at the point's memrefs and input blocks -/

theorem cA0 (t : Fin cfg1.N) (h : t.val % 4 = 0) : condFirst (grid1.coords t) := (hcondFirst t).mpr (by omega)
theorem cA1 (t : Fin cfg1.N) (h : t.val % 4 = 0) : ¬condBelow (grid1.coords t) := fun hc => by have := (hcondBelow t).mp hc; omega
theorem cA2 (t : Fin cfg1.N) (h : t.val % 4 = 0) : condDiag (grid1.coords t) := (hcondDiag t).mpr (.inl h)
theorem cA3 (t : Fin cfg1.N) (h : t.val % 4 = 0) : ¬condLast (grid1.coords t) := fun hc => by have := (hcondLast t).mp hc; omega
theorem cB0 (t : Fin cfg1.N) (h : t.val % 4 = 1) : ¬condFirst (grid1.coords t) := fun hc => by have := (hcondFirst t).mp hc; omega
theorem cB1 (t : Fin cfg1.N) (h : t.val % 4 = 1) : ¬condBelow (grid1.coords t) := fun hc => by have := (hcondBelow t).mp hc; omega
theorem cB2 (t : Fin cfg1.N) (h : t.val % 4 = 1) : ¬condDiag (grid1.coords t) := fun hc => by have := (hcondDiag t).mp hc; omega
theorem cB3 (t : Fin cfg1.N) (h : t.val % 4 = 1) : condLast (grid1.coords t) := (hcondLast t).mpr (by omega)
theorem cC0 (t : Fin cfg1.N) (h : t.val % 4 = 2) : condFirst (grid1.coords t) := (hcondFirst t).mpr (by omega)
theorem cC1 (t : Fin cfg1.N) (h : t.val % 4 = 2) : condBelow (grid1.coords t) := (hcondBelow t).mpr h
theorem cC2 (t : Fin cfg1.N) (h : t.val % 4 = 2) : ¬condDiag (grid1.coords t) := fun hc => by have := (hcondDiag t).mp hc; omega
theorem cC3 (t : Fin cfg1.N) (h : t.val % 4 = 2) : ¬condLast (grid1.coords t) := fun hc => by have := (hcondLast t).mp hc; omega
theorem cD0 (t : Fin cfg1.N) (h : t.val % 4 = 3) : ¬condFirst (grid1.coords t) := fun hc => by have := (hcondFirst t).mp hc; omega
theorem cD1 (t : Fin cfg1.N) (h : t.val % 4 = 3) : ¬condBelow (grid1.coords t) := fun hc => by have := (hcondBelow t).mp hc; omega
theorem cD2 (t : Fin cfg1.N) (h : t.val % 4 = 3) : condDiag (grid1.coords t) := (hcondDiag t).mpr (.inr h)
theorem cD3 (t : Fin cfg1.N) (h : t.val % 4 = 3) : condLast (grid1.coords t) := (hcondLast t).mpr (by omega)

/-- The run at a point of the first kind. -/
def runA (c : Dev nD) (t : Fin cfg1.N) (h : t.val % 4 = 0) :=
  kernelRun_A (F := F) c (grid1.coords t) (msQ t) (hsQ t) (msK t) (hsK t) (msV t) (hsV t) (msO t) (hsO t) scM (Memref.isWhole_whole _) scL (Memref.isWhole_whole _) scA (Memref.isWhole_whole _) (cA0 t h) (cA1 t h) (cA2 t h) (cA3 t h) (iblk V c 0 t) (iblk V c 1 t) (iblk V c 2 t)
/-- The run at a point of the second kind, over the scratch contents the point before left. -/
def runB (c : Dev nD) (t : Fin cfg1.N) (h : t.val % 4 = 1) (p : St F) :=
  kernelRun_B (F := F) c (grid1.coords t) (msQ t) (hsQ t) (msK t) (hsK t) (msV t) (hsV t) (msO t) (hsO t) scM (Memref.isWhole_whole _) scL (Memref.isWhole_whole _) scA (Memref.isWhole_whole _) (cB0 t h) (cB1 t h) (cB2 t h) (cB3 t h) (iblk V c 0 t) (iblk V c 1 t) (iblk V c 2 t) p.2.1 p.2.2.1 p.2.2.2
/-- The run at a point of the third kind. -/
def runC (c : Dev nD) (t : Fin cfg1.N) (h : t.val % 4 = 2) :=
  kernelRun_C (F := F) c (grid1.coords t) (msQ t) (hsQ t) (msK t) (hsK t) (msV t) (hsV t) (msO t) (hsO t) scM (Memref.isWhole_whole _) scL (Memref.isWhole_whole _) scA (Memref.isWhole_whole _) (cC0 t h) (cC1 t h) (cC2 t h) (cC3 t h) (iblk V c 0 t) (iblk V c 1 t) (iblk V c 2 t)
/-- The run at a point of the fourth kind, over the scratch contents the point before left. -/
def runD (c : Dev nD) (t : Fin cfg1.N) (h : t.val % 4 = 3) (p : St F) :=
  kernelRun_D (F := F) c (grid1.coords t) (msQ t) (hsQ t) (msK t) (hsK t) (msV t) (hsV t) (msO t) (hsO t) scM (Memref.isWhole_whole _) scL (Memref.isWhole_whole _) scA (Memref.isWhole_whole _) (cD0 t h) (cD1 t h) (cD2 t h) (cD3 t h) (iblk V c 0 t) (iblk V c 1 t) (iblk V c 2 t) p.2.1 p.2.2.1 p.2.2.2

/-- Each list of pieces a run finds is one whole-buffer store last, so it covers its buffer. -/
theorem coverA_M (c : Dev nD) (t : Fin cfg1.N) (h : t.val % 4 = 0) (y : S1024x1.Idx) : ∃ pc ∈ (runA V c t h).1, y ∈ pc.1.set :=
  View.cover_of_tiledL (runA V c t h).1 S1024x1.size (by unfold runA; sl_kernel_rfl) y
theorem coverA_L (c : Dev nD) (t : Fin cfg1.N) (h : t.val % 4 = 0) (y : S1024x1.Idx) : ∃ pc ∈ (runA V c t h).2.1, y ∈ pc.1.set :=
  View.cover_of_tiledL (runA V c t h).2.1 S1024x1.size (by unfold runA; sl_kernel_rfl) y
theorem coverA_A (c : Dev nD) (t : Fin cfg1.N) (h : t.val % 4 = 0) (y : S1024x128.Idx) : ∃ pc ∈ (runA V c t h).2.2.1, y ∈ pc.1.set :=
  View.cover_of_tiledL (runA V c t h).2.2.1 S1024x128.size (by unfold runA; sl_kernel_rfl) y
theorem coverC_M (c : Dev nD) (t : Fin cfg1.N) (h : t.val % 4 = 2) (y : S1024x1.Idx) : ∃ pc ∈ (runC V c t h).1, y ∈ pc.1.set :=
  View.cover_of_tiledL (runC V c t h).1 S1024x1.size (by unfold runC; sl_kernel_rfl) y
theorem coverC_L (c : Dev nD) (t : Fin cfg1.N) (h : t.val % 4 = 2) (y : S1024x1.Idx) : ∃ pc ∈ (runC V c t h).2.1, y ∈ pc.1.set :=
  View.cover_of_tiledL (runC V c t h).2.1 S1024x1.size (by unfold runC; sl_kernel_rfl) y
theorem coverC_A (c : Dev nD) (t : Fin cfg1.N) (h : t.val % 4 = 2) (y : S1024x128.Idx) : ∃ pc ∈ (runC V c t h).2.2.1, y ∈ pc.1.set :=
  View.cover_of_tiledL (runC V c t h).2.2.1 S1024x128.size (by unfold runC; sl_kernel_rfl) y
theorem coverB_O (c : Dev nD) (t : Fin cfg1.N) (h : t.val % 4 = 1) (p : St F) (y : S1x1024x128.Idx) : ∃ pc ∈ (runB V c t h p).1, y ∈ pc.1.set :=
  View.cover_of_tiledL (runB V c t h p).1 S1x1024x128.size (by unfold runB; sl_kernel_rfl) y
theorem coverD_O (c : Dev nD) (t : Fin cfg1.N) (h : t.val % 4 = 3) (p : St F) (y : S1x1024x128.Idx) : ∃ pc ∈ (runD V c t h p).1, y ∈ pc.1.set :=
  View.cover_of_tiledL (runD V c t h p).1 S1x1024x128.size (by unfold runD; sl_kernel_rfl) y
theorem coverD_M (c : Dev nD) (t : Fin cfg1.N) (h : t.val % 4 = 3) (p : St F) (y : S1024x1.Idx) : ∃ pc ∈ (runD V c t h p).2.1, y ∈ pc.1.set :=
  View.cover_of_tiledL (runD V c t h p).2.1 S1024x1.size (by unfold runD; sl_kernel_rfl) y
theorem coverD_L (c : Dev nD) (t : Fin cfg1.N) (h : t.val % 4 = 3) (p : St F) (y : S1024x1.Idx) : ∃ pc ∈ (runD V c t h p).2.2.1, y ∈ pc.1.set :=
  View.cover_of_tiledL (runD V c t h p).2.2.1 S1024x1.size (by unfold runD; sl_kernel_rfl) y
theorem coverD_A (c : Dev nD) (t : Fin cfg1.N) (h : t.val % 4 = 3) (p : St F) (y : S1024x128.Idx) : ∃ pc ∈ (runD V c t h p).2.2.2.1, y ∈ pc.1.set :=
  View.cover_of_tiledL (runD V c t h p).2.2.2.1 S1024x128.size (by unfold runD; sl_kernel_rfl) y

/-- What a point of the first kind leaves: the output window untouched (a placeholder nothing reads), the scratch at the run's pieces. -/
def stepA (c : Dev nD) (t : Fin cfg1.N) (h : t.val % 4 = 0) : St F :=
  (VO.read (Elt F) VO.junk, VM.read (Elt F) (VM.writes (Elt F) VM.junk (runA V c t h).1),
    VL.read (Elt F) (VL.writes (Elt F) VL.junk (runA V c t h).2.1), VA.read (Elt F) (VA.writes (Elt F) VA.junk (runA V c t h).2.2.1))
/-- What a point of the second kind leaves: the output window at the run's pieces, the scratch as it was. -/
def stepB (c : Dev nD) (t : Fin cfg1.N) (h : t.val % 4 = 1) (p : St F) : St F :=
  (VO.read (Elt F) (VO.writes (Elt F) VO.junk (runB V c t h p).1), p.2.1, p.2.2.1, p.2.2.2)
/-- What a point of the third kind leaves. -/
def stepC (c : Dev nD) (t : Fin cfg1.N) (h : t.val % 4 = 2) : St F :=
  (VO.read (Elt F) VO.junk, VM.read (Elt F) (VM.writes (Elt F) VM.junk (runC V c t h).1),
    VL.read (Elt F) (VL.writes (Elt F) VL.junk (runC V c t h).2.1), VA.read (Elt F) (VA.writes (Elt F) VA.junk (runC V c t h).2.2.1))
/-- What a point of the fourth kind leaves. -/
def stepD (c : Dev nD) (t : Fin cfg1.N) (h : t.val % 4 = 3) (p : St F) : St F :=
  (VO.read (Elt F) (VO.writes (Elt F) VO.junk (runD V c t h p).1), VM.read (Elt F) (VM.writes (Elt F) VM.junk (runD V c t h p).2.1),
    VL.read (Elt F) (VL.writes (Elt F) VL.junk (runD V c t h p).2.2.1), VA.read (Elt F) (VA.writes (Elt F) VA.junk (runD V c t h p).2.2.2.1))

/-- What the output window's buffer and the three scratch buffers hold after the body at position `n`. -/
def outsAt (c : Dev nD) : (n : ℕ) → n < cfg1.N → St F
  | 0, hn => stepA V c ⟨0, hn⟩ (Nat.zero_mod 4)
  | n + 1, hn =>
    if h0 : (n + 1) % 4 = 0 then stepA V c ⟨n + 1, hn⟩ h0
    else if h1 : (n + 1) % 4 = 1 then stepB V c ⟨n + 1, hn⟩ h1 (outsAt c n (Nat.lt_of_succ_lt hn))
    else if h2 : (n + 1) % 4 = 2 then stepC V c ⟨n + 1, hn⟩ h2
    else stepD V c ⟨n + 1, hn⟩ (show (n + 1) % 4 = 3 by omega) (outsAt c n (Nat.lt_of_succ_lt hn))

theorem outsAt_A (c : Dev nD) (t : Fin cfg1.N) (h : t.val % 4 = 0) : outsAt V c t.val t.isLt = stepA V c t h := by
  obtain ⟨n, hn⟩ := t
  cases n with
  | zero => rfl
  | succ n => exact dif_pos h
theorem outsAt_B (c : Dev nD) (t : Fin cfg1.N) (h : t.val % 4 = 1) :
    outsAt V c t.val t.isLt = stepB V c t h (outsAt V c (t.val - 1) (Nat.lt_of_le_of_lt (Nat.sub_le _ _) t.isLt)) := by
  obtain ⟨n, hn⟩ := t
  cases n with
  | zero => exact absurd (show (0 : ℕ) % 4 = 1 from h) (by decide)
  | succ n => exact (dif_neg (by dsimp only at h; omega)).trans ((dif_pos h).trans rfl)
theorem outsAt_C (c : Dev nD) (t : Fin cfg1.N) (h : t.val % 4 = 2) : outsAt V c t.val t.isLt = stepC V c t h := by
  obtain ⟨n, hn⟩ := t
  cases n with
  | zero => exact absurd (show (0 : ℕ) % 4 = 2 from h) (by decide)
  | succ n => exact (dif_neg (by dsimp only at h; omega)).trans ((dif_neg (by dsimp only at h; omega)).trans (dif_pos h))
theorem outsAt_D (c : Dev nD) (t : Fin cfg1.N) (h : t.val % 4 = 3) :
    outsAt V c t.val t.isLt = stepD V c t h (outsAt V c (t.val - 1) (Nat.lt_of_le_of_lt (Nat.sub_le _ _) t.isLt)) := by
  obtain ⟨n, hn⟩ := t
  cases n with
  | zero => exact absurd (show (0 : ℕ) % 4 = 3 from h) (by decide)
  | succ n => exact (dif_neg (by dsimp only at h; omega)).trans ((dif_neg (by dsimp only at h; omega)).trans ((dif_neg (by dsimp only at h; omega)).trans rfl))

/-- The region's invariant before position `n`: before the first point the class's (every scratch at anything);
    afterwards the three scratch buffers at what the point before left, the rest untouched. -/
def PhiS (c : Dev nD) : (n : ℕ) → n ≤ cfg1.N → sProp 𝕄
  | 0, _ => Pipeline.ΦA spec1 c
  | n + 1, hn => iprop(restWith c iprop(owns (c : Thread nD τ) scM fullShare (outsAt V c n hn).2.1 ∗ owns (c : Thread nD τ) scL fullShare (outsAt V c n hn).2.2.1 ∗ owns (c : Thread nD τ) scA fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c iprop(owns (c : Thread nD τ) scM fullShare (outsAt V c n hn).2.1 ∗ owns (c : Thread nD τ) scL fullShare (outsAt V c n hn).2.2.1 ∗ owns (c : Thread nD τ) scA fullShare (outsAt V c n hn).2.2.2) ∗ (∃ r, prngReg c r)) := rfl
theorem PhiS_pos (c : Dev nD) (n : ℕ) (h : n ≤ cfg1.N) (hz : n ≠ 0) :
    PhiS V c n h = iprop(restWith c iprop(owns (c : Thread nD τ) scM fullShare (outsAt V c (n - 1) (by omega)).2.1 ∗ owns (c : Thread nD τ) scL fullShare (outsAt V c (n - 1) (by omega)).2.2.1 ∗ owns (c : Thread nD τ) scA fullShare (outsAt V c (n - 1) (by omega)).2.2.2) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (msQ t) fullShare ((dat V c).before 0 t d))
    ∗ (∃ d, owns (c : Thread nD τ) (msK t) fullShare ((dat V c).before 1 t d))
    ∗ (∃ d, owns (c : Thread nD τ) (msV t) fullShare ((dat V c).before 2 t d))
    ∗ (∃ d, owns (c : Thread nD τ) (msO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point's residue modulo 4 says which of the four
    kinds it is; the invariant hands the body the scratch buffers at what the point before left (at anything before
    the first point) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (msQ t) fullShare ((dat V c).after 0 t) from by
    unfold Dat.leavesExact; rw [liveAt_0 t], after_0]
  rw [show (dat V c).leavesExact 1 t = owns (c : Thread nD τ) (msK t) fullShare ((dat V c).after 1 t) from by
    unfold Dat.leavesExact; rw [liveAt_1 t], after_1]
  rw [show (dat V c).leavesExact 2 t = owns (c : Thread nD τ) (msV t) fullShare ((dat V c).after 2 t) from by
    unfold Dat.leavesExact; rw [liveAt_2 t], after_2]
  rcases (by omega : t.val % 4 = 0 ∨ t.val % 4 = 1 ∨ t.val % 4 = 2 ∨ t.val % 4 = 3) with h | h | h | h
  · -- a first key tile: the scratch is reset, so what it held does not matter; the output window is handed back as found
    rw [Dat.leavesExact_idle (dat V c) 3 t (idleAt_3 t (by omega)) (noFlush_3 t (by omega))]
    rw [outsAt_A V c t h]
    unfold stepA; (try dsimp only)
    by_cases hz : t.val = 0
    · rw [PhiS_castSucc V c t, PhiS_zero V c _ _ hz, PhiA_eq]
      iintro ⟨⟨HR, Hg⟩, Ho, ⟨%d0, H0⟩, ⟨%d1, H1⟩, ⟨%d2, H2⟩, ⟨%d3, H3⟩⟩
      ihave HR' := (restWith_split c _) $$ HR
      icases HR' with ⟨Hrest, HM, HL, HA⟩
      iapply ((runA V c t h).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [Hrest HM HL HA Hg]
      · isplitl [Hrest HM HL HA]
        · iapply (restWith_join c _)
          isplitl [Hrest]; · iexact Hrest
          isplitl [HM]
          · unfold owns; iexists _; isplitr
            swap; · iexact HM
            ipureintro; exact View.read_writes_of_cover _ _ _ _ _ (coverA_M V c t h)
          isplitl [HL]
          · unfold owns; iexists _; isplitr
            swap; · iexact HL
            ipureintro; exact View.read_writes_of_cover _ _ _ _ _ (coverA_L V c t h)
          unfold owns; iexists _; isplitr
          swap; · iexact HA
          ipureintro; exact View.read_writes_of_cover _ _ _ _ _ (coverA_A V c t h)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨Hrest, HM, HL, HA⟩
      iapply ((runA V c t h).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [Hrest HM HL HA Hg]
      · isplitl [Hrest HM HL HA]
        · iapply (restWith_join c _)
          isplitl [Hrest]; · iexact Hrest
          isplitl [HM]
          · unfold owns; iexists _; isplitr
            swap; · iexact HM
            ipureintro; exact View.read_writes_of_cover _ _ _ _ _ (coverA_M V c t h)
          isplitl [HL]
          · unfold owns; iexists _; isplitr
            swap; · iexact HL
            ipureintro; exact View.read_writes_of_cover _ _ _ _ _ (coverA_L V c t h)
          unfold owns; iexists _; isplitr
          swap; · iexact HA
          ipureintro; exact View.read_writes_of_cover _ _ _ _ _ (coverA_A V c t h)
        iexact Hg
      isplitl [Ho]; · iexact Ho
      isplitl [H0]; · iexact H0
      isplitl [H1]; · iexact H1
      isplitl [H2]; · iexact H2
      iexists _; iexact H3
  · -- a last key tile: the scratch holds what the point before left, and the output window is stored
    rw [show (dat V c).leavesExact 3 t = owns (c : Thread nD τ) (msO t) fullShare ((dat V c).after 3 t) from by
      unfold Dat.leavesExact; rw [liveAt_3 t (by omega)], after_3]
    rw [outsAt_B V c t h]
    unfold stepB; (try dsimp only)
    have hz : t.val ≠ 0 := by omega
    rw [PhiS_castSucc V c t, PhiS_pos V c _ _ hz]
    iintro ⟨⟨HR, Hg⟩, Ho, ⟨%d0, H0⟩, ⟨%d1, H1⟩, ⟨%d2, H2⟩, ⟨%d3, H3⟩⟩
    ihave HR' := (restWith_split c _) $$ HR
    icases HR' with ⟨Hrest, HM, HL, HA⟩
    iapply ((runB V c t h _).2 Set.univ _)
    isplitl [H0]; · iexact H0
    isplitl [H1]; · iexact H1
    isplitl [H2]; · iexact H2
    isplitl [H3]; · iexists _; iexact H3
    isplitl [HM]; · iexact HM
    isplitl [HL]; · iexact HL
    isplitl [HA]; · iexact HA
    iintro ⟨H0, H1, H2, ⟨%eO, H3⟩, HM, HL, HA⟩
    isplitl [Hrest HM HL HA Hg]
    · isplitl [Hrest HM HL HA]
      · iapply (restWith_join c _)
        isplitl [Hrest]; · iexact Hrest
        isplitl [HM]; · iexact HM
        isplitl [HL]; · iexact HL
        iexact HA
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB_O V c t h _)
  · -- a first key tile: the scratch is reset, so what it held does not matter; the output window is handed back as found
    rw [Dat.leavesExact_idle (dat V c) 3 t (idleAt_3 t (by omega)) (noFlush_3 t (by omega))]
    rw [outsAt_C V c t h]
    unfold stepC; (try dsimp only)
    by_cases hz : t.val = 0
    · exfalso; omega
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨Hrest, HM, HL, HA⟩
      iapply ((runC V c t h).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [Hrest HM HL HA Hg]
      · isplitl [Hrest HM HL HA]
        · iapply (restWith_join c _)
          isplitl [Hrest]; · iexact Hrest
          isplitl [HM]
          · unfold owns; iexists _; isplitr
            swap; · iexact HM
            ipureintro; exact View.read_writes_of_cover _ _ _ _ _ (coverC_M V c t h)
          isplitl [HL]
          · unfold owns; iexists _; isplitr
            swap; · iexact HL
            ipureintro; exact View.read_writes_of_cover _ _ _ _ _ (coverC_L V c t h)
          unfold owns; iexists _; isplitr
          swap; · iexact HA
          ipureintro; exact View.read_writes_of_cover _ _ _ _ _ (coverC_A V c t h)
        iexact Hg
      isplitl [Ho]; · iexact Ho
      isplitl [H0]; · iexact H0
      isplitl [H1]; · iexact H1
      isplitl [H2]; · iexact H2
      iexists _; iexact H3
  · -- a last key tile: the scratch holds what the point before left, and the output window is stored
    rw [show (dat V c).leavesExact 3 t = owns (c : Thread nD τ) (msO t) fullShare ((dat V c).after 3 t) from by
      unfold Dat.leavesExact; rw [liveAt_3 t (by omega)], after_3]
    rw [outsAt_D V c t h]
    unfold stepD; (try dsimp only)
    have hz : t.val ≠ 0 := by omega
    rw [PhiS_castSucc V c t, PhiS_pos V c _ _ hz]
    iintro ⟨⟨HR, Hg⟩, Ho, ⟨%d0, H0⟩, ⟨%d1, H1⟩, ⟨%d2, H2⟩, ⟨%d3, H3⟩⟩
    ihave HR' := (restWith_split c _) $$ HR
    icases HR' with ⟨Hrest, HM, HL, HA⟩
    iapply ((runD V c t h _).2.2.2.2 Set.univ _)
    isplitl [H0]; · iexact H0
    isplitl [H1]; · iexact H1
    isplitl [H2]; · iexact H2
    isplitl [H3]; · iexists _; iexact H3
    isplitl [HM]; · iexact HM
    isplitl [HL]; · iexact HL
    isplitl [HA]; · iexact HA
    iintro ⟨H0, H1, H2, ⟨%eO, H3⟩, ⟨%eM, HM⟩, ⟨%eL, HL⟩, ⟨%eA, HA⟩⟩
    isplitl [Hrest HM HL HA Hg]
    · isplitl [Hrest HM HL HA]
      · iapply (restWith_join c _)
        isplitl [Hrest]; · iexact Hrest
        isplitl [HM]
        · unfold owns; iexists _; isplitr
          swap; · iexact HM
          ipureintro; exact View.read_writes_of_cover _ _ _ _ _ (coverD_M V c t h _)
        isplitl [HL]
        · unfold owns; iexists _; isplitr
          swap; · iexact HL
          ipureintro; exact View.read_writes_of_cover _ _ _ _ _ (coverD_L V c t h _)
        unfold owns; iexists _; isplitr
        swap; · iexact HA
        ipureintro; exact View.read_writes_of_cover _ _ _ _ _ (coverD_A V c t h _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverD_O V c t h _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch contents are forgotten. -/
theorem hout (c : Dev nD) : (dat V c).Φ (Fin.last cfg1.N) ⊢ Pipeline.ΦA spec1 c := by
  have ht : (Fin.last cfg1.N).val ≠ 0 := by rw [Fin.val_last]; have : cfg1.N = 128 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨HR, Hg⟩
  ihave HR' := (restWith_split c _) $$ HR
  icases HR' with ⟨Hrest, HM, HL, HA⟩
  isplitl [Hrest HM HL HA]
  · iapply (restWith_join c _)
    isplitl [Hrest]; · iexact Hrest
    isplitl [HM]; · iexists _; iexact HM
    isplitl [HL]; · iexists _; iexact HL
    iexists _; iexact HA
  iexact Hg

end Cert.Kernel.Attn

end
-- ==== Proof.BitsWholeRun.lean ====
/-
  The whole run of the kernel's @main (the program as printed, read at any float instance): one host stretch (the three weight matrices joined side by side),
  then the projection region, then the attention region. The contents of the core's unscoped buffers at each boundary
  are a fold from the launch memory: after the host stretch, after region 0 (its three output arrays at what its
  write-backs leave), after region 1 (the result array at what its write-backs leave). Every weakly fair execution
  terminates without a fault in a state whose memory holds that last valuation; the argument arrays are read back
  through the fold to their launch contents and the result array to the attention region's final array.
-/
import proofs.«168448_j29377576304777_2_alg».proof.Proof.BitsProjBody
import proofs.«168448_j29377576304777_2_alg».proof.Proof.BitsAttnData
import proofs.«168448_j29377576304777_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (Proj.dat (E1 m ρ) c).arrAt w cfg0.N
theorem W2_arr (c : Dev nD) (w : Fin cfg0.W) :
    W2 m ρ c (Proc.devRef .tc (Pipeline.arrRef spec0 w)) = (Proj.dat (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (Proj.dat (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At region 1's exit (no host operation stands between the two regions). -/
def W3 (c : Dev nD) : Valuation τ sig (Elt F) :=
  Pipeline.withArrays spec1 c (W2 m ρ c) fun w => (Attn.dat (E2 m ρ) c).arrAt w cfg1.N
theorem W3_arr (c : Dev nD) (w : Fin cfg1.W) :
    W3 m ρ c (Proc.devRef .tc (Pipeline.arrRef spec1 w)) = (Attn.dat (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (Attn.dat (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- `main_arg0` ends as launched: the host stretch does not write it and no region changes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((Proj.dat (E1 m ρ) c).arrAt_in 0 rfl _).trans (Proj.A_eq (E1 m ρ) c 0))
    _ = W0 m ρ c (Proc.devRef .tc main_arg0) := StableHlo.after_of_writes_sub hostOps0 _ hostOps0_writes (r := main_arg0) (by decide)
    _ = m ((c : Thread nD τ).loc main_arg0) := rfl

/-- `main_arg1` ends as launched: the host stretch does not write it and no region changes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- `main_arg2` ends as launched: the host stretch does not write it and no region changes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- `main_arg3` ends as launched: the host stretch does not write it and no region changes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- The result array ends at what the attention region's write-backs leave in it. -/
theorem W3_main_v2 (c : Dev nD) : W3 m ρ c (Proc.devRef .tc main_v2) = (Attn.dat (E2 m ρ) c).arrAt 3 cfg1.N :=
  W3_arr m ρ c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (E1 m ρ) c
  | ⟨1, _⟩ => fun c => Attn.dat (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: its arrays are split out of the unscoped buffers at entry and put back at their
    final contents at exit; the generator register goes into the region's invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Proj.hin (E1 m ρ) c)
    unfold Pipeline.ΦA
    iintro ⟨Hp, -, Hr⟩
    isplitl [Hr]; · iexact Hr
    iexact Hp
  hout c := by
    rw [Pipeline.ownSems0_none]
    refine BIBase.Entails.trans (Proj.hout (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at their
    final contents at exit; the generator register goes into the region's invariant and comes back; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.hin (E2 m ρ) c)
    unfold Pipeline.ΦA
    iintro ⟨Hp, -, Hr⟩
    isplitl [Hr]; · iexact Hr
    iexact Hp
  hout c := by
    rw [Pipeline.ownSems0_none]
    refine BIBase.Entails.trans (Attn.hout (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (mainSegs m ρ) := (main_chain c).trans (by chain_rfl)

set_option backward.isDefEq.respectTransparency.types false in
/-- THE RUN: from any memory with zero counters every weakly fair execution of @main on the TensorCores terminates,
    nothing faulting, in a state holding the result array at what the attention region's write-backs leave and every
    argument array as launched. -/
theorem run : θ_run defs (onTc (τ := τ) (main (F := F))) ⟨m, fun _ => 0, ρ⟩ (fun r => ∀ c : Dev nD,
      r.2.mem ((c.tc : Thread nD τ).loc main_v2) = (Attn.dat (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Whole

end
-- ==== Proof.AttnShared.lean ====
/-
  Region 1 of the idealized kernel's @main: causal attention, one batch element and one 1024-row query tile at a
  time, the key tiles visited in order (grid 32 × 2 × 2, the key-tile axis innermost). Three scratch buffers carry the
  running row maximum, the running normaliser and the running weighted sum of value rows from one key tile to the
  next. This module holds what the four kinds of grid point share: the body's four branch conditions as functions of
  the grid point and their closed forms over the 128 points, where the output window is idle, and the region's
  invariant with the three scratch buffers named.
  The grid point t = 4·b + 2·qi + ki. The four kinds: t ≡ 0 (mod 4): first (and diagonal) key tile of query tile 0;
  t ≡ 1: the skipped tile above the diagonal, where only the final division happens; t ≡ 2: first (unmasked) key tile
  of query tile 1; t ≡ 3: the diagonal tile of query tile 1, then the final division.
-/
import proofs.«168448_j29377576304777_2_alg».proof.Proof.Gen.KernelIdeal.Launch
import proofs.«168448_j29377576304777_2_alg».proof.Proof.Gen.KernelIdeal.Skeleton
import proofs.«168448_j29377576304777_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- "This is the first key tile" (the scratch is reset). -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 2 = 0 :=
  (by decide +kernel : ∀ t : Fin grid1.N, condFirst (grid1.coords t) ↔ t.val % 2 = 0)

/-- "The key tile lies strictly below the diagonal" (no mask). -/
abbrev condBelow (i : grid1.Coords) : Prop := (Scalar.cmpi .ne (Scalar.extui (Scalar.cmpi .slt (BitVec.ofNat 32 (i 2).val) (BitVec.ofNat 32 (i 1).val))) 0#32) = 1#1
theorem hcondBelow : ∀ t : Fin cfg1.N, condBelow (grid1.coords t) ↔ t.val % 4 = 2 :=
  (by decide +kernel : ∀ t : Fin grid1.N, condBelow (grid1.coords t) ↔ t.val % 4 = 2)

/-- "The key tile is the diagonal one" (triangular mask). -/
abbrev condDiag (i : grid1.Coords) : Prop := (Scalar.cmpi .ne (Scalar.extui (Scalar.cmpi .eq (BitVec.ofNat 32 (i 2).val) (BitVec.ofNat 32 (i 1).val))) 0#32) = 1#1
theorem hcondDiag : ∀ t : Fin cfg1.N, condDiag (grid1.coords t) ↔ (t.val % 4 = 0 ∨ t.val % 4 = 3) :=
  (by decide +kernel : ∀ t : Fin grid1.N, condDiag (grid1.coords t) ↔ (t.val % 4 = 0 ∨ t.val % 4 = 3))

/-- "This is the last key tile" (the output is written). -/
abbrev condLast (i : grid1.Coords) : Prop := k1_cond4 i = 1#1
theorem hcondLast : ∀ t : Fin cfg1.N, condLast (grid1.coords t) ↔ t.val % 2 = 1 :=
  (by decide +kernel : ∀ t : Fin grid1.N, condLast (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- At the first key tile nothing is stored into the output window and its block is not written back. -/
theorem idleAt_3 : ∀ t : Fin cfg1.N, t.val % 2 = 0 → cfg1.idle 3 (grid1.coords t) = true := by decide +kernel
theorem noFlush_3 : ∀ t : Fin cfg1.N, t.val % 2 = 0 → (cfg1.win 3).flush t = false := by decide +kernel
/-- At the last key tile the output window is stored whole. -/
theorem liveAt_3 : ∀ t : Fin cfg1.N, t.val % 2 = 1 → cfg1.idle 3 (grid1.coords t) = false := by decide +kernel

/-! ## The staging memrefs and the scratch -/

abbrev msQ (t : Fin cfg1.N) : Memref sig .tc .vmem S1x1024x128 .bf16 := win1_0.stage (cfg1.slots t 0)
abbrev hsQ (t : Fin cfg1.N) : (msQ t).IsWhole := hstage1_0 ((cfg1.slots t 0).cast nbuf1_0)
abbrev msK (t : Fin cfg1.N) : Memref sig .tc .vmem S1x1024x128 .bf16 := win1_1.stage (cfg1.slots t 1)
abbrev hsK (t : Fin cfg1.N) : (msK t).IsWhole := hstage1_1 ((cfg1.slots t 1).cast nbuf1_1)
abbrev msV (t : Fin cfg1.N) : Memref sig .tc .vmem S1x1024x128 .bf16 := win1_2.stage (cfg1.slots t 2)
abbrev hsV (t : Fin cfg1.N) : (msV t).IsWhole := hstage1_2 ((cfg1.slots t 2).cast nbuf1_2)
abbrev msO (t : Fin cfg1.N) : Memref sig .tc .vmem S1x1024x128 .f32 := win1_3.stage (cfg1.slots t 3)
abbrev hsO (t : Fin cfg1.N) : (msO t).IsWhole := hstage1_3 ((cfg1.slots t 3).cast nbuf1_3)
/-- The running row maximum, the running normaliser, the running weighted sum. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-- The scoped buffers of the core that this region never touches (the other region's staging buffers), each at some
    contents, conjoined with `X` last. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ X)

/-- The same buffers alone. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

theorem restWith_split (c : Dev nD) (X : sProp 𝕄) : restWith c X ⊢ iprop(otherStaging c ∗ X) := by
  unfold restWith otherStaging
  iintro ⟨H1, H2, H3, H4, H5, H6, H7, H8, H9, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact HX

theorem restWith_join (c : Dev nD) (X : sProp 𝕄) : iprop(otherStaging c ∗ X) ⊢ restWith c X := by
  unfold restWith otherStaging
  iintro ⟨⟨H1, H2, H3, H4, H5, H6, H7, H8, H9⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HX

/-- The class invariant with the three scratch buffers named as memrefs owned at some contents. -/
theorem PhiA_eq (c : Dev nD) :
    (Pipeline.ΦA spec1 c : sProp 𝕄)
      = iprop(restWith c iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; unfold restWith; simp only [scM, scL, scA, owns_whole]; try rfl

end Cert.KernelIdeal.Attn

end
-- ==== Proof.AttnRunA.lean ====
/-
  The attention body run symbolically at a grid point of the first kind (first key tile of query tile 0: the scratch
  is reset, then the diagonal tile is folded in under the triangular mask).
-/
import proofs.«168448_j29377576304777_2_alg».proof.Proof.AttnShared

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first key tile of query tile 0 (reset, then the masked diagonal update): the inputs and the idle output window are handed back as found, each scratch buffer ends with the pieces the run finds. -/
noncomputable def kernelRun_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : condFirst i) (hc1 : ¬condBelow i) (hc2 : condDiag i) (hc3 : ¬condLast i)
    (xq xk xv : Vec F S1x1024x128 .bf16) :
    Σ' (LM : List (View.Piece (Elt F) S1024x1 .f32)) (LL : List (View.Piece (Elt F) S1024x1 .f32)), { LA : List (View.Piece (Elt F) S1024x128 .f32) //
      ∀ (xo : Vec F S1x1024x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xo ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Attn

end
-- ==== Proof.AttnRunB.lean ====
/-
  The attention body run symbolically at a grid point of the second kind (the key tile above the diagonal of query
  tile 0 is skipped: only the final division of the weighted sum by the normaliser happens).
-/
import proofs.«168448_j29377576304777_2_alg».proof.Proof.AttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the skipped key tile of query tile 0 (only the final division): the inputs and the three scratch buffers are handed back as found, the output window ends with the pieces the run finds. -/
noncomputable def kernelRun_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬condFirst i) (hc1 : ¬condBelow i) (hc2 : ¬condDiag i) (hc3 : condLast i)
    (xq xk xv : Vec F S1x1024x128 .bf16) (xm xl : Vec F S1024x1 .f32) (xa : Vec F S1024x128 .f32) :
    { LO : List (View.Piece (Elt F) S1x1024x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO) ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Attn

end
-- ==== Proof.AttnRunC.lean ====
/-
  The attention body run symbolically at a grid point of the third kind (first key tile of query tile 1: the scratch
  is reset, then the unmasked tile is folded in).
-/
import proofs.«168448_j29377576304777_2_alg».proof.Proof.AttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first key tile of query tile 1 (reset, then the unmasked update): the inputs and the idle output window are handed back as found, each scratch buffer ends with the pieces the run finds. -/
noncomputable def kernelRun_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : condFirst i) (hc1 : condBelow i) (hc2 : ¬condDiag i) (hc3 : ¬condLast i)
    (xq xk xv : Vec F S1x1024x128 .bf16) :
    Σ' (LM : List (View.Piece (Elt F) S1024x1 .f32)) (LL : List (View.Piece (Elt F) S1024x1 .f32)), { LA : List (View.Piece (Elt F) S1024x128 .f32) //
      ∀ (xo : Vec F S1x1024x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xo ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Attn

end
-- ==== Proof.AttnRunD.lean ====
/-
  The attention body run symbolically at a grid point of the fourth kind (the diagonal key tile of query tile 1 is
  folded into what the tile before left, then the final division happens).
-/
import proofs.«168448_j29377576304777_2_alg».proof.Proof.AttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the diagonal key tile of query tile 1 (the masked update over what the tile before left, then the final division): the inputs are handed back as found, the scratch buffers and the output window end with the pieces the run finds. -/
noncomputable def kernelRun_D (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬condFirst i) (hc1 : ¬condBelow i) (hc2 : condDiag i) (hc3 : condLast i)
    (xq xk xv : Vec F S1x1024x128 .bf16) (xm xl : Vec F S1024x1 .f32) (xa : Vec F S1024x128 .f32) :
    Σ' (LO : List (View.Piece (Elt F) S1x1024x128 .f32)) (LM : List (View.Piece (Elt F) S1024x1 .f32)) (LL : List (View.Piece (Elt F) S1024x1 .f32)), { LA : List (View.Piece (Elt F) S1024x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d) ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton, k1_part2_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Attn

end
-- ==== Proof.AttnData.lean ====
/-
  The proof data of the attention region: what the three scratch buffers (running row maximum, running normaliser,
  running weighted sum) and the output window hold after the body at each grid point, by recursion on the point —
  at the first key tile of a query tile the scratch is what that tile alone gives, at the next tile it is the previous
  contents updated (or, for the skipped tile above the diagonal, unchanged), and the output window is stored at the last
  key tile from the scratch — the region's invariant between points, and the body obligation at every point.
-/
import proofs.«168448_j29377576304777_2_alg».proof.Proof.AttnRunD

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Views through which the output window's and the scratch buffers' contents are stated. -/
abbrev VO : View sig .tc .vmem S1x1024x128 .f32 := (Memref.whole cc1_stg3_0 : Memref sig .tc .vmem S1x1024x128 .f32).view
abbrev VM : View sig .tc .vmem S1024x1 .f32 := scM.view
abbrev VL : View sig .tc .vmem S1024x1 .f32 := scL.view
abbrev VA : View sig .tc .vmem S1024x128 .f32 := scA.view

/-- The output block, the running maximum, the running normaliser, the running weighted sum. -/
abbrev St (F : FTy → Type) : Type := Vec F S1x1024x128 .f32 × Vec F S1024x1 .f32 × Vec F S1024x1 .f32 × Vec F S1024x128 .f32

/-! ## The four kinds of point, each at the point's memrefs and input blocks -/

theorem cA0 (t : Fin cfg1.N) (h : t.val % 4 = 0) : condFirst (grid1.coords t) := (hcondFirst t).mpr (by omega)
theorem cA1 (t : Fin cfg1.N) (h : t.val % 4 = 0) : ¬condBelow (grid1.coords t) := fun hc => by have := (hcondBelow t).mp hc; omega
theorem cA2 (t : Fin cfg1.N) (h : t.val % 4 = 0) : condDiag (grid1.coords t) := (hcondDiag t).mpr (.inl h)
theorem cA3 (t : Fin cfg1.N) (h : t.val % 4 = 0) : ¬condLast (grid1.coords t) := fun hc => by have := (hcondLast t).mp hc; omega
theorem cB0 (t : Fin cfg1.N) (h : t.val % 4 = 1) : ¬condFirst (grid1.coords t) := fun hc => by have := (hcondFirst t).mp hc; omega
theorem cB1 (t : Fin cfg1.N) (h : t.val % 4 = 1) : ¬condBelow (grid1.coords t) := fun hc => by have := (hcondBelow t).mp hc; omega
theorem cB2 (t : Fin cfg1.N) (h : t.val % 4 = 1) : ¬condDiag (grid1.coords t) := fun hc => by have := (hcondDiag t).mp hc; omega
theorem cB3 (t : Fin cfg1.N) (h : t.val % 4 = 1) : condLast (grid1.coords t) := (hcondLast t).mpr (by omega)
theorem cC0 (t : Fin cfg1.N) (h : t.val % 4 = 2) : condFirst (grid1.coords t) := (hcondFirst t).mpr (by omega)
theorem cC1 (t : Fin cfg1.N) (h : t.val % 4 = 2) : condBelow (grid1.coords t) := (hcondBelow t).mpr h
theorem cC2 (t : Fin cfg1.N) (h : t.val % 4 = 2) : ¬condDiag (grid1.coords t) := fun hc => by have := (hcondDiag t).mp hc; omega
theorem cC3 (t : Fin cfg1.N) (h : t.val % 4 = 2) : ¬condLast (grid1.coords t) := fun hc => by have := (hcondLast t).mp hc; omega
theorem cD0 (t : Fin cfg1.N) (h : t.val % 4 = 3) : ¬condFirst (grid1.coords t) := fun hc => by have := (hcondFirst t).mp hc; omega
theorem cD1 (t : Fin cfg1.N) (h : t.val % 4 = 3) : ¬condBelow (grid1.coords t) := fun hc => by have := (hcondBelow t).mp hc; omega
theorem cD2 (t : Fin cfg1.N) (h : t.val % 4 = 3) : condDiag (grid1.coords t) := (hcondDiag t).mpr (.inr h)
theorem cD3 (t : Fin cfg1.N) (h : t.val % 4 = 3) : condLast (grid1.coords t) := (hcondLast t).mpr (by omega)

/-- The run at a point of the first kind. -/
def runA (c : Dev nD) (t : Fin cfg1.N) (h : t.val % 4 = 0) :=
  kernelRun_A (F := F) c (grid1.coords t) (msQ t) (hsQ t) (msK t) (hsK t) (msV t) (hsV t) (msO t) (hsO t) scM (Memref.isWhole_whole _) scL (Memref.isWhole_whole _) scA (Memref.isWhole_whole _) (cA0 t h) (cA1 t h) (cA2 t h) (cA3 t h) (iblk V c 0 t) (iblk V c 1 t) (iblk V c 2 t)
/-- The run at a point of the second kind, over the scratch contents the point before left. -/
def runB (c : Dev nD) (t : Fin cfg1.N) (h : t.val % 4 = 1) (p : St F) :=
  kernelRun_B (F := F) c (grid1.coords t) (msQ t) (hsQ t) (msK t) (hsK t) (msV t) (hsV t) (msO t) (hsO t) scM (Memref.isWhole_whole _) scL (Memref.isWhole_whole _) scA (Memref.isWhole_whole _) (cB0 t h) (cB1 t h) (cB2 t h) (cB3 t h) (iblk V c 0 t) (iblk V c 1 t) (iblk V c 2 t) p.2.1 p.2.2.1 p.2.2.2
/-- The run at a point of the third kind. -/
def runC (c : Dev nD) (t : Fin cfg1.N) (h : t.val % 4 = 2) :=
  kernelRun_C (F := F) c (grid1.coords t) (msQ t) (hsQ t) (msK t) (hsK t) (msV t) (hsV t) (msO t) (hsO t) scM (Memref.isWhole_whole _) scL (Memref.isWhole_whole _) scA (Memref.isWhole_whole _) (cC0 t h) (cC1 t h) (cC2 t h) (cC3 t h) (iblk V c 0 t) (iblk V c 1 t) (iblk V c 2 t)
/-- The run at a point of the fourth kind, over the scratch contents the point before left. -/
def runD (c : Dev nD) (t : Fin cfg1.N) (h : t.val % 4 = 3) (p : St F) :=
  kernelRun_D (F := F) c (grid1.coords t) (msQ t) (hsQ t) (msK t) (hsK t) (msV t) (hsV t) (msO t) (hsO t) scM (Memref.isWhole_whole _) scL (Memref.isWhole_whole _) scA (Memref.isWhole_whole _) (cD0 t h) (cD1 t h) (cD2 t h) (cD3 t h) (iblk V c 0 t) (iblk V c 1 t) (iblk V c 2 t) p.2.1 p.2.2.1 p.2.2.2

/-- Each list of pieces a run finds is one whole-buffer store last, so it covers its buffer. -/
theorem coverA_M (c : Dev nD) (t : Fin cfg1.N) (h : t.val % 4 = 0) (y : S1024x1.Idx) : ∃ pc ∈ (runA V c t h).1, y ∈ pc.1.set :=
  View.cover_of_tiledL (runA V c t h).1 S1024x1.size (by unfold runA; sl_kernel_rfl) y
theorem coverA_L (c : Dev nD) (t : Fin cfg1.N) (h : t.val % 4 = 0) (y : S1024x1.Idx) : ∃ pc ∈ (runA V c t h).2.1, y ∈ pc.1.set :=
  View.cover_of_tiledL (runA V c t h).2.1 S1024x1.size (by unfold runA; sl_kernel_rfl) y
theorem coverA_A (c : Dev nD) (t : Fin cfg1.N) (h : t.val % 4 = 0) (y : S1024x128.Idx) : ∃ pc ∈ (runA V c t h).2.2.1, y ∈ pc.1.set :=
  View.cover_of_tiledL (runA V c t h).2.2.1 S1024x128.size (by unfold runA; sl_kernel_rfl) y
theorem coverC_M (c : Dev nD) (t : Fin cfg1.N) (h : t.val % 4 = 2) (y : S1024x1.Idx) : ∃ pc ∈ (runC V c t h).1, y ∈ pc.1.set :=
  View.cover_of_tiledL (runC V c t h).1 S1024x1.size (by unfold runC; sl_kernel_rfl) y
theorem coverC_L (c : Dev nD) (t : Fin cfg1.N) (h : t.val % 4 = 2) (y : S1024x1.Idx) : ∃ pc ∈ (runC V c t h).2.1, y ∈ pc.1.set :=
  View.cover_of_tiledL (runC V c t h).2.1 S1024x1.size (by unfold runC; sl_kernel_rfl) y
theorem coverC_A (c : Dev nD) (t : Fin cfg1.N) (h : t.val % 4 = 2) (y : S1024x128.Idx) : ∃ pc ∈ (runC V c t h).2.2.1, y ∈ pc.1.set :=
  View.cover_of_tiledL (runC V c t h).2.2.1 S1024x128.size (by unfold runC; sl_kernel_rfl) y
theorem coverB_O (c : Dev nD) (t : Fin cfg1.N) (h : t.val % 4 = 1) (p : St F) (y : S1x1024x128.Idx) : ∃ pc ∈ (runB V c t h p).1, y ∈ pc.1.set :=
  View.cover_of_tiledL (runB V c t h p).1 S1x1024x128.size (by unfold runB; sl_kernel_rfl) y
theorem coverD_O (c : Dev nD) (t : Fin cfg1.N) (h : t.val % 4 = 3) (p : St F) (y : S1x1024x128.Idx) : ∃ pc ∈ (runD V c t h p).1, y ∈ pc.1.set :=
  View.cover_of_tiledL (runD V c t h p).1 S1x1024x128.size (by unfold runD; sl_kernel_rfl) y
theorem coverD_M (c : Dev nD) (t : Fin cfg1.N) (h : t.val % 4 = 3) (p : St F) (y : S1024x1.Idx) : ∃ pc ∈ (runD V c t h p).2.1, y ∈ pc.1.set :=
  View.cover_of_tiledL (runD V c t h p).2.1 S1024x1.size (by unfold runD; sl_kernel_rfl) y
theorem coverD_L (c : Dev nD) (t : Fin cfg1.N) (h : t.val % 4 = 3) (p : St F) (y : S1024x1.Idx) : ∃ pc ∈ (runD V c t h p).2.2.1, y ∈ pc.1.set :=
  View.cover_of_tiledL (runD V c t h p).2.2.1 S1024x1.size (by unfold runD; sl_kernel_rfl) y
theorem coverD_A (c : Dev nD) (t : Fin cfg1.N) (h : t.val % 4 = 3) (p : St F) (y : S1024x128.Idx) : ∃ pc ∈ (runD V c t h p).2.2.2.1, y ∈ pc.1.set :=
  View.cover_of_tiledL (runD V c t h p).2.2.2.1 S1024x128.size (by unfold runD; sl_kernel_rfl) y

/-- What a point of the first kind leaves: the output window untouched (a placeholder nothing reads), the scratch at the run's pieces. -/
def stepA (c : Dev nD) (t : Fin cfg1.N) (h : t.val % 4 = 0) : St F :=
  (VO.read (Elt F) VO.junk, VM.read (Elt F) (VM.writes (Elt F) VM.junk (runA V c t h).1),
    VL.read (Elt F) (VL.writes (Elt F) VL.junk (runA V c t h).2.1), VA.read (Elt F) (VA.writes (Elt F) VA.junk (runA V c t h).2.2.1))
/-- What a point of the second kind leaves: the output window at the run's pieces, the scratch as it was. -/
def stepB (c : Dev nD) (t : Fin cfg1.N) (h : t.val % 4 = 1) (p : St F) : St F :=
  (VO.read (Elt F) (VO.writes (Elt F) VO.junk (runB V c t h p).1), p.2.1, p.2.2.1, p.2.2.2)
/-- What a point of the third kind leaves. -/
def stepC (c : Dev nD) (t : Fin cfg1.N) (h : t.val % 4 = 2) : St F :=
  (VO.read (Elt F) VO.junk, VM.read (Elt F) (VM.writes (Elt F) VM.junk (runC V c t h).1),
    VL.read (Elt F) (VL.writes (Elt F) VL.junk (runC V c t h).2.1), VA.read (Elt F) (VA.writes (Elt F) VA.junk (runC V c t h).2.2.1))
/-- What a point of the fourth kind leaves. -/
def stepD (c : Dev nD) (t : Fin cfg1.N) (h : t.val % 4 = 3) (p : St F) : St F :=
  (VO.read (Elt F) (VO.writes (Elt F) VO.junk (runD V c t h p).1), VM.read (Elt F) (VM.writes (Elt F) VM.junk (runD V c t h p).2.1),
    VL.read (Elt F) (VL.writes (Elt F) VL.junk (runD V c t h p).2.2.1), VA.read (Elt F) (VA.writes (Elt F) VA.junk (runD V c t h p).2.2.2.1))

/-- What the output window's buffer and the three scratch buffers hold after the body at position `n`. -/
def outsAt (c : Dev nD) : (n : ℕ) → n < cfg1.N → St F
  | 0, hn => stepA V c ⟨0, hn⟩ (Nat.zero_mod 4)
  | n + 1, hn =>
    if h0 : (n + 1) % 4 = 0 then stepA V c ⟨n + 1, hn⟩ h0
    else if h1 : (n + 1) % 4 = 1 then stepB V c ⟨n + 1, hn⟩ h1 (outsAt c n (Nat.lt_of_succ_lt hn))
    else if h2 : (n + 1) % 4 = 2 then stepC V c ⟨n + 1, hn⟩ h2
    else stepD V c ⟨n + 1, hn⟩ (show (n + 1) % 4 = 3 by omega) (outsAt c n (Nat.lt_of_succ_lt hn))

theorem outsAt_A (c : Dev nD) (t : Fin cfg1.N) (h : t.val % 4 = 0) : outsAt V c t.val t.isLt = stepA V c t h := by
  obtain ⟨n, hn⟩ := t
  cases n with
  | zero => rfl
  | succ n => exact dif_pos h
theorem outsAt_B (c : Dev nD) (t : Fin cfg1.N) (h : t.val % 4 = 1) :
    outsAt V c t.val t.isLt = stepB V c t h (outsAt V c (t.val - 1) (Nat.lt_of_le_of_lt (Nat.sub_le _ _) t.isLt)) := by
  obtain ⟨n, hn⟩ := t
  cases n with
  | zero => exact absurd (show (0 : ℕ) % 4 = 1 from h) (by decide)
  | succ n => exact (dif_neg (by dsimp only at h; omega)).trans ((dif_pos h).trans rfl)
theorem outsAt_C (c : Dev nD) (t : Fin cfg1.N) (h : t.val % 4 = 2) : outsAt V c t.val t.isLt = stepC V c t h := by
  obtain ⟨n, hn⟩ := t
  cases n with
  | zero => exact absurd (show (0 : ℕ) % 4 = 2 from h) (by decide)
  | succ n => exact (dif_neg (by dsimp only at h; omega)).trans ((dif_neg (by dsimp only at h; omega)).trans (dif_pos h))
theorem outsAt_D (c : Dev nD) (t : Fin cfg1.N) (h : t.val % 4 = 3) :
    outsAt V c t.val t.isLt = stepD V c t h (outsAt V c (t.val - 1) (Nat.lt_of_le_of_lt (Nat.sub_le _ _) t.isLt)) := by
  obtain ⟨n, hn⟩ := t
  cases n with
  | zero => exact absurd (show (0 : ℕ) % 4 = 3 from h) (by decide)
  | succ n => exact (dif_neg (by dsimp only at h; omega)).trans ((dif_neg (by dsimp only at h; omega)).trans ((dif_neg (by dsimp only at h; omega)).trans rfl))

/-- The region's invariant before position `n`: before the first point the class's (every scratch at anything);
    afterwards the three scratch buffers at what the point before left, the rest untouched. -/
def PhiS (c : Dev nD) : (n : ℕ) → n ≤ cfg1.N → sProp 𝕄
  | 0, _ => Pipeline.ΦA spec1 c
  | n + 1, hn => iprop(restWith c iprop(owns (c : Thread nD τ) scM fullShare (outsAt V c n hn).2.1 ∗ owns (c : Thread nD τ) scL fullShare (outsAt V c n hn).2.2.1 ∗ owns (c : Thread nD τ) scA fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c iprop(owns (c : Thread nD τ) scM fullShare (outsAt V c n hn).2.1 ∗ owns (c : Thread nD τ) scL fullShare (outsAt V c n hn).2.2.1 ∗ owns (c : Thread nD τ) scA fullShare (outsAt V c n hn).2.2.2) ∗ (∃ r, prngReg c r)) := rfl
theorem PhiS_pos (c : Dev nD) (n : ℕ) (h : n ≤ cfg1.N) (hz : n ≠ 0) :
    PhiS V c n h = iprop(restWith c iprop(owns (c : Thread nD τ) scM fullShare (outsAt V c (n - 1) (by omega)).2.1 ∗ owns (c : Thread nD τ) scL fullShare (outsAt V c (n - 1) (by omega)).2.2.1 ∗ owns (c : Thread nD τ) scA fullShare (outsAt V c (n - 1) (by omega)).2.2.2) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (msQ t) fullShare ((dat V c).before 0 t d))
    ∗ (∃ d, owns (c : Thread nD τ) (msK t) fullShare ((dat V c).before 1 t d))
    ∗ (∃ d, owns (c : Thread nD τ) (msV t) fullShare ((dat V c).before 2 t d))
    ∗ (∃ d, owns (c : Thread nD τ) (msO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point's residue modulo 4 says which of the four
    kinds it is; the invariant hands the body the scratch buffers at what the point before left (at anything before
    the first point) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (msQ t) fullShare ((dat V c).after 0 t) from by
    unfold Dat.leavesExact; rw [liveAt_0 t], after_0]
  rw [show (dat V c).leavesExact 1 t = owns (c : Thread nD τ) (msK t) fullShare ((dat V c).after 1 t) from by
    unfold Dat.leavesExact; rw [liveAt_1 t], after_1]
  rw [show (dat V c).leavesExact 2 t = owns (c : Thread nD τ) (msV t) fullShare ((dat V c).after 2 t) from by
    unfold Dat.leavesExact; rw [liveAt_2 t], after_2]
  rcases (by omega : t.val % 4 = 0 ∨ t.val % 4 = 1 ∨ t.val % 4 = 2 ∨ t.val % 4 = 3) with h | h | h | h
  · -- a first key tile: the scratch is reset, so what it held does not matter; the output window is handed back as found
    rw [Dat.leavesExact_idle (dat V c) 3 t (idleAt_3 t (by omega)) (noFlush_3 t (by omega))]
    rw [outsAt_A V c t h]
    unfold stepA; (try dsimp only)
    by_cases hz : t.val = 0
    · rw [PhiS_castSucc V c t, PhiS_zero V c _ _ hz, PhiA_eq]
      iintro ⟨⟨HR, Hg⟩, Ho, ⟨%d0, H0⟩, ⟨%d1, H1⟩, ⟨%d2, H2⟩, ⟨%d3, H3⟩⟩
      ihave HR' := (restWith_split c _) $$ HR
      icases HR' with ⟨Hrest, HM, HL, HA⟩
      iapply ((runA V c t h).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [Hrest HM HL HA Hg]
      · isplitl [Hrest HM HL HA]
        · iapply (restWith_join c _)
          isplitl [Hrest]; · iexact Hrest
          isplitl [HM]
          · unfold owns; iexists _; isplitr
            swap; · iexact HM
            ipureintro; exact View.read_writes_of_cover _ _ _ _ _ (coverA_M V c t h)
          isplitl [HL]
          · unfold owns; iexists _; isplitr
            swap; · iexact HL
            ipureintro; exact View.read_writes_of_cover _ _ _ _ _ (coverA_L V c t h)
          unfold owns; iexists _; isplitr
          swap; · iexact HA
          ipureintro; exact View.read_writes_of_cover _ _ _ _ _ (coverA_A V c t h)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨Hrest, HM, HL, HA⟩
      iapply ((runA V c t h).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [Hrest HM HL HA Hg]
      · isplitl [Hrest HM HL HA]
        · iapply (restWith_join c _)
          isplitl [Hrest]; · iexact Hrest
          isplitl [HM]
          · unfold owns; iexists _; isplitr
            swap; · iexact HM
            ipureintro; exact View.read_writes_of_cover _ _ _ _ _ (coverA_M V c t h)
          isplitl [HL]
          · unfold owns; iexists _; isplitr
            swap; · iexact HL
            ipureintro; exact View.read_writes_of_cover _ _ _ _ _ (coverA_L V c t h)
          unfold owns; iexists _; isplitr
          swap; · iexact HA
          ipureintro; exact View.read_writes_of_cover _ _ _ _ _ (coverA_A V c t h)
        iexact Hg
      isplitl [Ho]; · iexact Ho
      isplitl [H0]; · iexact H0
      isplitl [H1]; · iexact H1
      isplitl [H2]; · iexact H2
      iexists _; iexact H3
  · -- a last key tile: the scratch holds what the point before left, and the output window is stored
    rw [show (dat V c).leavesExact 3 t = owns (c : Thread nD τ) (msO t) fullShare ((dat V c).after 3 t) from by
      unfold Dat.leavesExact; rw [liveAt_3 t (by omega)], after_3]
    rw [outsAt_B V c t h]
    unfold stepB; (try dsimp only)
    have hz : t.val ≠ 0 := by omega
    rw [PhiS_castSucc V c t, PhiS_pos V c _ _ hz]
    iintro ⟨⟨HR, Hg⟩, Ho, ⟨%d0, H0⟩, ⟨%d1, H1⟩, ⟨%d2, H2⟩, ⟨%d3, H3⟩⟩
    ihave HR' := (restWith_split c _) $$ HR
    icases HR' with ⟨Hrest, HM, HL, HA⟩
    iapply ((runB V c t h _).2 Set.univ _)
    isplitl [H0]; · iexact H0
    isplitl [H1]; · iexact H1
    isplitl [H2]; · iexact H2
    isplitl [H3]; · iexists _; iexact H3
    isplitl [HM]; · iexact HM
    isplitl [HL]; · iexact HL
    isplitl [HA]; · iexact HA
    iintro ⟨H0, H1, H2, ⟨%eO, H3⟩, HM, HL, HA⟩
    isplitl [Hrest HM HL HA Hg]
    · isplitl [Hrest HM HL HA]
      · iapply (restWith_join c _)
        isplitl [Hrest]; · iexact Hrest
        isplitl [HM]; · iexact HM
        isplitl [HL]; · iexact HL
        iexact HA
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB_O V c t h _)
  · -- a first key tile: the scratch is reset, so what it held does not matter; the output window is handed back as found
    rw [Dat.leavesExact_idle (dat V c) 3 t (idleAt_3 t (by omega)) (noFlush_3 t (by omega))]
    rw [outsAt_C V c t h]
    unfold stepC; (try dsimp only)
    by_cases hz : t.val = 0
    · exfalso; omega
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_split c _) $$ HR
      icases HR' with ⟨Hrest, HM, HL, HA⟩
      iapply ((runC V c t h).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [Hrest HM HL HA Hg]
      · isplitl [Hrest HM HL HA]
        · iapply (restWith_join c _)
          isplitl [Hrest]; · iexact Hrest
          isplitl [HM]
          · unfold owns; iexists _; isplitr
            swap; · iexact HM
            ipureintro; exact View.read_writes_of_cover _ _ _ _ _ (coverC_M V c t h)
          isplitl [HL]
          · unfold owns; iexists _; isplitr
            swap; · iexact HL
            ipureintro; exact View.read_writes_of_cover _ _ _ _ _ (coverC_L V c t h)
          unfold owns; iexists _; isplitr
          swap; · iexact HA
          ipureintro; exact View.read_writes_of_cover _ _ _ _ _ (coverC_A V c t h)
        iexact Hg
      isplitl [Ho]; · iexact Ho
      isplitl [H0]; · iexact H0
      isplitl [H1]; · iexact H1
      isplitl [H2]; · iexact H2
      iexists _; iexact H3
  · -- a last key tile: the scratch holds what the point before left, and the output window is stored
    rw [show (dat V c).leavesExact 3 t = owns (c : Thread nD τ) (msO t) fullShare ((dat V c).after 3 t) from by
      unfold Dat.leavesExact; rw [liveAt_3 t (by omega)], after_3]
    rw [outsAt_D V c t h]
    unfold stepD; (try dsimp only)
    have hz : t.val ≠ 0 := by omega
    rw [PhiS_castSucc V c t, PhiS_pos V c _ _ hz]
    iintro ⟨⟨HR, Hg⟩, Ho, ⟨%d0, H0⟩, ⟨%d1, H1⟩, ⟨%d2, H2⟩, ⟨%d3, H3⟩⟩
    ihave HR' := (restWith_split c _) $$ HR
    icases HR' with ⟨Hrest, HM, HL, HA⟩
    iapply ((runD V c t h _).2.2.2.2 Set.univ _)
    isplitl [H0]; · iexact H0
    isplitl [H1]; · iexact H1
    isplitl [H2]; · iexact H2
    isplitl [H3]; · iexists _; iexact H3
    isplitl [HM]; · iexact HM
    isplitl [HL]; · iexact HL
    isplitl [HA]; · iexact HA
    iintro ⟨H0, H1, H2, ⟨%eO, H3⟩, ⟨%eM, HM⟩, ⟨%eL, HL⟩, ⟨%eA, HA⟩⟩
    isplitl [Hrest HM HL HA Hg]
    · isplitl [Hrest HM HL HA]
      · iapply (restWith_join c _)
        isplitl [Hrest]; · iexact Hrest
        isplitl [HM]
        · unfold owns; iexists _; isplitr
          swap; · iexact HM
          ipureintro; exact View.read_writes_of_cover _ _ _ _ _ (coverD_M V c t h _)
        isplitl [HL]
        · unfold owns; iexists _; isplitr
          swap; · iexact HL
          ipureintro; exact View.read_writes_of_cover _ _ _ _ _ (coverD_L V c t h _)
        unfold owns; iexists _; isplitr
        swap; · iexact HA
        ipureintro; exact View.read_writes_of_cover _ _ _ _ _ (coverD_A V c t h _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverD_O V c t h _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch contents are forgotten. -/
theorem hout (c : Dev nD) : (dat V c).Φ (Fin.last cfg1.N) ⊢ Pipeline.ΦA spec1 c := by
  have ht : (Fin.last cfg1.N).val ≠ 0 := by rw [Fin.val_last]; have : cfg1.N = 128 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨HR, Hg⟩
  ihave HR' := (restWith_split c _) $$ HR
  icases HR' with ⟨Hrest, HM, HL, HA⟩
  isplitl [Hrest HM HL HA]
  · iapply (restWith_join c _)
    isplitl [Hrest]; · iexact Hrest
    isplitl [HM]; · iexists _; iexact HM
    isplitl [HL]; · iexists _; iexact HL
    iexists _; iexact HA
  iexact Hg

end Cert.KernelIdeal.Attn

end
-- ==== Proof.AttnPieces.lean ====
/-
  What each kind of grid point leaves in the scratch buffers and the output window, as the body's arithmetic (the
  named pure terms of the body) applied to the point's input blocks and to what the scratch held before: the stores the
  symbolic run found are read back as those terms. With (m, l, a) the running maximum, normaliser and weighted sum:
  a first key tile starts from the reset values; a diagonal or unmasked tile updates (m, l, a); the last tile's point
  stores a / l.
-/
import proofs.«168448_j29377576304777_2_alg».proof.Proof.AttnData
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

theorem hz3 : (![0, 0, 0] : Fin 3 → Nat) = fun _ => 0 := funext fun a => by fin_cases a <;> rfl
theorem hz2 : (![0, 0] : Fin 2 → Nat) = fun _ => 0 := funext fun a => by fin_cases a <;> rfl

/-- A whole-buffer load of what one whole-buffer store left reads the stored value. -/
theorem readCov_col (v : View sig .tc .vmem S1024x1 .f32) (w : S1024x1.Idx → Elt Ideal .f32) :
    v.readCov [(⟨Rect.unit ![0, 0] ![1024, 1] inb_S1024x1_S1024x1_0_0, w⟩ : View.Piece (Elt Ideal) S1024x1 .f32)]
      (Rect.unit ![0, 0] ![1024, 1] inb_S1024x1_S1024x1_0_0).toLoadRect = w :=
  View.readCov_unit_zero (S := S1024x1) v hz2 _ w
theorem readCov_mat (v : View sig .tc .vmem S1024x128 .f32) (w : S1024x128.Idx → Elt Ideal .f32) :
    v.readCov [(⟨Rect.unit ![0, 0] ![1024, 128] inb_S1024x128_S1024x128_0_0, w⟩ : View.Piece (Elt Ideal) S1024x128 .f32)]
      (Rect.unit ![0, 0] ![1024, 128] inb_S1024x128_S1024x128_0_0).toLoadRect = w :=
  View.readCov_unit_zero (S := S1024x128) v hz2 _ w
/-- A scratch buffer owned at named contents reads them back. -/
theorem rdM (h : scM.IsWhole) (X : S1024x1.Idx → Elt Ideal .f32) : View.read (Elt Ideal) (View.whole cc1_scratch0) (h.unread X) = X := h.read_unread X
theorem rdL (h : scL.IsWhole) (X : S1024x1.Idx → Elt Ideal .f32) : View.read (Elt Ideal) (View.whole cc1_scratch1) (h.unread X) = X := h.read_unread X
theorem rdA (h : scA.IsWhole) (X : S1024x128.Idx → Elt Ideal .f32) : View.read (Elt Ideal) (View.whole cc1_scratch2) (h.unread X) = X := h.read_unread X

variable (V : (c : Dev nD) → (b : Ref sig .tc) → Buf (Elt Ideal) ((c : Thread nD τ).loc b))

/-- One masked (diagonal) tile folded into (m, l, a), with values `v`. -/
def updDiag (q k v : Vec Ideal S1x1024x128 .bf16) (p : Vec Ideal S1024x1 .f32 × Vec Ideal S1024x1 .f32 × Vec Ideal S1024x128 .f32) :
    Vec Ideal S1024x1 .f32 × Vec Ideal S1024x1 .f32 × Vec Ideal S1024x128 .f32 :=
  (k1_pay7 (k1_pay16 q k p.1), k1_pay19 q k p.1 p.2.1, k1_pay6 (k1_pay17 q k p.1) (k1_pay20 q k p.1 v) p.2.2)

/-- One unmasked tile folded into (m, l, a). -/
def updFull (q k v : Vec Ideal S1x1024x128 .bf16) (p : Vec Ideal S1024x1 .f32 × Vec Ideal S1024x1 .f32 × Vec Ideal S1024x128 .f32) :
    Vec Ideal S1024x1 .f32 × Vec Ideal S1024x1 .f32 × Vec Ideal S1024x128 .f32 :=
  (k1_pay5 (k1_pay10 q k p.1), k1_pay13 q k p.1 p.2.1, k1_pay4 (k1_pay14 q k p.1 v p.2.2))

/-- The reset values. -/
def reset : Vec Ideal S1024x1 .f32 × Vec Ideal S1024x1 .f32 × Vec Ideal S1024x128 .f32 := (k1_pay1 (F := Ideal), k1_pay2 (F := Ideal), k1_pay3 (F := Ideal))

theorem stepA_M (c : Dev nD) (t : Fin cfg1.N) (h : t.val % 4 = 0) :
    (stepA (F := Ideal) V c t h).2.1 = (updDiag (iblk V c 0 t) (iblk V c 1 t) (iblk V c 2 t) reset).1 := by
  unfold stepA updDiag reset; dsimp only
  rw [View.read_writes_eq_canon _ _ _ (coverA_M V c t h)]
  unfold runA kernelRun_A
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepA_L (c : Dev nD) (t : Fin cfg1.N) (h : t.val % 4 = 0) :
    (stepA (F := Ideal) V c t h).2.2.1 = (updDiag (iblk V c 0 t) (iblk V c 1 t) (iblk V c 2 t) reset).2.1 := by
  unfold stepA updDiag reset; dsimp only
  rw [View.read_writes_eq_canon _ _ _ (coverA_L V c t h)]
  unfold runA kernelRun_A
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepA_A (c : Dev nD) (t : Fin cfg1.N) (h : t.val % 4 = 0) :
    (stepA (F := Ideal) V c t h).2.2.2 = (updDiag (iblk V c 0 t) (iblk V c 1 t) (iblk V c 2 t) reset).2.2 := by
  unfold stepA updDiag reset; dsimp only
  rw [View.read_writes_eq_canon _ _ _ (coverA_A V c t h)]
  unfold runA kernelRun_A
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]

theorem stepC_M (c : Dev nD) (t : Fin cfg1.N) (h : t.val % 4 = 2) :
    (stepC (F := Ideal) V c t h).2.1 = (updFull (iblk V c 0 t) (iblk V c 1 t) (iblk V c 2 t) reset).1 := by
  unfold stepC updFull reset; dsimp only
  rw [View.read_writes_eq_canon _ _ _ (coverC_M V c t h)]
  unfold runC kernelRun_C
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepC_L (c : Dev nD) (t : Fin cfg1.N) (h : t.val % 4 = 2) :
    (stepC (F := Ideal) V c t h).2.2.1 = (updFull (iblk V c 0 t) (iblk V c 1 t) (iblk V c 2 t) reset).2.1 := by
  unfold stepC updFull reset; dsimp only
  rw [View.read_writes_eq_canon _ _ _ (coverC_L V c t h)]
  unfold runC kernelRun_C
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepC_A (c : Dev nD) (t : Fin cfg1.N) (h : t.val % 4 = 2) :
    (stepC (F := Ideal) V c t h).2.2.2 = (updFull (iblk V c 0 t) (iblk V c 1 t) (iblk V c 2 t) reset).2.2 := by
  unfold stepC updFull reset; dsimp only
  rw [View.read_writes_eq_canon _ _ _ (coverC_A V c t h)]
  unfold runC kernelRun_C
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]

theorem stepB_O (c : Dev nD) (t : Fin cfg1.N) (h : t.val % 4 = 1) (p : St Ideal) :
    (stepB (F := Ideal) V c t h p).1 = k1_pay8 p.2.2.2 p.2.2.1 := by
  unfold stepB; dsimp only
  rw [View.read_writes_eq_canon _ _ _ (coverB_O V c t h p)]
  unfold runB kernelRun_B
  dsimp only
  sl_unfold_words
  rw [View.canon_cons_unit_zero hz3]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]

theorem stepD_M (c : Dev nD) (t : Fin cfg1.N) (h : t.val % 4 = 3) (p : St Ideal) :
    (stepD (F := Ideal) V c t h p).2.1 = (updDiag (iblk V c 0 t) (iblk V c 1 t) (iblk V c 2 t) p.2).1 := by
  unfold stepD updDiag; dsimp only
  rw [View.read_writes_eq_canon _ _ _ (coverD_M V c t h p)]
  unfold runD kernelRun_D
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepD_L (c : Dev nD) (t : Fin cfg1.N) (h : t.val % 4 = 3) (p : St Ideal) :
    (stepD (F := Ideal) V c t h p).2.2.1 = (updDiag (iblk V c 0 t) (iblk V c 1 t) (iblk V c 2 t) p.2).2.1 := by
  unfold stepD updDiag; dsimp only
  rw [View.read_writes_eq_canon _ _ _ (coverD_L V c t h p)]
  unfold runD kernelRun_D
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepD_A (c : Dev nD) (t : Fin cfg1.N) (h : t.val % 4 = 3) (p : St Ideal) :
    (stepD (F := Ideal) V c t h p).2.2.2 = (updDiag (iblk V c 0 t) (iblk V c 1 t) (iblk V c 2 t) p.2).2.2 := by
  unfold stepD updDiag; dsimp only
  rw [View.read_writes_eq_canon _ _ _ (coverD_A V c t h p)]
  unfold runD kernelRun_D
  dsimp only
  sl_unfold_words
  rw [View.canon_cons_unit_zero hz2]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]
theorem stepD_O (c : Dev nD) (t : Fin cfg1.N) (h : t.val % 4 = 3) (p : St Ideal) :
    (stepD (F := Ideal) V c t h p).1 = k1_pay8 (updDiag (iblk V c 0 t) (iblk V c 1 t) (iblk V c 2 t) p.2).2.2 (updDiag (iblk V c 0 t) (iblk V c 1 t) (iblk V c 2 t) p.2).2.1 := by
  unfold stepD updDiag; dsimp only
  rw [View.read_writes_eq_canon _ _ _ (coverD_O V c t h p)]
  unfold runD kernelRun_D
  dsimp only
  sl_unfold_words
  rw [View.canon_cons_unit_zero hz3]
  simp only [View.readAt_eq_ld, Memref.IsWhole.read_unread, View.ld_unit_zero (S := S1x1024x128) hz3, View.ld_unit_zero (S := S1024x1) hz2, View.ld_unit_zero (S := S1024x128) hz2, readCov_col, readCov_mat, rdM, rdL, rdA]

end Cert.KernelIdeal.Attn

end
-- ==== Proof.AttnSpec.lean ====
/-
  The mathematics of the certificate, free of any program: causal single-head attention over the extended reals.

  For a batch element b, a query row i and a head column h the result is the softmax-weighted average
      out(b, i, h) = ∑_{j ≤ i} w(i, j) · v(b, j, h),   w(i, j) = exp(s(i, j) − M(i)) / ∑_{j' ≤ i} exp(s(i, j') − M(i)),
  with q, k, v the projections x·Wq, x·Wk, x·Wv, the score s(i, j) = (∑_h q(b,i,h) · k(b,j,h)) / 32 and M(i) the row
  maximum of the visible scores. A masked score is −∞ (the lattice's bottom), whose exponential is 0: the sums below run
  over every key j and the masked ones contribute nothing.

  The same row computed tile by tile ("online"): a running triple (maximum m, normaliser l, weighted sum a) starts
  at (−∞, 0, 0) and each key tile folds in as
      m' = max m (max_j s_j),  l' = exp(m − m')·l + ∑_j exp(s_j − m'),  a' = exp(m − m')·a + ∑_j exp(s_j − m')·v_j,
  and the result is a / l at the end. Both are the same number because exp(m − m')·exp(s − m) = exp(s − m') and the
  weights' common factor cancels in the quotient; every quantity is a real number except the masked scores and the
  starting maximum, where exp(−∞) = 0 and 0 · 0 = 0 make the first tile's rescaling vanish.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx
open scoped BigOperators

/-! ## One row of softmax attention, whole and tile by tile -/

/-- The softmax-weighted average of `v` under scores `s` (a masked score is `⊥`), as a jnp reference computes it:
    subtract the row maximum, exponentiate, divide each weight by the sum of the weights, then sum the weighted values. -/
def softRow {N : ℕ} (s v : Fin N → EReal) : EReal :=
  ∑ j, Ideal.div (Ideal.exp (s j - Finset.univ.fold max ⊥ s)) (∑ j', Ideal.exp (s j' - Finset.univ.fold max ⊥ s)) * v j

/-- The running triple before any key tile: maximum `−∞`, normaliser `0`, weighted sum `0`. -/
def start : EReal × EReal × EReal := (⊥, 0, 0)

/-- One key tile (scores `s`, values `v`) folded into the running triple (maximum, normaliser, weighted sum). -/
def step {n : ℕ} (p : EReal × EReal × EReal) (s v : Fin n → EReal) : EReal × EReal × EReal :=
  (max p.1 (Finset.univ.fold max ⊥ s),
   Ideal.exp (p.1 - max p.1 (Finset.univ.fold max ⊥ s)) * p.2.1 + ∑ j, Ideal.exp (s j - max p.1 (Finset.univ.fold max ⊥ s)),
   Ideal.exp (p.1 - max p.1 (Finset.univ.fold max ⊥ s)) * p.2.2 + ∑ j, Ideal.exp (s j - max p.1 (Finset.univ.fold max ⊥ s)) * v j)

/-- The row's result from the final triple: the weighted sum over the normaliser. -/
def finish (p : EReal × EReal × EReal) : EReal := Ideal.div p.2.2 p.2.1

/-- A score is masked or a real number. -/
def Score (x : EReal) : Prop := x = ⊥ ∨ ∃ r : ℝ, x = (r : EReal)

/-! ## The whole computation, index by index -/

/-- A projection x·W at (b, t, h). -/
def proj (X : (⟨3, ![32, 2048, 1024]⟩ : Shape).Idx → EReal) (W : (⟨2, ![1024, 128]⟩ : Shape).Idx → EReal)
    (b : Fin 32) (t : Fin 2048) (h : Fin 128) : EReal :=
  ∑ c : Fin 1024, X (ix3 b t c) * W (ix2 c h)

/-- The scaled score of query row `i` against key row `j` (the scale 2⁻⁵ = 1024^(−1/2) as its f32 word). -/
def score (X : (⟨3, ![32, 2048, 1024]⟩ : Shape).Idx → EReal) (Wq Wk : (⟨2, ![1024, 128]⟩ : Shape).Idx → EReal)
    (b : Fin 32) (i j : Fin 2048) : EReal :=
  (∑ h : Fin 128, proj X Wq b i h * proj X Wk b j h) * Ideal.ofBits .f32 0x3D000000#32

/-- The causal mask: a key after the query is not seen. -/
def masked (X : (⟨3, ![32, 2048, 1024]⟩ : Shape).Idx → EReal) (Wq Wk : (⟨2, ![1024, 128]⟩ : Shape).Idx → EReal)
    (b : Fin 32) (i j : Fin 2048) : EReal :=
  if j.val ≤ i.val then score X Wq Wk b i j else ⊥

/-- Causal attention at (b, i, h). -/
def attn (X : (⟨3, ![32, 2048, 1024]⟩ : Shape).Idx → EReal) (Wq Wk Wv : (⟨2, ![1024, 128]⟩ : Shape).Idx → EReal)
    (y : (⟨3, ![32, 2048, 128]⟩ : Shape).Idx) : EReal :=
  softRow (fun j : Fin 2048 => masked X Wq Wk (y 0) (y 1) j) (fun j : Fin 2048 => proj X Wv (y 0) j (y 2))

end Cert.AttnSpec

end
-- ==== Proof.LibPlainDot.lean ====
/-
  A matrix product with the plain dimension numbers — rows × contraction by contraction × columns, no batch
  axis — into a zero accumulator, read at the ideal values at an entry `(i, j)`: the sum over the contraction
  coordinate `q` of `lhs (i, q) · rhs (q, j)`.  General in the three extents and in the dimension-number record,
  which is only asked to list the axes as the plain product does.
-/
import Idealize.ShloMosaic.Lib.ValueIdx
import Idealize.ShloMosaic.PureOps.Ideal.Laws

noncomputable section

namespace Cert.PlainDot

open Idealize.ShloMosaic Idealize.ShloMosaic.ValueIdx

/-- The entry `(i, j)` of `lhs · rhs` accumulated into zeros is `∑ q, lhs (i, q) · rhs (q, j)`. -/
theorem matmul_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ q : Fin K, l (ix2 i q) * r (ix2 q j) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r1 : ∀ k, (d.rhsIdx (ix2 i j) k (1 : Fin 2)).val = j.val := fun k => by
    subst hd
    unfold DotDims.rhsIdx
    rw [dif_neg (show ¬ (1 : Fin 2) ∈ ([] : List (Fin 2)) from List.not_mem_nil),
      dif_pos (show (1 : Fin 2) ∈ [(1 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 q j := funext fun a => Fin.ext (by
    match a with
    | ⟨0, _⟩ => exact (d.rhsIdx_val_of_single hrc _ _).trans hq
    | ⟨1, _⟩ => exact r1 _)
  rw [el, er]

end Cert.PlainDot

end
-- ==== Proof.LibRowOps.lean ====
/-
  Row-wise vector operations read at an index, at the ideal values: general lemmas, stated over arbitrary
  extents, for kernels that reduce along the last axis and broadcast the result back (a mean, a softmax).

  * the keepdims layout forms: a vector [a] viewed as a column [a, 1]; a column [a, 1] broadcast along the rows
    to [a, b]; a matrix [a, b] viewed as [a, b, 1]; and [a, b, 1] broadcast along the last axis to [a, b, c];
  * a sum and a maximum along the last axis of a matrix, and a sum along the last axis of a rank-3 array, as a
    `Fin`-indexed sum (fold) over that axis's coordinate;
  * the host's maximum-reduce along the last axis of a matrix, as the same fold;
  * a matrix product with the plain dimension numbers (rows × contraction by contraction × columns) into a
    zero accumulator, as the sum over the contraction coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The keepdims layout forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Reductions along the last axis -/

/-- A reduced row index `i` of a matrix with column `k` put back is `(i, k)`. -/
theorem lift_last2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A reduced index `(i, j)` of a rank-3 array with the last coordinate `k` put back is `(i, j, k)`. -/
theorem lift_last3 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The sum along the rows of a matrix, at row `i`: the sum over the columns of the entries of that row. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last2 h i k))

/-- The sum along the last axis of a rank-3 array, at `(i, j)`. -/
theorem lastSum3_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last3 h i j k))

/-- The maximum along the rows of a matrix, at row `i`: the fold of `max` from the accumulator's value over the
    entries of that row. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_last2 h i k)))

/-- The host's maximum-reduce along the rows of a matrix, at row `i`: the same fold, from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) :=
  (Host.reduce_eq_fold_single FloatOps.maximumf x init h' h hu (ix1 i)).trans
    (congrArg (fun f => Finset.fold max (init (Shape.Idx.first hu)) f (Finset.univ : Finset (Fin b)))
      (funext fun k => congrArg x (lift_last2 h i k)))

end Cert.RowOps

end
-- ==== Proof.AttnRows.lean ====
/-
  The attention body's arithmetic read row by row at the ideal values. For a query row r of the tile and a head
  column h, one key tile's update of the scratch triple (running maximum, normaliser, weighted sum) is exactly one
  step of the online softmax average over that tile's 1024 keys: the tile's scores are
  s(r, j) = ∑_h (q(r, h) · 2⁻⁵) · k(j, h), masked to −∞ above the diagonal in the diagonal tile; the reset values
  are (−∞, 0, 0); and the stored output is the weighted sum over the normaliser.
-/
import proofs.«168448_j29377576304777_2_alg».proof.Proof.AttnPieces
import proofs.«168448_j29377576304777_2_alg».proof.Proof.AttnSpec
import proofs.«168448_j29377576304777_2_alg».proof.Proof.LibPlainDot
import proofs.«168448_j29377576304777_2_alg».proof.Proof.LibRowOps
import Idealize.ShloMosaic.Lib.ValueLayout
import Idealize.ShloMosaic.PureOps.IdealRules

set_option maxRecDepth 16384

noncomputable section

namespace Cert.KernelIdeal.Attn

open Cert.KernelIdeal Cert.KernelIdeal.Gen
open Idealize.ShloMosaic Idealize.ShloMosaic.TcCoe Idealize.ShloMosaic.ValueIdx
open Cert.AttnSpec Cert.RowOps
open scoped BigOperators

/-- The f32 word of minus infinity is the bottom of the extended reals. -/
theorem bot_f32 : Ideal.ofBits .f32 0xFF800000#32 = ⊥ := by simp [Ideal.ofBits, Ideal.ieee]

/-- The kernel's stand-in for minus infinity is named: at the ideal values it is the bottom. -/
theorem neg_big : Named.named (F := Ideal) κ "neg_big" (φ := .f32) 0xFF333332#32 = (⊥ : EReal) :=
  IdealRules.named_const.ideal_named_scalar _ _ _ _ rfl

/-- For coordinates below 1024 the signed 32-bit comparison of their words is the comparison of the coordinates. -/
theorem sle_small (r j : Fin 1024) : (BitVec.ofNat 32 j.val).sle (BitVec.ofNat 32 r.val) = decide (j.val ≤ r.val) := by
  have hr := r.isLt
  have hj := j.isLt
  rw [BitVec.sle_eq_decide]
  have n1 : (BitVec.ofNat 32 j.val).toNat = j.val := by rw [BitVec.toNat_ofNat]; omega
  have n2 : (BitVec.ofNat 32 r.val).toNat = r.val := by rw [BitVec.toNat_ofNat]; omega
  rw [BitVec.toInt_eq_toNat_of_lt (by rw [n1]; omega), BitVec.toInt_eq_toNat_of_lt (by rw [n2]; omega), n1, n2]
  simp

/-- The score of query row `r` against key row `j` of one tile. -/
def sFull (q k : Vec Ideal S1x1024x128 .bf16) (r j : Fin 1024) : EReal :=
  ∑ hh : Fin 128, (q (ix3 (0 : Fin 1) r hh) * Ideal.ofBits .f32 0x3D000000#32) * k (ix3 (0 : Fin 1) j hh)

/-- The same under the diagonal tile's triangular mask. -/
def sDiag (q k : Vec Ideal S1x1024x128 .bf16) (r j : Fin 1024) : EReal :=
  if j.val ≤ r.val then sFull q k r j else ⊥

/-- Pointwise operations read at an index (by definition). -/
theorem exp_apply {s : Shape} {φ : FTy} (a : FVec Ideal s φ) (i : s.Idx) : exp a i = Ideal.exp (a i) := rfl
theorem cmpi_apply {s : Shape} {w : ℕ} (p : CmpIPredicate) (x y : IVec s w) (i : s.Idx) : cmpi p x y i = IntOp.cmpi p (x i) (y i) := rfl

variable (q k v : Vec Ideal S1x1024x128 .bf16)

/-! ## The unmasked tile -/

/-! ## The unmasked tile -/

/-- The scaled query block times the transposed key block, at (r, j). -/
theorem score_raw (r j : Fin 1024) :
    matmul (F := Ideal) (φ₁ := .bf16) (φ₂ := .bf16) dot_S1024x128_S128x1024_S1024x1024_1_0_0_1_n_n none
      (truncf .bf16 (mulf (extf .f32 (shapeCast S1024x128 (q : FVec Ideal S1x1024x128 .bf16) shapeCasts_S1x1024x128_S1024x128) bitsLt_bf16_f32) (broadcast S1024x128 (Scalar.ofBits (F := Ideal) .f32 0x3D000000#32))) bitsLt_bf16_f32)
      (transpose S128x1024 [1, 0] (shapeCast S1024x128 (k : FVec Ideal S1x1024x128 .bf16) shapeCasts_S1x1024x128_S1024x128) transposes_S1024x128_p1_0_S128x1024)
      (constant (F := Ideal) S1024x1024 .f32 0x00000000#32) (ix2 r j) = sFull q k r j := by
  unfold sFull
  refine (Cert.PlainDot.matmul_zero_apply _ rfl rfl rfl rfl rfl rfl none _ _ r j).trans ?_
  refine Finset.sum_congr rfl fun hh _ => ?_
  rw [truncf_apply, mulf_apply, extf_apply, broadcast_apply, shapeCast_1ab_ab_apply, transpose_ix2_apply, shapeCast_1ab_ab_apply]
  rfl

theorem pay9_apply (r j : Fin 1024) : k1_pay9 q k (ix2 r j) = sFull q k r j := by
  unfold k1_pay9
  (try dsimp only)
  exact score_raw q k r j

theorem pay10_apply (m : Vec Ideal S1024x1 .f32) (r : Fin 1024) (u : Fin 1) :
    k1_pay10 q k m (ix2 r u) = max (m (ix2 r u)) (Finset.univ.fold max ⊥ (fun j : Fin 1024 => sFull q k r j)) := by
  unfold k1_pay10
  (try dsimp only)
  rw [maximumf_apply, shapeCast_a_a1_apply]
  refine congrArg (max (m (ix2 r u))) ((rowMax_apply (k1_pay9 q k) _ _ _ _ r).trans ?_)
  rw [bot_f32]
  simp only [pay9_apply]

theorem pay11_apply (m : Vec Ideal S1024x1 .f32) (r : Fin 1024) (u : Fin 1) :
    k1_pay11 q k m (ix2 r u) = Ideal.exp (m (ix2 r u) - k1_pay10 q k m (ix2 r u)) := by
  unfold k1_pay11
  (try dsimp only)
  rw [exp_apply, subf_apply]

theorem pay12_apply (m : Vec Ideal S1024x1 .f32) (r j : Fin 1024) :
    k1_pay12 q k m (ix2 r j) = Ideal.exp (sFull q k r j - k1_pay10 q k m (ix2 r (0 : Fin 1))) := by
  unfold k1_pay12
  (try dsimp only)
  rw [exp_apply, subf_apply, broadcastTo_a1_ab_apply, pay9_apply]

theorem pay13_apply (m l : Vec Ideal S1024x1 .f32) (r : Fin 1024) :
    k1_pay13 q k m l (ix2 r (0 : Fin 1)) = k1_pay11 q k m (ix2 r (0 : Fin 1)) * l (ix2 r (0 : Fin 1)) + ∑ j : Fin 1024, k1_pay12 q k m (ix2 r j) := by
  unfold k1_pay13
  (try dsimp only)
  rw [shapeCast_self, addf_apply, mulf_apply, shapeCast_a_a1_apply]
  exact congrArg (k1_pay11 q k m (ix2 r (0 : Fin 1)) * l (ix2 r (0 : Fin 1)) + ·) (rowSum_apply (k1_pay12 q k m) _ _ _ _ r)

theorem pay14_apply (m : Vec Ideal S1024x1 .f32) (a : Vec Ideal S1024x128 .f32) (r : Fin 1024) (h : Fin 128) :
    k1_pay14 q k m v a (ix2 r h) = k1_pay11 q k m (ix2 r (0 : Fin 1)) * a (ix2 r h) + ∑ j : Fin 1024, k1_pay12 q k m (ix2 r j) * v (ix3 (0 : Fin 1) j h) := by
  unfold k1_pay14
  (try dsimp only)
  rw [addf_apply, mulf_apply, broadcastTo_a1_ab_apply, Cert.PlainDot.matmul_zero_apply _ rfl rfl rfl rfl rfl rfl none _ _ r h]
  refine congrArg _ (Finset.sum_congr rfl fun j _ => ?_)
  rw [truncf_apply, shapeCast_1ab_ab_apply]

/-- One unmasked tile folded into the scratch triple is, at row `r` and head column `h`, one step of the online average. -/
theorem updFull_row (p : Vec Ideal S1024x1 .f32 × Vec Ideal S1024x1 .f32 × Vec Ideal S1024x128 .f32) (r : Fin 1024) (h : Fin 128) :
    ((updFull q k v p).1 (ix2 r (0 : Fin 1)), (updFull q k v p).2.1 (ix2 r (0 : Fin 1)), (updFull q k v p).2.2 (ix2 r h))
      = step (p.1 (ix2 r (0 : Fin 1)), p.2.1 (ix2 r (0 : Fin 1)), p.2.2 (ix2 r h)) (fun j : Fin 1024 => sFull q k r j) (fun j : Fin 1024 => v (ix3 (0 : Fin 1) j h)) := by
  unfold updFull step
  (try dsimp only)
  refine Prod.ext ?_ (Prod.ext ?_ ?_)
  · dsimp only
    unfold k1_pay5
    (try dsimp only)
    rw [shapeCast_self, pay10_apply]
  · dsimp only
    rw [pay13_apply, pay11_apply, pay10_apply]
    simp only [pay12_apply, pay10_apply]
  · dsimp only
    unfold k1_pay4
    (try dsimp only)
    rw [shapeCast_self, pay14_apply, pay11_apply, pay10_apply]
    simp only [pay12_apply, pay10_apply]

/-! ## The diagonal tile -/

theorem pay15_apply (r j : Fin 1024) : k1_pay15 q k (ix2 r j) = sDiag q k r j := by
  unfold k1_pay15 sDiag
  (try dsimp only)
  rw [select_apply, cmpi_apply, iota_single_apply, iota_single_apply, broadcast_apply, score_raw, neg_big]
  show Scalar.select (BitVec.ofBool ((BitVec.ofNat 32 j.val).sle (BitVec.ofNat 32 r.val))) _ _ = _
  rw [sle_small]
  by_cases hjr : j.val ≤ r.val
  · rw [if_pos hjr, decide_eq_true hjr]; exact select_one _ _
  · rw [if_neg hjr, decide_eq_false hjr]; exact select_zero _ _

theorem pay16_apply (m : Vec Ideal S1024x1 .f32) (r : Fin 1024) (u : Fin 1) :
    k1_pay16 q k m (ix2 r u) = max (m (ix2 r u)) (Finset.univ.fold max ⊥ (fun j : Fin 1024 => sDiag q k r j)) := by
  unfold k1_pay16
  (try dsimp only)
  rw [maximumf_apply, shapeCast_a_a1_apply]
  refine congrArg (max (m (ix2 r u))) ((rowMax_apply (k1_pay15 q k) _ _ _ _ r).trans ?_)
  rw [bot_f32]
  simp only [pay15_apply]

theorem pay17_apply (m : Vec Ideal S1024x1 .f32) (r : Fin 1024) (u : Fin 1) :
    k1_pay17 q k m (ix2 r u) = Ideal.exp (m (ix2 r u) - k1_pay16 q k m (ix2 r u)) := by
  unfold k1_pay17
  (try dsimp only)
  rw [exp_apply, subf_apply]

theorem pay18_apply (m : Vec Ideal S1024x1 .f32) (r j : Fin 1024) :
    k1_pay18 q k m (ix2 r j) = Ideal.exp (sDiag q k r j - k1_pay16 q k m (ix2 r (0 : Fin 1))) := by
  unfold k1_pay18
  (try dsimp only)
  rw [exp_apply, subf_apply, broadcastTo_a1_ab_apply, pay15_apply]

theorem pay19_apply (m l : Vec Ideal S1024x1 .f32) (r : Fin 1024) :
    k1_pay19 q k m l (ix2 r (0 : Fin 1)) = k1_pay17 q k m (ix2 r (0 : Fin 1)) * l (ix2 r (0 : Fin 1)) + ∑ j : Fin 1024, k1_pay18 q k m (ix2 r j) := by
  unfold k1_pay19
  (try dsimp only)
  rw [shapeCast_self, addf_apply, mulf_apply, shapeCast_a_a1_apply]
  exact congrArg (k1_pay17 q k m (ix2 r (0 : Fin 1)) * l (ix2 r (0 : Fin 1)) + ·) (rowSum_apply (k1_pay18 q k m) _ _ _ _ r)

theorem pay20_apply (m : Vec Ideal S1024x1 .f32) (r : Fin 1024) (h : Fin 128) :
    k1_pay20 q k m v (ix2 r h) = ∑ j : Fin 1024, k1_pay18 q k m (ix2 r j) * v (ix3 (0 : Fin 1) j h) := by
  unfold k1_pay20
  (try dsimp only)
  rw [Cert.PlainDot.matmul_zero_apply _ rfl rfl rfl rfl rfl rfl none _ _ r h]
  refine Finset.sum_congr rfl fun j _ => ?_
  rw [truncf_apply, shapeCast_1ab_ab_apply]

theorem pay6_apply (al : Vec Ideal S1024x1 .f32) (pv a : Vec Ideal S1024x128 .f32) (r : Fin 1024) (h : Fin 128) :
    k1_pay6 al pv a (ix2 r h) = al (ix2 r (0 : Fin 1)) * a (ix2 r h) + pv (ix2 r h) := by
  unfold k1_pay6
  (try dsimp only)
  rw [shapeCast_self, addf_apply, mulf_apply, broadcastTo_a1_ab_apply]

/-- The diagonal tile folded into the scratch triple is, at row `r` and head column `h`, one step of the online average
    over the masked scores. -/
theorem updDiag_row (p : Vec Ideal S1024x1 .f32 × Vec Ideal S1024x1 .f32 × Vec Ideal S1024x128 .f32) (r : Fin 1024) (h : Fin 128) :
    ((updDiag q k v p).1 (ix2 r (0 : Fin 1)), (updDiag q k v p).2.1 (ix2 r (0 : Fin 1)), (updDiag q k v p).2.2 (ix2 r h))
      = step (p.1 (ix2 r (0 : Fin 1)), p.2.1 (ix2 r (0 : Fin 1)), p.2.2 (ix2 r h)) (fun j : Fin 1024 => sDiag q k r j) (fun j : Fin 1024 => v (ix3 (0 : Fin 1) j h)) := by
  unfold updDiag step
  (try dsimp only)
  refine Prod.ext ?_ (Prod.ext ?_ ?_)
  · dsimp only
    unfold k1_pay7
    (try dsimp only)
    rw [shapeCast_self, pay16_apply]
  · dsimp only
    rw [pay19_apply, pay17_apply, pay16_apply]
    simp only [pay18_apply, pay16_apply]
  · dsimp only
    rw [pay6_apply, pay20_apply, pay17_apply, pay16_apply]
    simp only [pay18_apply, pay16_apply]

/-! ## The reset values and the final division -/

theorem reset_row (r : Fin 1024) (h : Fin 128) :
    (reset.1 (ix2 r (0 : Fin 1)), reset.2.1 (ix2 r (0 : Fin 1)), reset.2.2 (ix2 r h)) = start := by
  unfold reset start
  (try dsimp only)
  refine Prod.ext ?_ (Prod.ext ?_ ?_)
  · dsimp only
    unfold k1_pay1
    (try dsimp only)
    rw [shapeCast_self, broadcast_apply]
    exact bot_f32
  · dsimp only
    unfold k1_pay2
    (try dsimp only)
    rw [shapeCast_self, broadcast_apply]
    exact Ideal.ofBits_zero_f32
  · dsimp only
    unfold k1_pay3
    (try dsimp only)
    rw [shapeCast_self, broadcast_apply]
    exact Ideal.ofBits_zero_f32

theorem pay8_apply (a : Vec Ideal S1024x128 .f32) (l : Vec Ideal S1024x1 .f32) (u : Fin 1) (r : Fin 1024) (h : Fin 128) :
    k1_pay8 a l (ix3 u r h) = finish (l (ix2 r (0 : Fin 1)), l (ix2 r (0 : Fin 1)), a (ix2 r h)) := by
  unfold k1_pay8 finish
  (try dsimp only)
  rw [shapeCast_ab_1ab_apply, divf_apply, broadcastTo_a1_ab_apply]

end Cert.KernelIdeal.Attn

end
-- ==== Proof.AttnOnline.lean ====
/-
  The online (tile by tile) softmax average of a row equals the whole row's softmax average: the two facts the
  attention kernel's value rests on, for a row whose visible keys lie in one tile and for a row that sees two tiles.
-/
import proofs.«168448_j29377576304777_2_alg».proof.Proof.AttnSpec

noncomputable section

namespace Cert.AttnSpec

open Idealize.ShloMosaic
open scoped BigOperators

/-! ## Weights against a real reference point

  Every exponential in either computation has the form `exp (x − M)` with `x` a score and `M` a real number. Such a
  weight is a nonnegative real: `0` for a masked score, `Real.exp (x − M)` otherwise. Moving the reference point from
  `M` to `M'` multiplies every weight by the common factor `exp (M − M')`, which cancels in the quotient
  (weighted sum) / (sum of weights): that quotient does not depend on the reference point at all. The whole-row
  softmax is that quotient at the row maximum, the online result is that quotient at the running maximum. -/

/-- The weight of a score `x` against the real reference point `M`: `0` if masked, `exp (x − M)` otherwise. -/
def wt (x : EReal) (M : ℝ) : ℝ := if x = ⊥ then 0 else Real.exp (x.toReal - M)

theorem wt_bot (M : ℝ) : wt ⊥ M = 0 := by simp [wt]

theorem wt_coe (r M : ℝ) : wt (r : EReal) M = Real.exp (r - M) := by simp [wt]

theorem wt_nonneg (x : EReal) (M : ℝ) : 0 ≤ wt x M := by
  unfold wt
  split_ifs
  · exact le_rfl
  · exact (Real.exp_pos _).le

theorem wt_pos {x : EReal} (hx : x ≠ ⊥) (M : ℝ) : 0 < wt x M := by
  unfold wt
  rw [if_neg hx]
  exact Real.exp_pos _

/-- Changing the reference point rescales every weight by the same factor. -/
theorem wt_shift (x : EReal) (M M' : ℝ) : Real.exp (M - M') * wt x M = wt x M' := by
  unfold wt
  split_ifs
  · simp
  · rw [← Real.exp_add]
    congr 1
    ring

/-- The exponential of (score − real) is the coercion of the weight. -/
theorem exp_sub_coe {x : EReal} (hx : Score x) (M : ℝ) : Ideal.exp (x - (M : EReal)) = ((wt x M : ℝ) : EReal) := by
  rcases hx with rfl | ⟨r, rfl⟩
  · rw [EReal.bot_sub, Ideal.exp_bot, wt_bot, EReal.coe_zero]
  · rw [← EReal.coe_sub, Ideal.exp_coe, wt_coe]

/-- The coercion ℝ → EReal commutes with finite sums. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sum_exp {N : ℕ} (s : Fin N → EReal) (hs : ∀ j, Score (s j)) (M : ℝ) :
    ∑ j, Ideal.exp (s j - (M : EReal)) = ((∑ j, wt (s j) M : ℝ) : EReal) := by
  rw [coe_sum]
  exact Finset.sum_congr rfl fun j _ => exp_sub_coe (hs j) M

theorem sum_exp_mul {N : ℕ} (s v : Fin N → EReal) (hs : ∀ j, Score (s j)) (hv : ∀ j, ∃ r : ℝ, v j = (r : EReal))
    (M : ℝ) :
    ∑ j, Ideal.exp (s j - (M : EReal)) * v j = ((∑ j, wt (s j) M * (v j).toReal : ℝ) : EReal) := by
  rw [coe_sum]
  refine Finset.sum_congr rfl fun j _ => ?_
  obtain ⟨r, hr⟩ := hv j
  rw [exp_sub_coe (hs j) M, hr, EReal.toReal_coe, EReal.coe_mul]

theorem sum_wt_pos {N : ℕ} (s : Fin N → EReal) (h : ∃ j, s j ≠ ⊥) (M : ℝ) : 0 < ∑ j, wt (s j) M := by
  obtain ⟨j, hj⟩ := h
  exact Finset.sum_pos' (fun i _ => wt_nonneg _ _) ⟨j, Finset.mem_univ j, wt_pos hj M⟩

/-! ## The maximum of a tile of scores -/

theorem fold_lt_top {N : ℕ} (s : Fin N → EReal) (hs : ∀ j, Score (s j)) : Finset.univ.fold max ⊥ s < ⊤ := by
  rw [Finset.fold_max_lt]
  refine ⟨bot_lt_top, fun j _ => ?_⟩
  rcases hs j with h | ⟨r, h⟩ <;> rw [h]
  · exact bot_lt_top
  · exact EReal.coe_lt_top r

theorem bot_lt_fold {N : ℕ} (s : Fin N → EReal) (h : ∃ j, s j ≠ ⊥) : ⊥ < Finset.univ.fold max ⊥ s := by
  rw [Finset.lt_fold_max]
  obtain ⟨j, hj⟩ := h
  exact Or.inr ⟨j, Finset.mem_univ j, bot_lt_iff_ne_bot.mpr hj⟩

theorem exists_real {x : EReal} (h1 : ⊥ < x) (h2 : x < ⊤) : ∃ r : ℝ, x = (r : EReal) :=
  ⟨x.toReal, (EReal.coe_toReal h2.ne h1.ne').symm⟩

/-! ## The quotient and its independence of the reference point -/

/-- (weighted sum of the values) / (sum of the weights), weights taken against the reference point `M`. -/
def ratio {N : ℕ} (s v : Fin N → EReal) (M : ℝ) : ℝ :=
  (∑ j, wt (s j) M * (v j).toReal) / ∑ j, wt (s j) M

theorem ratio_indep {N : ℕ} (s v : Fin N → EReal) (M M' : ℝ) : ratio s v M = ratio s v M' := by
  unfold ratio
  have hc : Real.exp (M - M') ≠ 0 := (Real.exp_pos _).ne'
  rw [← mul_div_mul_left _ _ hc, Finset.mul_sum, Finset.mul_sum]
  congr 1
  · exact Finset.sum_congr rfl fun j _ => by rw [← mul_assoc, wt_shift]
  · exact Finset.sum_congr rfl fun j _ => wt_shift _ _ _

theorem finish_coe (m : EReal) {L : ℝ} (hL : L ≠ 0) (A : ℝ) :
    finish (m, (L : EReal), (A : EReal)) = ((A / L : ℝ) : EReal) := by
  show Ideal.div (A : EReal) (L : EReal) = _
  rw [Ideal.div_coe hL, ← EReal.coe_mul, mul_one_div]

/-- The whole-row softmax average is the quotient, at any reference point. -/
theorem softRow_eq {N : ℕ} (s v : Fin N → EReal) (hs : ∀ j, Score (s j)) (hv : ∀ j, ∃ r : ℝ, v j = (r : EReal))
    (h : ∃ j, s j ≠ ⊥) (M' : ℝ) : softRow s v = ((ratio s v M' : ℝ) : EReal) := by
  obtain ⟨M, hM⟩ := exists_real (bot_lt_fold s h) (fold_lt_top s hs)
  have hL : (∑ j, wt (s j) M) ≠ 0 := (sum_wt_pos s h M).ne'
  rw [ratio_indep s v M' M]
  unfold softRow ratio
  rw [Finset.sum_div, coe_sum, hM]
  refine Finset.sum_congr rfl fun j _ => ?_
  obtain ⟨r, hr⟩ := hv j
  rw [sum_exp s hs M, exp_sub_coe (hs j) M, Ideal.div_coe hL, hr, EReal.toReal_coe, ← EReal.coe_mul, ← EReal.coe_mul]
  congr 1
  ring

/-- One tile folded into a running triple whose normaliser and weighted sum are real and whose rescaling factor
    `exp (old maximum − new maximum)` is the real number `c`. -/
theorem step_coe {n : ℕ} (pm : EReal) (L A : ℝ) (s v : Fin n → EReal) (hs : ∀ j, Score (s j))
    (hv : ∀ j, ∃ r : ℝ, v j = (r : EReal)) (m' c : ℝ)
    (hm : max pm (Finset.univ.fold max ⊥ s) = (m' : EReal)) (hc : Ideal.exp (pm - (m' : EReal)) = (c : EReal)) :
    step (pm, (L : EReal), (A : EReal)) s v =
      ((m' : EReal), ((c * L + ∑ j, wt (s j) m' : ℝ) : EReal),
        ((c * A + ∑ j, wt (s j) m' * (v j).toReal : ℝ) : EReal)) := by
  unfold step
  simp only [hm, hc, sum_exp s hs m', sum_exp_mul s v hs hv m', EReal.coe_add, EReal.coe_mul]

/-- ONE TILE. A row whose visible keys all lie in the first tile (the second tile wholly masked), with at least one
    visible key: the online result after that one tile is the whole row's softmax average. -/
theorem one_tile {n : ℕ} (s v : Fin (n + n) → EReal)
    (hs : ∀ j, Score (s j)) (hv : ∀ j, ∃ r : ℝ, v j = (r : EReal))
    (hmask : ∀ j : Fin n, s (Fin.natAdd n j) = ⊥) (hvis : ∃ j : Fin n, s (Fin.castAdd n j) ≠ ⊥) :
    finish (step start (fun j : Fin n => s (Fin.castAdd n j)) (fun j : Fin n => v (Fin.castAdd n j))) = softRow s v := by
  have hs1 : ∀ j : Fin n, Score (s (Fin.castAdd n j)) := fun j => hs _
  have hv1 : ∀ j : Fin n, ∃ r : ℝ, v (Fin.castAdd n j) = (r : EReal) := fun j => hv _
  have hall : ∃ j, s j ≠ ⊥ := by
    obtain ⟨j, hj⟩ := hvis
    exact ⟨_, hj⟩
  -- the first tile's maximum is a real number m1
  obtain ⟨m1, hm1⟩ := exists_real (bot_lt_fold (fun j : Fin n => s (Fin.castAdd n j)) hvis) (fold_lt_top _ hs1)
  have hstart : start = (⊥, ((0 : ℝ) : EReal), ((0 : ℝ) : EReal)) := rfl
  -- from the start the rescaling factor is exp (−∞) = 0
  have hstep := step_coe ⊥ 0 0 (fun j : Fin n => s (Fin.castAdd n j)) (fun j : Fin n => v (Fin.castAdd n j)) hs1 hv1
    m1 0 (by rw [hm1]; exact max_eq_right bot_le) (by rw [EReal.bot_sub, Ideal.exp_bot, EReal.coe_zero])
  beta_reduce at hstep
  -- the masked second tile adds nothing to either sum
  have hL : (0 : ℝ) * 0 + ∑ j : Fin n, wt (s (Fin.castAdd n j)) m1 = ∑ j, wt (s j) m1 := by
    have h2 : ∑ j : Fin n, wt (s (Fin.natAdd n j)) m1 = 0 :=
      Finset.sum_eq_zero fun j _ => by rw [hmask j, wt_bot]
    rw [Fin.sum_univ_add, h2, mul_zero, zero_add, add_zero]
  have hA : (0 : ℝ) * 0 + ∑ j : Fin n, wt (s (Fin.castAdd n j)) m1 * (v (Fin.castAdd n j)).toReal
      = ∑ j, wt (s j) m1 * (v j).toReal := by
    have h2 : ∑ j : Fin n, wt (s (Fin.natAdd n j)) m1 * (v (Fin.natAdd n j)).toReal = 0 :=
      Finset.sum_eq_zero fun j _ => by rw [hmask j, wt_bot, zero_mul]
    rw [Fin.sum_univ_add, h2, mul_zero, zero_add, add_zero]
  rw [hstart, hstep, hL, hA, finish_coe _ (sum_wt_pos s hall m1).ne', softRow_eq s v hs hv hall m1]
  rfl

/-- TWO TILES. A row that sees every key of the first tile and some (possibly none) of the second: the online result
    after both tiles is the whole row's softmax average. -/
theorem two_tiles {n : ℕ} (s v : Fin (n + n) → EReal)
    (hs : ∀ j, Score (s j)) (hv : ∀ j, ∃ r : ℝ, v j = (r : EReal))
    (hfirst : ∀ j : Fin n, ∃ r : ℝ, s (Fin.castAdd n j) = (r : EReal)) (hn : 0 < n) :
    finish (step (step start (fun j : Fin n => s (Fin.castAdd n j)) (fun j : Fin n => v (Fin.castAdd n j)))
        (fun j : Fin n => s (Fin.natAdd n j)) (fun j : Fin n => v (Fin.natAdd n j))) = softRow s v := by
  have hs1 : ∀ j : Fin n, Score (s (Fin.castAdd n j)) := fun j => hs _
  have hv1 : ∀ j : Fin n, ∃ r : ℝ, v (Fin.castAdd n j) = (r : EReal) := fun j => hv _
  have hs2 : ∀ j : Fin n, Score (s (Fin.natAdd n j)) := fun j => hs _
  have hv2 : ∀ j : Fin n, ∃ r : ℝ, v (Fin.natAdd n j) = (r : EReal) := fun j => hv _
  have hvis : ∃ j : Fin n, s (Fin.castAdd n j) ≠ ⊥ := by
    obtain ⟨r, hr⟩ := hfirst ⟨0, hn⟩
    exact ⟨⟨0, hn⟩, by rw [hr]; exact EReal.coe_ne_bot r⟩
  have hall : ∃ j, s j ≠ ⊥ := by
    obtain ⟨j, hj⟩ := hvis
    exact ⟨_, hj⟩
  -- the first tile's maximum is a real number m1
  obtain ⟨m1, hm1⟩ := exists_real (bot_lt_fold (fun j : Fin n => s (Fin.castAdd n j)) hvis) (fold_lt_top _ hs1)
  have hstart : start = (⊥, ((0 : ℝ) : EReal), ((0 : ℝ) : EReal)) := rfl
  -- from the start the rescaling factor is exp (−∞) = 0
  have hstep1 := step_coe ⊥ 0 0 (fun j : Fin n => s (Fin.castAdd n j)) (fun j : Fin n => v (Fin.castAdd n j)) hs1 hv1
    m1 0 (by rw [hm1]; exact max_eq_right bot_le) (by rw [EReal.bot_sub, Ideal.exp_bot, EReal.coe_zero])
  -- the running maximum after the second tile is a real number m2
  obtain ⟨m2, hm2⟩ : ∃ m2 : ℝ,
      max (m1 : EReal) (Finset.univ.fold max ⊥ (fun j : Fin n => s (Fin.natAdd n j))) = (m2 : EReal) :=
    exists_real (lt_max_of_lt_left (EReal.bot_lt_coe m1)) (max_lt (EReal.coe_lt_top m1) (fold_lt_top _ hs2))
  have hc : Ideal.exp ((m1 : EReal) - (m2 : EReal)) = ((Real.exp (m1 - m2) : ℝ) : EReal) := by
    rw [← EReal.coe_sub, Ideal.exp_coe]
  rw [hstart, hstep1, step_coe _ _ _ _ _ hs2 hv2 m2 (Real.exp (m1 - m2)) hm2 hc]
  beta_reduce
  -- rescaling the first tile's weights from m1 to m2 and adding the second tile's gives the whole row's sums at m2
  have hL : Real.exp (m1 - m2) * ((0 : ℝ) * 0 + ∑ j : Fin n, wt (s (Fin.castAdd n j)) m1)
      + ∑ j : Fin n, wt (s (Fin.natAdd n j)) m2 = ∑ j, wt (s j) m2 := by
    rw [Fin.sum_univ_add, mul_zero, zero_add, Finset.mul_sum]
    congr 1
    exact Finset.sum_congr rfl fun j _ => wt_shift _ _ _
  have hA : Real.exp (m1 - m2) * ((0 : ℝ) * 0 + ∑ j : Fin n, wt (s (Fin.castAdd n j)) m1 * (v (Fin.castAdd n j)).toReal)
      + ∑ j : Fin n, wt (s (Fin.natAdd n j)) m2 * (v (Fin.natAdd n j)).toReal = ∑ j, wt (s j) m2 * (v j).toReal := by
    rw [Fin.sum_univ_add, mul_zero, zero_add, Finset.mul_sum]
    congr 1
    exact Finset.sum_congr rfl fun j _ => by rw [← mul_assoc, wt_shift]
  rw [hL, hA, finish_coe _ (sum_wt_pos s hall m2).ne', softRow_eq s v hs hv hall m2]
  rfl

end Cert.AttnSpec

end
-- ==== Proof.AttnRowSpec.lean ====
/-
  One row of the attention region's result, from the key tiles it saw, is the whole row's softmax average over the
  2048 keys of the arrays Q, K, V the region reads. A row of query tile 0 sees only key tile 0 under the triangular
  mask; a row of query tile 1 sees key tile 0 whole and key tile 1 under the mask. The per-tile scores are the array-wide
  masked scores restricted to the tile, so the online average over the tiles is the softmax average over all keys.
  Everything here needs the arrays' entries to be real numbers. Finally, with Q = x·Wq, K = x·Wk, V = x·Wv, scaling the
  query before the product is scaling the product (a finite sum of reals), which gives causal attention of x.
-/
import proofs.«168448_j29377576304777_2_alg».proof.Proof.AttnRows
import proofs.«168448_j29377576304777_2_alg».proof.Proof.AttnOnline

set_option maxRecDepth 16384

noncomputable section

namespace Cert.KernelIdeal.AttnV

open Cert.KernelIdeal Cert.KernelIdeal.Gen Cert.KernelIdeal.Attn
open Idealize.ShloMosaic Idealize.ShloMosaic.ValueIdx
open Cert.AttnSpec
open scoped BigOperators

/-- The score of query row `i` against key row `j` over the whole arrays, the query scaled before the product. -/
def kscore (Q K : S32x2048x128.Idx → EReal) (b : Fin 32) (i j : Fin 2048) : EReal :=
  ∑ hh : Fin 128, (Q (ix3 b i hh) * Ideal.ofBits .f32 0x3D000000#32) * K (ix3 b j hh)

/-- The same under the causal mask. -/
def kmasked (Q K : S32x2048x128.Idx → EReal) (b : Fin 32) (i j : Fin 2048) : EReal :=
  if j.val ≤ i.val then kscore Q K b i j else ⊥

/-- The attention region's result array as a function of the three arrays it reads. -/
def GO (Q K Vv : S32x2048x128.Idx → EReal) : S32x2048x128.Idx → EReal :=
  fun y => softRow (fun j : Fin 2048 => kmasked Q K (y 0) (y 1) j) (fun j : Fin 2048 => Vv (ix3 (y 0) j (y 2)))

/-- The scale 2⁻⁵ is a real number. -/
theorem scale_real : Ideal.ofBits .f32 0x3D000000#32 = (((1 : ℝ) / 32 : ℝ) : EReal) := by
  simp [Ideal.ofBits, Ideal.ieee, -EReal.coe_mul]; norm_num

section Reals
variable (Q K Vv : S32x2048x128.Idx → EReal)
variable (hQ : ∀ y, ∃ x : ℝ, Q y = (x : EReal)) (hK : ∀ y, ∃ x : ℝ, K y = (x : EReal)) (hV : ∀ y, ∃ x : ℝ, Vv y = (x : EReal))
include hQ hK

theorem kscore_real (b : Fin 32) (i j : Fin 2048) : ∃ x : ℝ, kscore Q K b i j = (x : EReal) := by
  choose fq hfq using hQ
  choose fk hfk using hK
  refine ⟨∑ hh : Fin 128, (fq (ix3 b i hh) * (1 / 32)) * fk (ix3 b j hh), ?_⟩
  unfold kscore
  rw [coe_sum]
  refine Finset.sum_congr rfl fun hh _ => ?_
  rw [hfq, hfk, scale_real, ← EReal.coe_mul, ← EReal.coe_mul]

theorem kmasked_score (b : Fin 32) (i j : Fin 2048) : Score (kmasked Q K b i j) := by
  unfold kmasked
  split_ifs
  · exact Or.inr (kscore_real Q K hQ hK b i j)
  · exact Or.inl rfl

include hV

/-- A row of query tile 0: the online average over key tile 0 under the mask is the whole row's softmax average. -/
theorem row_one (b : Fin 32) (i : Fin 2048) (h' : Fin 128) (r : Fin 1024) (hi : i.val = r.val)
    (qb kb vb : Vec Ideal S1x1024x128 .bf16)
    (hq : ∀ hh : Fin 128, qb (ix3 (0 : Fin 1) r hh) = Q (ix3 b i hh))
    (hk : ∀ (j : Fin 1024) (jj : Fin 2048), jj.val = j.val → ∀ hh : Fin 128, kb (ix3 (0 : Fin 1) j hh) = K (ix3 b jj hh))
    (hv : ∀ (j : Fin 1024) (jj : Fin 2048), jj.val = j.val → vb (ix3 (0 : Fin 1) j h') = Vv (ix3 b jj h')) :
    finish (step start (fun j : Fin 1024 => sDiag qb kb r j) (fun j : Fin 1024 => vb (ix3 (0 : Fin 1) j h')))
      = softRow (fun j : Fin 2048 => kmasked Q K b i j) (fun j : Fin 2048 => Vv (ix3 b j h')) := by
  have hr := r.isLt
  have e1 : (fun j : Fin 1024 => sDiag qb kb r j) = fun j : Fin 1024 => kmasked Q K b i (Fin.castAdd 1024 j) := funext fun j => by
    unfold sDiag kmasked
    have hc : (Fin.castAdd 1024 j : Fin 2048).val = j.val := rfl
    rw [hc, hi]
    refine if_congr Iff.rfl ?_ rfl
    unfold sFull kscore
    exact Finset.sum_congr rfl fun hh _ => by rw [hq hh, hk j (Fin.castAdd 1024 j) hc hh]
  have e2 : (fun j : Fin 1024 => vb (ix3 (0 : Fin 1) j h')) = fun j : Fin 1024 => Vv (ix3 b (Fin.castAdd 1024 j) h') := funext fun j =>
    hv j (Fin.castAdd 1024 j) rfl
  rw [e1, e2]
  exact one_tile (n := 1024) (fun j => kmasked Q K b i j) (fun j => Vv (ix3 b j h'))
    (fun j => kmasked_score Q K hQ hK b i j) (fun j => hV _)
    (fun j => by
      unfold kmasked
      have hc : (Fin.natAdd 1024 j : Fin 2048).val = 1024 + j.val := rfl
      rw [if_neg (by rw [hc, hi]; omega)])
    ⟨⟨0, by omega⟩, by
      unfold kmasked
      have hc : (Fin.castAdd 1024 (⟨0, by omega⟩ : Fin 1024) : Fin 2048).val = 0 := rfl
      rw [if_pos (by rw [hc]; omega)]
      obtain ⟨x, hx⟩ := kscore_real Q K hQ hK b i (Fin.castAdd 1024 (⟨0, by omega⟩ : Fin 1024))
      rw [hx]; exact EReal.coe_ne_bot x⟩

/-- A row of query tile 1: the online average over key tile 0 whole and key tile 1 under the mask is the whole row's
    softmax average. -/
theorem row_two (b : Fin 32) (i : Fin 2048) (h' : Fin 128) (r : Fin 1024) (hi : i.val = 1024 + r.val)
    (qb0 kb0 vb0 qb1 kb1 vb1 : Vec Ideal S1x1024x128 .bf16)
    (hq0 : ∀ hh : Fin 128, qb0 (ix3 (0 : Fin 1) r hh) = Q (ix3 b i hh))
    (hq1 : ∀ hh : Fin 128, qb1 (ix3 (0 : Fin 1) r hh) = Q (ix3 b i hh))
    (hk0 : ∀ (j : Fin 1024) (jj : Fin 2048), jj.val = j.val → ∀ hh : Fin 128, kb0 (ix3 (0 : Fin 1) j hh) = K (ix3 b jj hh))
    (hk1 : ∀ (j : Fin 1024) (jj : Fin 2048), jj.val = 1024 + j.val → ∀ hh : Fin 128, kb1 (ix3 (0 : Fin 1) j hh) = K (ix3 b jj hh))
    (hv0 : ∀ (j : Fin 1024) (jj : Fin 2048), jj.val = j.val → vb0 (ix3 (0 : Fin 1) j h') = Vv (ix3 b jj h'))
    (hv1 : ∀ (j : Fin 1024) (jj : Fin 2048), jj.val = 1024 + j.val → vb1 (ix3 (0 : Fin 1) j h') = Vv (ix3 b jj h')) :
    finish (step (step start (fun j : Fin 1024 => sFull qb0 kb0 r j) (fun j : Fin 1024 => vb0 (ix3 (0 : Fin 1) j h')))
        (fun j : Fin 1024 => sDiag qb1 kb1 r j) (fun j : Fin 1024 => vb1 (ix3 (0 : Fin 1) j h')))
      = softRow (fun j : Fin 2048 => kmasked Q K b i j) (fun j : Fin 2048 => Vv (ix3 b j h')) := by
  have hr := r.isLt
  have e1 : (fun j : Fin 1024 => sFull qb0 kb0 r j) = fun j : Fin 1024 => kmasked Q K b i (Fin.castAdd 1024 j) := funext fun j => by
    unfold kmasked
    have hc : (Fin.castAdd 1024 j : Fin 2048).val = j.val := rfl
    have hj := j.isLt
    rw [if_pos (by rw [hc, hi]; omega)]
    unfold sFull kscore
    exact Finset.sum_congr rfl fun hh _ => by rw [hq0 hh, hk0 j (Fin.castAdd 1024 j) hc hh]
  have e2 : (fun j : Fin 1024 => vb0 (ix3 (0 : Fin 1) j h')) = fun j : Fin 1024 => Vv (ix3 b (Fin.castAdd 1024 j) h') := funext fun j =>
    hv0 j (Fin.castAdd 1024 j) rfl
  have e3 : (fun j : Fin 1024 => sDiag qb1 kb1 r j) = fun j : Fin 1024 => kmasked Q K b i (Fin.natAdd 1024 j) := funext fun j => by
    unfold sDiag kmasked
    have hc : (Fin.natAdd 1024 j : Fin 2048).val = 1024 + j.val := rfl
    rw [hc, hi]
    refine if_congr (by omega) ?_ rfl
    unfold sFull kscore
    exact Finset.sum_congr rfl fun hh _ => by rw [hq1 hh, hk1 j (Fin.natAdd 1024 j) hc hh]
  have e4 : (fun j : Fin 1024 => vb1 (ix3 (0 : Fin 1) j h')) = fun j : Fin 1024 => Vv (ix3 b (Fin.natAdd 1024 j) h') := funext fun j =>
    hv1 j (Fin.natAdd 1024 j) rfl
  rw [e1, e2, e3, e4]
  exact two_tiles (n := 1024) (fun j => kmasked Q K b i j) (fun j => Vv (ix3 b j h'))
    (fun j => kmasked_score Q K hQ hK b i j) (fun j => hV _)
    (fun j => by
      unfold kmasked
      have hc : (Fin.castAdd 1024 j : Fin 2048).val = j.val := rfl
      have hj := j.isLt
      rw [if_pos (by rw [hc, hi]; omega)]
      exact kscore_real Q K hQ hK b i _)
    (by omega)

end Reals

/-! ## With the projections for Q, K, V: causal attention of x -/

section Proj
variable (X : S32x2048x1024.Idx → EReal) (Wq Wk Wv : S1024x128.Idx → EReal)
variable (hX : ∀ y, ∃ x : ℝ, X y = (x : EReal)) (hWq : ∀ y, ∃ x : ℝ, Wq y = (x : EReal)) (hWk : ∀ y, ∃ x : ℝ, Wk y = (x : EReal))

theorem proj_real (W : S1024x128.Idx → EReal) (hX : ∀ y, ∃ x : ℝ, X y = (x : EReal)) (hW : ∀ y, ∃ x : ℝ, W y = (x : EReal))
    (b : Fin 32) (t : Fin 2048) (h : Fin 128) : ∃ x : ℝ, proj X W b t h = (x : EReal) := by
  choose fx hfx using hX
  choose fw hfw using hW
  refine ⟨∑ cc : Fin 1024, fx (ix3 b t cc) * fw (ix2 cc h), ?_⟩
  unfold proj
  rw [coe_sum]
  exact Finset.sum_congr rfl fun cc _ => by rw [hfx, hfw, ← EReal.coe_mul]

include hX hWq hWk in
/-- Scaling the query row before the product with the key row is scaling the product. -/
theorem kscore_proj (b : Fin 32) (i j : Fin 2048) :
    kscore (fun y => proj X Wq (y 0) (y 1) (y 2)) (fun y => proj X Wk (y 0) (y 1) (y 2)) b i j = score X Wq Wk b i j := by
  unfold kscore score
  have hq : ∀ hh : Fin 128, ∃ x : ℝ, proj X Wq b i hh = (x : EReal) := fun hh => proj_real X Wq hX hWq b i hh
  have hk : ∀ hh : Fin 128, ∃ x : ℝ, proj X Wk b j hh = (x : EReal) := fun hh => proj_real X Wk hX hWk b j hh
  choose fq hfq using hq
  choose fk hfk using hk
  show ∑ hh : Fin 128, (proj X Wq b i hh * Ideal.ofBits .f32 0x3D000000#32) * proj X Wk b j hh
      = (∑ hh : Fin 128, proj X Wq b i hh * proj X Wk b j hh) * Ideal.ofBits .f32 0x3D000000#32
  simp only [hfq, hfk, scale_real, ← EReal.coe_mul, ← coe_sum]
  congr 1
  rw [Finset.sum_mul]
  exact Finset.sum_congr rfl fun hh _ => by ring

include hX hWq hWk in
/-- The attention region's result, with the projections for its three arrays, is causal attention of x. -/
theorem GO_proj : GO (fun y => proj X Wq (y 0) (y 1) (y 2)) (fun y => proj X Wk (y 0) (y 1) (y 2)) (fun y => proj X Wv (y 0) (y 1) (y 2))
    = fun y => attn X Wq Wk Wv y := by
  funext y
  obtain ⟨b, i, h, rfl⟩ : ∃ (b : Fin 32) (i : Fin 2048) (h : Fin 128), y = ix3 b i h := ⟨y 0, y 1, y 2, eq_ix3 y⟩
  show softRow (fun j : Fin 2048 => kmasked (fun y => proj X Wq (y 0) (y 1) (y 2)) (fun y => proj X Wk (y 0) (y 1) (y 2)) b i j) (fun j : Fin 2048 => proj X Wv b j h)
    = softRow (fun j : Fin 2048 => masked X Wq Wk b i j) (fun j : Fin 2048 => proj X Wv b j h)
  refine congrArg₂ softRow (funext fun j => ?_) rfl
  unfold kmasked masked
  rw [kscore_proj X Wq Wk hX hWq hWk]

end Proj

end Cert.KernelIdeal.AttnV

end
-- ==== Proof.AttnValue.lean ====
/-
  What the attention region leaves in its result array, at the ideal values: every entry is the whole-row softmax
  average over the 2048 keys of the arrays Q, K, V it reads. The grid point t = 4·b + 2·qi + ki reads the query block
  (b, qi) and the key and value blocks (b, min ki qi); the point at ki = 1 writes the result block (b, qi): for qi = 0
  from the scratch the point before it left (one key tile under the mask), for qi = 1 after folding the diagonal tile
  into what the point before left (two key tiles). The 64 written blocks tile the array.
-/
import proofs.«168448_j29377576304777_2_alg».proof.Proof.AttnRowSpec
import Idealize.ShloMosaic.Lib.Pipeline.Value

set_option maxRecDepth 16384

noncomputable section

namespace Cert.KernelIdeal.AttnV

open Cert.KernelIdeal Cert.KernelIdeal.Gen Cert.KernelIdeal.Attn
open Idealize.ShloMosaic Idealize.ShloMosaic.TcCoe Idealize.ShloMosaic.ValueIdx
open Idealize.SL Idealize.SL.Sem
open Idealize.ShloMosaic.Pipeline (Dat Cfg Window)
open Cert.AttnSpec
open scoped BigOperators

/-- The printed index maps over the 128 grid points. -/
theorem idx_facts : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = (if t.val % 4 = 3 then 1 else 0) ∧ win1_1.index t (2 : Fin 3) = 0
    ∧ win1_2.index t (0 : Fin 3) = t.val / 4 ∧ win1_2.index t (1 : Fin 3) = (if t.val % 4 = 3 then 1 else 0) ∧ win1_2.index t (2 : Fin 3) = 0
    ∧ win1_3.index t (0 : Fin 3) = t.val / 4 ∧ win1_3.index t (1 : Fin 3) = t.val / 2 % 2 ∧ win1_3.index t (2 : Fin 3) = 0 :=
  (by decide +kernel : ∀ t : Fin grid1.N, _)

variable (V : (c : Dev nD) → (b : Ref sig .tc) → Buf (Elt Ideal) ((c : Thread nD τ).loc b))

/-! ## The input blocks at a point -/

theorem iblkQ_apply (c : Dev nD) (t : Fin cfg1.N) (r : Fin 1024) (hh : Fin 128) (b : Fin 32) (i : Fin 2048)
    (hb : b.val = t.val / 4) (hi : i.val = (t.val / 2 % 2) * 1024 + r.val) :
    Attn.iblk V c 0 t (ix3 (0 : Fin 1) r hh) = V c main_v1_0 (ix3 b i hh) := by
  obtain ⟨e0, e1, e2, -⟩ := idx_facts t
  show V c main_v1_0 (((cfg1.win 0).blk t).view.emb (ix3 (0 : Fin 1) r hh)) = V c main_v1_0 (ix3 b i hh)
  refine congrArg (V c main_v1_0) (funext fun a => Fin.ext ?_)
  match a with
  | ⟨0, _⟩ => show win1_0.index t (0 : Fin 3) * 1 + 1 * 0 = b.val; omega
  | ⟨1, _⟩ => show win1_0.index t (1 : Fin 3) * 1024 + 1 * r.val = i.val; omega
  | ⟨2, _⟩ => show win1_0.index t (2 : Fin 3) * 128 + 1 * hh.val = hh.val; omega

theorem iblkK_apply (c : Dev nD) (t : Fin cfg1.N) (j : Fin 1024) (hh : Fin 128) (b : Fin 32) (jj : Fin 2048)
    (hb : b.val = t.val / 4) (hj : jj.val = (if t.val % 4 = 3 then 1 else 0) * 1024 + j.val) :
    Attn.iblk V c 1 t (ix3 (0 : Fin 1) j hh) = V c main_v1_1 (ix3 b jj hh) := by
  obtain ⟨-, -, -, e3, e4, e5, -⟩ := idx_facts t
  show V c main_v1_1 (((cfg1.win 1).blk t).view.emb (ix3 (0 : Fin 1) j hh)) = V c main_v1_1 (ix3 b jj hh)
  refine congrArg (V c main_v1_1) (funext fun a => Fin.ext ?_)
  match a with
  | ⟨0, _⟩ => show win1_1.index t (0 : Fin 3) * 1 + 1 * 0 = b.val; omega
  | ⟨1, _⟩ => show win1_1.index t (1 : Fin 3) * 1024 + 1 * j.val = jj.val; rw [e4]; omega
  | ⟨2, _⟩ => show win1_1.index t (2 : Fin 3) * 128 + 1 * hh.val = hh.val; omega

theorem iblkV_apply (c : Dev nD) (t : Fin cfg1.N) (j : Fin 1024) (hh : Fin 128) (b : Fin 32) (jj : Fin 2048)
    (hb : b.val = t.val / 4) (hj : jj.val = (if t.val % 4 = 3 then 1 else 0) * 1024 + j.val) :
    Attn.iblk V c 2 t (ix3 (0 : Fin 1) j hh) = V c main_v1_2 (ix3 b jj hh) := by
  obtain ⟨-, -, -, -, -, -, e6, e7, e8, -⟩ := idx_facts t
  show V c main_v1_2 (((cfg1.win 2).blk t).view.emb (ix3 (0 : Fin 1) j hh)) = V c main_v1_2 (ix3 b jj hh)
  refine congrArg (V c main_v1_2) (funext fun a => Fin.ext ?_)
  match a with
  | ⟨0, _⟩ => show win1_2.index t (0 : Fin 3) * 1 + 1 * 0 = b.val; omega
  | ⟨1, _⟩ => show win1_2.index t (1 : Fin 3) * 1024 + 1 * j.val = jj.val; rw [e7]; omega
  | ⟨2, _⟩ => show win1_2.index t (2 : Fin 3) * 128 + 1 * hh.val = hh.val; omega

/-! ## The scratch after each kind of point -/

/-- A scratch triple read at a row and a head column. -/
def tri (p : Vec Ideal S1024x1 .f32 × Vec Ideal S1024x1 .f32 × Vec Ideal S1024x128 .f32) (r : Fin 1024) (hh : Fin 128) : EReal × EReal × EReal :=
  (p.1 (ix2 r (0 : Fin 1)), p.2.1 (ix2 r (0 : Fin 1)), p.2.2 (ix2 r hh))

theorem tri_updDiag (q k v : Vec Ideal S1x1024x128 .bf16) (p) (r : Fin 1024) (hh : Fin 128) :
    tri (updDiag q k v p) r hh = step (tri p r hh) (fun j : Fin 1024 => sDiag q k r j) (fun j : Fin 1024 => v (ix3 (0 : Fin 1) j hh)) :=
  updDiag_row q k v p r hh
theorem tri_updFull (q k v : Vec Ideal S1x1024x128 .bf16) (p) (r : Fin 1024) (hh : Fin 128) :
    tri (updFull q k v p) r hh = step (tri p r hh) (fun j : Fin 1024 => sFull q k r j) (fun j : Fin 1024 => v (ix3 (0 : Fin 1) j hh)) :=
  updFull_row q k v p r hh
theorem tri_reset (r : Fin 1024) (hh : Fin 128) : tri reset r hh = start := reset_row r hh
theorem out_tri (p : Vec Ideal S1024x1 .f32 × Vec Ideal S1024x1 .f32 × Vec Ideal S1024x128 .f32) (u : Fin 1) (r : Fin 1024) (hh : Fin 128) :
    k1_pay8 p.2.2 p.2.1 (ix3 u r hh) = finish (tri p r hh) :=
  (pay8_apply p.2.2 p.2.1 u r hh).trans rfl

/-- After a first key tile of query tile 0: the diagonal tile folded into the reset values. -/
theorem S0 (c : Dev nD) (n : ℕ) (hn : n < cfg1.N) (h : n % 4 = 0) :
    (outsAt V c n hn).2 = updDiag (Attn.iblk V c 0 ⟨n, hn⟩) (Attn.iblk V c 1 ⟨n, hn⟩) (Attn.iblk V c 2 ⟨n, hn⟩) reset := by
  rw [outsAt_A V c ⟨n, hn⟩ h]
  exact Prod.ext (stepA_M V c ⟨n, hn⟩ h) (Prod.ext (stepA_L V c ⟨n, hn⟩ h) (stepA_A V c ⟨n, hn⟩ h))
/-- After a first key tile of query tile 1: the unmasked tile folded into the reset values. -/
theorem S2 (c : Dev nD) (n : ℕ) (hn : n < cfg1.N) (h : n % 4 = 2) :
    (outsAt V c n hn).2 = updFull (Attn.iblk V c 0 ⟨n, hn⟩) (Attn.iblk V c 1 ⟨n, hn⟩) (Attn.iblk V c 2 ⟨n, hn⟩) reset := by
  rw [outsAt_C V c ⟨n, hn⟩ h]
  exact Prod.ext (stepC_M V c ⟨n, hn⟩ h) (Prod.ext (stepC_L V c ⟨n, hn⟩ h) (stepC_A V c ⟨n, hn⟩ h))
/-- The block stored at the skipped tile of query tile 0: the weighted sum the point before left over its normaliser. -/
theorem O1 (c : Dev nD) (t : Fin cfg1.N) (h : t.val % 4 = 1) :
    (outsAt V c t.val t.isLt).1 = k1_pay8 (outsAt V c (t.val - 1) (Nat.lt_of_le_of_lt (Nat.sub_le _ _) t.isLt)).2.2.2 (outsAt V c (t.val - 1) (Nat.lt_of_le_of_lt (Nat.sub_le _ _) t.isLt)).2.2.1 := by
  rw [outsAt_B V c t h]
  exact stepB_O V c t h _
/-- The block stored at the diagonal tile of query tile 1: after folding the diagonal tile into what the point before left. -/
theorem O3 (c : Dev nD) (t : Fin cfg1.N) (h : t.val % 4 = 3) :
    (outsAt V c t.val t.isLt).1
      = k1_pay8 (updDiag (Attn.iblk V c 0 t) (Attn.iblk V c 1 t) (Attn.iblk V c 2 t) (outsAt V c (t.val - 1) (Nat.lt_of_le_of_lt (Nat.sub_le _ _) t.isLt)).2).2.2
          (updDiag (Attn.iblk V c 0 t) (Attn.iblk V c 1 t) (Attn.iblk V c 2 t) (outsAt V c (t.val - 1) (Nat.lt_of_le_of_lt (Nat.sub_le _ _) t.isLt)).2).2.1 := by
  rw [outsAt_D V c t h]
  exact stepD_O V c t h _

/-! ## From blocks to the array -/

section Final
variable (c : Dev nD) (hQ : ∀ y, ∃ x : ℝ, (V c main_v1_0 : S32x2048x128.Idx → EReal) y = (x : EReal))
  (hK : ∀ y, ∃ x : ℝ, (V c main_v1_1 : S32x2048x128.Idx → EReal) y = (x : EReal))
  (hV : ∀ y, ∃ x : ℝ, (V c main_v1_2 : S32x2048x128.Idx → EReal) y = (x : EReal))
include hQ hK hV

/-- What a writing point writes back is its block of the array-wide function. -/
theorem flushed3 (t : Fin cfg1.N) (hf : (cfg1.win 3).flush t = true) :
    (Attn.dat V c).flushed 3 t = ((cfg1.win 3).blk t).view.read (Elt Ideal) (GO (V c main_v1_0) (V c main_v1_1) (V c main_v1_2)) := by
  have hodd : t.val % 2 = 1 := (flush1_3 t).mp hf
  have hN : t.val < 128 := lt_of_lt_of_eq t.isLt (show cfg1.N = 128 from N_1)
  obtain ⟨-, -, -, -, -, -, -, -, -, e9, e10, e11⟩ := idx_facts t
  show (cfg1.win 3).cut (grid1.coords t) ((Attn.dat V c).after 3 t) = _
  rw [Attn.after_3]
  funext j
  obtain ⟨u, r, hh, rfl⟩ : ∃ (u : Fin 1) (r : Fin 1024) (hh : Fin 128), j = ix3 u r hh := ⟨j 0, j 1, j 2, eq_ix3 j⟩
  have hu : u.val = 0 := by omega
  have hr := r.isLt
  -- the array index of this entry of the block
  obtain ⟨b, hb⟩ : ∃ b : Fin 32, b.val = t.val / 4 := ⟨⟨t.val / 4, by omega⟩, rfl⟩
  obtain ⟨i, hi⟩ : ∃ i : Fin 2048, i.val = (t.val / 2 % 2) * 1024 + r.val := ⟨⟨(t.val / 2 % 2) * 1024 + r.val, by omega⟩, rfl⟩
  have hemb : ((cfg1.win 3).blk t).view.emb (ix3 u r hh) = ix3 b i hh := funext fun a => Fin.ext (by
    match a with
    | ⟨0, _⟩ => show win1_3.index t (0 : Fin 3) * 1 + 1 * u.val = b.val; omega
    | ⟨1, _⟩ => show win1_3.index t (1 : Fin 3) * 1024 + 1 * r.val = i.val; omega
    | ⟨2, _⟩ => show win1_3.index t (2 : Fin 3) * 128 + 1 * hh.val = hh.val; omega)
  show (outsAt V c t.val t.isLt).1 (ix3 u r hh) = GO (V c main_v1_0) (V c main_v1_1) (V c main_v1_2) (((cfg1.win 3).blk t).view.emb (ix3 u r hh))
  rw [hemb]
  show _ = softRow (fun j : Fin 2048 => kmasked (V c main_v1_0) (V c main_v1_1) b i j) (fun j : Fin 2048 => V c main_v1_2 (ix3 b j hh))
  rcases (by omega : t.val % 4 = 1 ∨ t.val % 4 = 3) with h | h
  · -- query tile 0: the point before folded the diagonal tile into the reset values
    have hp : (t.val - 1) % 4 = 0 := by omega
    have hpn : t.val - 1 < cfg1.N := Nat.lt_of_le_of_lt (Nat.sub_le _ _) t.isLt
    rw [O1 V c t h, out_tri, S0 V c (t.val - 1) hpn hp, tri_updDiag, tri_reset]
    refine row_one _ _ _ hQ hK hV b i hh r (by omega) _ _ _ ?_ ?_ ?_
    · intro h2; exact iblkQ_apply V c ⟨t.val - 1, hpn⟩ r h2 b i (by show b.val = (t.val - 1) / 4; omega) (by show i.val = ((t.val - 1) / 2 % 2) * 1024 + r.val; omega)
    · intro j jj hjj h2; exact iblkK_apply V c ⟨t.val - 1, hpn⟩ j h2 b jj (by show b.val = (t.val - 1) / 4; omega) (by show jj.val = (if (t.val - 1) % 4 = 3 then 1 else 0) * 1024 + j.val; rw [if_neg (by omega)]; omega)
    · intro j jj hjj; exact iblkV_apply V c ⟨t.val - 1, hpn⟩ j hh b jj (by show b.val = (t.val - 1) / 4; omega) (by show jj.val = (if (t.val - 1) % 4 = 3 then 1 else 0) * 1024 + j.val; rw [if_neg (by omega)]; omega)
  · -- query tile 1: the point before folded the unmasked tile into the reset values, this point folds the diagonal tile
    have hp : (t.val - 1) % 4 = 2 := by omega
    have hpn : t.val - 1 < cfg1.N := Nat.lt_of_le_of_lt (Nat.sub_le _ _) t.isLt
    rw [O3 V c t h, out_tri, tri_updDiag, S2 V c (t.val - 1) hpn hp, tri_updFull, tri_reset]
    refine row_two _ _ _ hQ hK hV b i hh r (by omega) _ _ _ _ _ _ ?_ ?_ ?_ ?_ ?_ ?_
    · intro h2; exact iblkQ_apply V c ⟨t.val - 1, hpn⟩ r h2 b i (by show b.val = (t.val - 1) / 4; omega) (by show i.val = ((t.val - 1) / 2 % 2) * 1024 + r.val; omega)
    · intro h2; exact iblkQ_apply V c t r h2 b i hb hi
    · intro j jj hjj h2; exact iblkK_apply V c ⟨t.val - 1, hpn⟩ j h2 b jj (by show b.val = (t.val - 1) / 4; omega) (by show jj.val = (if (t.val - 1) % 4 = 3 then 1 else 0) * 1024 + j.val; rw [if_neg (by omega)]; omega)
    · intro j jj hjj h2; exact iblkK_apply V c t j h2 b jj hb (by rw [if_pos h]; omega)
    · intro j jj hjj; exact iblkV_apply V c ⟨t.val - 1, hpn⟩ j hh b jj (by show b.val = (t.val - 1) / 4; omega) (by show jj.val = (if (t.val - 1) % 4 = 3 then 1 else 0) * 1024 + j.val; rw [if_neg (by omega)]; omega)
    · intro j jj hjj; exact iblkV_apply V c t j hh b jj hb (by rw [if_pos h]; omega)

omit c hQ hK hV in
theorem mem_blk3 (t : Fin cfg1.N) (i : S32x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v2).slice (win1_3.rect t)).set ↔ _
  rw [View.set_slice_whole, Rect.mem_set_unit]
  exact Iff.rfl

omit c hQ hK hV in
/-- Every entry (b, i, h) lies in the block of the writing point 4·b + 2·(i / 1024) + 1. -/
theorem cover3 (i : S32x2048x128.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 128 := (i 2).isLt
  have hN : cfg1.N = 128 := N_1
  obtain ⟨t, htv⟩ : ∃ t : Fin cfg1.N, t.val = (i 0).val * 4 + ((i 1).val / 1024) * 2 + 1 := ⟨⟨(i 0).val * 4 + ((i 1).val / 1024) * 2 + 1, by rw [hN]; omega⟩, rfl⟩
  obtain ⟨-, -, -, -, -, -, -, -, -, e9, e10, e11⟩ := idx_facts t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The result array after the region. -/
theorem final3 : (Attn.dat V c).arrAt 3 cfg1.N = GO (V c main_v1_0) (V c main_v1_1) (V c main_v1_2) :=
  (Attn.dat V c).arrAt_eq_of_cover 3 _ (fun t hf => flushed3 V c hQ hK hV t hf) cover3

end Final

end Cert.KernelIdeal.AttnV

end
-- ==== Proof.ProjBody.lean ====
/-
  Region 0 of the idealized kernel's @main: the QKV projection. At each of the 64 grid points the body loads one
  1024×1024 block of x and the whole joined weight matrix [Wq | Wk | Wv] (1024×384), multiplies them into a zero
  accumulator and stores the three 128-column slices of the product into the three output windows. This module states
  what each output window's buffer holds after the body (the three slices of the product, as one store each), runs the
  body symbolically, and packages the result as the pipeline's proof data and body obligation at an arbitrary
  valuation `V` of the core's buffers on entry to the region.
-/
import proofs.«168448_j29377576304777_2_alg».proof.Proof.Gen.KernelIdeal.Launch
import proofs.«168448_j29377576304777_2_alg».proof.Proof.Gen.KernelIdeal.Skeleton
import proofs.«168448_j29377576304777_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the block of x at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole joined weight matrix at every point (it is fetched once). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S1x1024x1024 := Rect.unit (s := S1x1024x1024) ![0, 0, 0] S1x1024x1024.size inb_S1x1024x1024_S1x1024x1024_0_0_0
abbrev rW : Rect S1024x384 := Rect.unit (s := S1024x384) ![0, 0] S1024x384.size inb_S1024x384_S1024x384_0_0
abbrev rO : Rect S1x1024x128 := Rect.unit (s := S1x1024x128) ![0, 0, 0] S1x1024x128.size inb_S1x1024x128_S1x1024x128_0_0_0

/-- What the body leaves in the Q window's buffer: columns 0–127 of the product, one store. -/
def outQ (x0 : Vec F S1x1024x1024 .f32) (w0 : Vec F S1024x384 .f32) : Vec F S1x1024x128 .bf16 :=
  View.canon [⟨rO, k0_pay2 (View.ld x0 rX) (View.ld w0 rW)⟩]
/-- The K window's: columns 128–255. -/
def outK (x0 : Vec F S1x1024x1024 .f32) (w0 : Vec F S1024x384 .f32) : Vec F S1x1024x128 .bf16 :=
  View.canon [⟨rO, k0_pay3 (View.ld x0 rX) (View.ld w0 rW)⟩]
/-- The V window's: columns 256–383. -/
def outV (x0 : Vec F S1x1024x1024 .f32) (w0 : Vec F S1024x384 .f32) : Vec F S1x1024x128 .bf16 :=
  View.canon [⟨rO, k0_pay4 (View.ld x0 rX) (View.ld w0 rW)⟩]

/-- One whole-block store covers the block. -/
theorem coverO (p0 : Vec F S1x1024x128 .bf16) (y : S1x1024x128.Idx) :
    ∃ pc ∈ ([⟨rO, p0⟩] : List (View.Piece (Elt F) S1x1024x128 .bf16)), y ∈ pc.1.set :=
  View.cover_of_tiled [⟨rO, p0⟩] S1x1024x128.size (by rfl) y

set_option maxHeartbeats 1000000 in
/-- The body on whole staging memrefs: the two inputs are read and left as they were, each output ends at its slice. -/
theorem sound_kernel (c : Dev nD) (E : Set ℕ) (i : grid0.Coords)
    (arg2 : Memref sig .tc .vmem S1x1024x1024 .f32) (harg2 : arg2.IsWhole) (arg3 : Memref sig .tc .vmem S1024x384 .f32) (harg3 : arg3.IsWhole)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole)
    (x0 : Vec F S1x1024x1024 .f32) (w0 : Vec F S1024x384 .f32) (K : PUnit → sProp 𝕄) :
    iprop(owns (c : Thread nD τ) arg2 fullShare x0 ∗ owns (c : Thread nD τ) arg3 fullShare w0
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare w0
            ∗ owns (c : Thread nD τ) arg4 fullShare (outQ x0 w0) ∗ owns (c : Thread nD τ) arg5 fullShare (outK x0 w0)
            ∗ owns (c : Thread nD τ) arg6 fullShare (outV x0 w0)) -∗ K ⟨⟩))
      ⊢ wp frame (wpE (defs₀ (F := F)) Variants.none c none) E (cc0__qkv_kernel i arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The proof data of the projection's pipeline -/

/-- The arrays as the region finds them; after the body each input's buffer still at its block, each output's at its
    slice of the product of the two input blocks; the body's invariant is the scoped rest and the generator register,
    untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outQ (iblk V c 0 t) (iblk V c 1 t)
    | ⟨3, _⟩ => outK (iblk V c 0 t) (iblk V c 1 t)
    | ⟨4, _⟩ => outV (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outQ (iblk V c 0 t) (iblk V c 1 t) := by dsimp only [dat]
theorem after_3 (c : Dev nD) (t : Fin cfg0.N) : (dat V c).after 3 t = outK (iblk V c 0 t) (iblk V c 1 t) := by dsimp only [dat]
theorem after_4 (c : Dev nD) (t : Fin cfg0.N) : (dat V c).after 4 t = outV (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, and after the last point it is given back. -/
theorem hin (c : Dev nD) : Pipeline.ΦA spec0 c ⊢ (dat V c).Φ 0 := by
  rw [show (dat V c).Φ 0 = Pipeline.ΦA spec0 c from rfl]
theorem hout (c : Dev nD) : (dat V c).Φ (Fin.last cfg0.N) ⊢ Pipeline.ΦA spec0 c := by
  rw [show (dat V c).Φ (Fin.last cfg0.N) = Pipeline.ΦA spec0 c from rfl]

end Cert.KernelIdeal.Proj

end
-- ==== Proof.WholeRun.lean ====
/-
  The whole run of the idealized kernel's @main: one host stretch (the three weight matrices joined side by side),
  then the projection region, then the attention region. The contents of the core's unscoped buffers at each boundary
  are a fold from the launch memory: after the host stretch, after region 0 (its three output arrays at what its
  write-backs leave), after region 1 (the result array at what its write-backs leave). Every weakly fair execution
  terminates without a fault in a state whose memory holds that last valuation; the argument arrays are read back
  through the fold to their launch contents and the result array to the attention region's final array.
-/
import proofs.«168448_j29377576304777_2_alg».proof.Proof.ProjBody
import proofs.«168448_j29377576304777_2_alg».proof.Proof.AttnData
import proofs.«168448_j29377576304777_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (Proj.dat (E1 m ρ) c).arrAt w cfg0.N
theorem W2_arr (c : Dev nD) (w : Fin cfg0.W) :
    W2 m ρ c (Proc.devRef .tc (Pipeline.arrRef spec0 w)) = (Proj.dat (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (Proj.dat (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- At region 1's exit (no host operation stands between the two regions). -/
def W3 (c : Dev nD) : Valuation τ sig (Elt F) :=
  Pipeline.withArrays spec1 c (W2 m ρ c) fun w => (Attn.dat (E2 m ρ) c).arrAt w cfg1.N
theorem W3_arr (c : Dev nD) (w : Fin cfg1.W) :
    W3 m ρ c (Proc.devRef .tc (Pipeline.arrRef spec1 w)) = (Attn.dat (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (Attn.dat (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- `main_arg0` ends as launched: the host stretch does not write it and no region changes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((Proj.dat (E1 m ρ) c).arrAt_in 0 rfl _).trans (Proj.A_eq (E1 m ρ) c 0))
    _ = W0 m ρ c (Proc.devRef .tc main_arg0) := StableHlo.after_of_writes_sub hostOps0 _ hostOps0_writes (r := main_arg0) (by decide)
    _ = m ((c : Thread nD τ).loc main_arg0) := rfl

/-- `main_arg1` ends as launched: the host stretch does not write it and no region changes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- `main_arg2` ends as launched: the host stretch does not write it and no region changes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

/-- `main_arg3` ends as launched: the host stretch does not write it and no region changes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- The result array ends at what the attention region's write-backs leave in it. -/
theorem W3_main_v2 (c : Dev nD) : W3 m ρ c (Proc.devRef .tc main_v2) = (Attn.dat (E2 m ρ) c).arrAt 3 cfg1.N :=
  W3_arr m ρ c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (E1 m ρ) c
  | ⟨1, _⟩ => fun c => Attn.dat (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state: its arrays are split out of the unscoped buffers at entry and put back at their
    final contents at exit; the generator register goes into the region's invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Proj.hin (E1 m ρ) c)
    unfold Pipeline.ΦA
    iintro ⟨Hp, -, Hr⟩
    isplitl [Hr]; · iexact Hr
    iexact Hp
  hout c := by
    rw [Pipeline.ownSems0_none]
    refine BIBase.Entails.trans (Proj.hout (E1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at their
    final contents at exit; the generator register goes into the region's invariant and comes back; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.hin (E2 m ρ) c)
    unfold Pipeline.ΦA
    iintro ⟨Hp, -, Hr⟩
    isplitl [Hr]; · iexact Hr
    iexact Hp
  hout c := by
    rw [Pipeline.ownSems0_none]
    refine BIBase.Entails.trans (Attn.hout (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (mainSegs m ρ) := (main_chain c).trans (by chain_rfl)

set_option backward.isDefEq.respectTransparency.types false in
/-- THE RUN: from any memory with zero counters every weakly fair execution of @main on the TensorCores terminates,
    nothing faulting, in a state holding the result array at what the attention region's write-backs leave and every
    argument array as launched. -/
theorem run : θ_run defs (onTc (τ := τ) (main (F := F))) ⟨m, fun _ => 0, ρ⟩ (fun r => ∀ c : Dev nD,
      r.2.mem ((c.tc : Thread nD τ).loc main_v2) = (Attn.dat (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Whole

end
-- ==== Proof.ProjValue.lean ====
/-
  What the projection region leaves in its three output arrays, at the ideal values: every entry (b, t, h) of the
  array of window 2, 3 or 4 is the sum over the 1024 input features c of x(b, t, c) times the joined weight matrix at
  (c, off + h), with off = 0, 128, 256 — the product of the (b, t) row of x with column off + h of [Wq | Wk | Wv].
  Each grid point (b, tt) writes the 1024 rows t = 1024·tt … 1024·tt + 1023 of batch b, and the 64 points' blocks tile
  the array.
-/
import proofs.«168448_j29377576304777_2_alg».proof.Proof.WholeRun
import proofs.«168448_j29377576304777_2_alg».proof.Proof.LibPlainDot
import Idealize.ShloMosaic.Lib.ValueLayout
import Idealize.ShloMosaic.Lib.Pipeline.Value
import Idealize.ShloMosaic.Lib.StableHlo.Run

set_option maxRecDepth 16384

noncomputable section

namespace Cert.KernelIdeal.ProjV

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's arithmetic at an index -/

/-- The product of the x block with the joined weights at (r, h'). -/
theorem pay1_apply (x : Vec Ideal S1x1024x1024 .f32) (w : Vec Ideal S1024x384 .f32) (r : Fin 1024) (h' : Fin 384) :
    k0_pay1 x w (ix2 r h') = ∑ cc : Fin 1024, x (ix3 (0 : Fin 1) r cc) * w (ix2 cc h') := by
  unfold k0_pay1
  refine (Cert.PlainDot.matmul_zero_apply _ rfl rfl rfl rfl rfl rfl none _ _ r h').trans ?_
  refine Finset.sum_congr rfl fun cc _ => ?_
  show shapeCast S1024x1024 x _ (ix2 r cc) * shapeCast S1024x384 w _ (ix2 cc h') = _
  rw [shapeCast_1ab_ab_apply, shapeCast_self]

/-- A 128-column slice of the product, viewed as a [1, 1024, 128] block, at (u, r, h). -/
theorem slice_apply (off : ℕ) (hoff : off + 128 ≤ 384) (p : FVec Ideal S1024x384 .f32) (hs : S1024x384.Slices ![0, off] S1024x128)
    (hc : S1024x128.ShapeCasts S1x1024x128) (u : Fin 1) (r : Fin 1024) (h : Fin 128) :
    shapeCast S1x1024x128 (extractStridedSlice S1024x128 ![0, off] p hs) hc (ix3 u r h)
      = p (ix2 r (⟨off + h.val, by have := h.isLt; omega⟩ : Fin 384)) := by
  rw [shapeCast_ab_1ab_apply]
  exact slice2_axis1_apply off p hs r h _ rfl

theorem pay2_apply (x : Vec Ideal S1x1024x1024 .f32) (w : Vec Ideal S1024x384 .f32) (u : Fin 1) (r : Fin 1024) (h : Fin 128) :
    k0_pay2 x w (ix3 u r h) = ∑ cc : Fin 1024, x (ix3 (0 : Fin 1) r cc) * w (ix2 cc (⟨0 + h.val, by have := h.isLt; omega⟩ : Fin 384)) := by
  unfold k0_pay2
  show shapeCast S1x1024x128 (extractStridedSlice S1024x128 ![0, 0] (k0_pay1 x w) slices_S1024x384_o0_0_S1024x128) shapeCasts_S1024x128_S1x1024x128 (ix3 u r h) = _
  refine (slice_apply 0 (by omega) (k0_pay1 x w) _ _ u r h).trans ?_
  exact pay1_apply x w r _
theorem pay3_apply (x : Vec Ideal S1x1024x1024 .f32) (w : Vec Ideal S1024x384 .f32) (u : Fin 1) (r : Fin 1024) (h : Fin 128) :
    k0_pay3 x w (ix3 u r h) = ∑ cc : Fin 1024, x (ix3 (0 : Fin 1) r cc) * w (ix2 cc (⟨128 + h.val, by have := h.isLt; omega⟩ : Fin 384)) := by
  unfold k0_pay3
  show shapeCast S1x1024x128 (extractStridedSlice S1024x128 ![0, 128] (k0_pay1 x w) slices_S1024x384_o0_128_S1024x128) shapeCasts_S1024x128_S1x1024x128 (ix3 u r h) = _
  refine (slice_apply 128 (by omega) (k0_pay1 x w) _ _ u r h).trans ?_
  exact pay1_apply x w r _
theorem pay4_apply (x : Vec Ideal S1x1024x1024 .f32) (w : Vec Ideal S1024x384 .f32) (u : Fin 1) (r : Fin 1024) (h : Fin 128) :
    k0_pay4 x w (ix3 u r h) = ∑ cc : Fin 1024, x (ix3 (0 : Fin 1) r cc) * w (ix2 cc (⟨256 + h.val, by have := h.isLt; omega⟩ : Fin 384)) := by
  unfold k0_pay4
  show shapeCast S1x1024x128 (extractStridedSlice S1024x128 ![0, 256] (k0_pay1 x w) slices_S1024x384_o0_256_S1024x128) shapeCasts_S1024x128_S1x1024x128 (ix3 u r h) = _
  refine (slice_apply 256 (by omega) (k0_pay1 x w) _ _ u r h).trans ?_
  exact pay1_apply x w r _

/-! ## From blocks to arrays -/

/-- The row of x at (b, t) against column off + h of the joined weights. -/
def rowCol (X : S32x2048x1024.Idx → EReal) (Wc : S1024x384.Idx → EReal) (off : ℕ) (hoff : off + 128 ≤ 384)
    (b : Fin 32) (t : Fin 2048) (h : Fin 128) : EReal :=
  ∑ cc : Fin 1024, X (ix3 b t cc) * Wc (ix2 cc (⟨off + h.val, by have := h.isLt; omega⟩ : Fin 384))

/-- One output array of the projection as a function of x and the joined weights. -/
def GP (X : S32x2048x1024.Idx → EReal) (Wc : S1024x384.Idx → EReal) (off : ℕ) (hoff : off + 128 ≤ 384) : S32x2048x128.Idx → EReal :=
  fun y => rowCol X Wc off hoff (y 0) (y 1) (y 2)

/-- The printed index maps over the 64 grid points: the x window and the three output windows sit at block
    (t / 2, t % 2, 0), the weight window at (0, 0). -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

variable (V : (c : Dev nD) → (b : Ref sig .tc) → Buf (Elt Ideal) ((c : Thread nD τ).loc b))

/-- The x block at point t, at (0, r, cc): x at (t / 2, 1024·(t % 2) + r, cc). -/
theorem iblk0_apply (c : Dev nD) (t : Fin cfg0.N) (r : Fin 1024) (cc : Fin 1024) (b : Fin 32) (tt : Fin 2048)
    (hb : b.val = t.val / 2) (ht : tt.val = (t.val % 2) * 1024 + r.val) :
    Proj.iblk V c 0 t (ix3 (0 : Fin 1) r cc) = V c main_arg0 (ix3 b tt cc) := by
  obtain ⟨e0, e1, e2, -⟩ := idx_facts t
  show V c main_arg0 (((cfg0.win 0).blk t).view.emb (ix3 (0 : Fin 1) r cc)) = V c main_arg0 (ix3 b tt cc)
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = tt.val; omega
  | ⟨2, _⟩ => show win0_0.index t (2 : Fin 3) * 1024 + 1 * cc.val = cc.val; omega

/-- The weight block at any point is the whole joined weight matrix. -/
theorem iblk1_apply (c : Dev nD) (t : Fin cfg0.N) (cc : Fin 1024) (h' : Fin 384) :
    Proj.iblk V c 1 t (ix2 cc h') = V c main_v0 (ix2 cc h') := by
  obtain ⟨-, -, -, e3, e4, -⟩ := idx_facts t
  show V c main_v0 (((cfg0.win 1).blk t).view.emb (ix2 cc h')) = V c main_v0 (ix2 cc h')
  refine congrArg (V c main_v0) (funext fun a => Fin.ext ?_)
  match a with
  | ⟨0, _⟩ => show win0_1.index t (0 : Fin 2) * 1024 + 1 * cc.val = cc.val; omega
  | ⟨1, _⟩ => show win0_1.index t (1 : Fin 2) * 384 + 1 * h'.val = h'.val; omega

/-! ### Output window 2 (columns 0–127 of the product) -/

/-- What point `t` writes back is block `t` of the array-wide function. -/
theorem flushed2 (c : Dev nD) (t : Fin cfg0.N) :
    (Proj.dat V c).flushed 2 t = ((cfg0.win 2).blk t).view.read (Elt Ideal) (GP (V c main_arg0) (V c main_v0) 0 (by omega)) := by
  obtain ⟨-, -, -, -, -, e5, e6, e7, -⟩ := idx_facts t
  show (cfg0.win 2).cut (grid0.coords t) ((Proj.dat V c).after 2 t) = _
  rw [Proj.after_2]
  unfold Proj.outQ
  rw [View.canon_unit_zero hz3]
  simp only [View.ld_unit_zero (S := S1x1024x1024) hz3, View.ld_unit_zero (S := S1024x384) hz2]
  funext j
  obtain ⟨u, r, h, rfl⟩ : ∃ (u : Fin 1) (r : Fin 1024) (h : Fin 128), j = ix3 u r h := ⟨j 0, j 1, j 2, eq_ix3 j⟩
  refine (pay2_apply _ _ u r h).trans ?_
  have hu : u.val = 0 := by omega
  have hb : (((cfg0.win 2).blk t).view.emb (ix3 u r h) 0).val = t.val / 2 := by
    show win0_2.index t (0 : Fin 3) * 1 + 1 * u.val = _; omega
  have ht : (((cfg0.win 2).blk t).view.emb (ix3 u r h) 1).val = (t.val % 2) * 1024 + r.val := by
    show win0_2.index t (1 : Fin 3) * 1024 + 1 * r.val = _; omega
  have hh : (((cfg0.win 2).blk t).view.emb (ix3 u r h) 2).val = h.val := by
    show win0_2.index t (2 : Fin 3) * 128 + 1 * h.val = _; omega
  show _ = rowCol (V c main_arg0) (V c main_v0) 0 (by omega) (((cfg0.win 2).blk t).view.emb (ix3 u r h) 0)
    (((cfg0.win 2).blk t).view.emb (ix3 u r h) 1) (((cfg0.win 2).blk t).view.emb (ix3 u r h) 2)
  unfold rowCol
  refine Finset.sum_congr rfl fun cc _ => ?_
  rw [iblk0_apply V c t r cc _ _ hb ht, iblk1_apply V c t cc _]
  simp only [hh]

/-- An index of the array is in point `t`'s block iff each coordinate is in the block's range on its axis. -/
theorem mem_blk2 (t : Fin cfg0.N) (i : S32x2048x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v1_0).slice (win0_2.rect t)).set ↔ _
  rw [View.set_slice_whole, Rect.mem_set_unit]
  exact Iff.rfl

/-- Every entry (b, t', h) lies in the block of the point 2·b + t' / 1024. -/
theorem cover2 (i : S32x2048x128.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 128 := (i 2).isLt
  have hN : cfg0.N = 64 := N_0
  obtain ⟨t, htv⟩ : ∃ t : Fin cfg0.N, t.val = (i 0).val * 2 + (i 1).val / 1024 := ⟨⟨(i 0).val * 2 + (i 1).val / 1024, by rw [hN]; omega⟩, rfl⟩
  obtain ⟨-, -, -, -, -, e5, e6, e7, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The array after the region. -/
theorem final2 (c : Dev nD) : (Proj.dat V c).arrAt 2 cfg0.N = GP (V c main_arg0) (V c main_v0) 0 (by omega) :=
  (Proj.dat V c).arrAt_eq_of_cover 2 _ (fun t _ => flushed2 V c t) cover2

/-! ### Output window 3 (columns 128–255 of the product) -/

/-- What point `t` writes back is block `t` of the array-wide function. -/
theorem flushed3 (c : Dev nD) (t : Fin cfg0.N) :
    (Proj.dat V c).flushed 3 t = ((cfg0.win 3).blk t).view.read (Elt Ideal) (GP (V c main_arg0) (V c main_v0) 128 (by omega)) := by
  obtain ⟨-, -, -, -, -, -, -, -, e8, e9, e10, -⟩ := idx_facts t
  show (cfg0.win 3).cut (grid0.coords t) ((Proj.dat V c).after 3 t) = _
  rw [Proj.after_3]
  unfold Proj.outK
  rw [View.canon_unit_zero hz3]
  simp only [View.ld_unit_zero (S := S1x1024x1024) hz3, View.ld_unit_zero (S := S1024x384) hz2]
  funext j
  obtain ⟨u, r, h, rfl⟩ : ∃ (u : Fin 1) (r : Fin 1024) (h : Fin 128), j = ix3 u r h := ⟨j 0, j 1, j 2, eq_ix3 j⟩
  refine (pay3_apply _ _ u r h).trans ?_
  have hu : u.val = 0 := by omega
  have hb : (((cfg0.win 3).blk t).view.emb (ix3 u r h) 0).val = t.val / 2 := by
    show win0_3.index t (0 : Fin 3) * 1 + 1 * u.val = _; omega
  have ht : (((cfg0.win 3).blk t).view.emb (ix3 u r h) 1).val = (t.val % 2) * 1024 + r.val := by
    show win0_3.index t (1 : Fin 3) * 1024 + 1 * r.val = _; omega
  have hh : (((cfg0.win 3).blk t).view.emb (ix3 u r h) 2).val = h.val := by
    show win0_3.index t (2 : Fin 3) * 128 + 1 * h.val = _; omega
  show _ = rowCol (V c main_arg0) (V c main_v0) 128 (by omega) (((cfg0.win 3).blk t).view.emb (ix3 u r h) 0)
    (((cfg0.win 3).blk t).view.emb (ix3 u r h) 1) (((cfg0.win 3).blk t).view.emb (ix3 u r h) 2)
  unfold rowCol
  refine Finset.sum_congr rfl fun cc _ => ?_
  rw [iblk0_apply V c t r cc _ _ hb ht, iblk1_apply V c t cc _]
  simp only [hh]

/-- An index of the array is in point `t`'s block iff each coordinate is in the block's range on its axis. -/
theorem mem_blk3 (t : Fin cfg0.N) (i : S32x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v1_1).slice (win0_3.rect t)).set ↔ _
  rw [View.set_slice_whole, Rect.mem_set_unit]
  exact Iff.rfl

/-- Every entry (b, t', h) lies in the block of the point 2·b + t' / 1024. -/
theorem cover3 (i : S32x2048x128.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 128 := (i 2).isLt
  have hN : cfg0.N = 64 := N_0
  obtain ⟨t, htv⟩ : ∃ t : Fin cfg0.N, t.val = (i 0).val * 2 + (i 1).val / 1024 := ⟨⟨(i 0).val * 2 + (i 1).val / 1024, by rw [hN]; omega⟩, rfl⟩
  obtain ⟨-, -, -, -, -, -, -, -, e8, e9, e10, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- The array after the region. -/
theorem final3 (c : Dev nD) : (Proj.dat V c).arrAt 3 cfg0.N = GP (V c main_arg0) (V c main_v0) 128 (by omega) :=
  (Proj.dat V c).arrAt_eq_of_cover 3 _ (fun t _ => flushed3 V c t) cover3

/-! ### Output window 4 (columns 256–383 of the product) -/

/-- What point `t` writes back is block `t` of the array-wide function. -/
theorem flushed4 (c : Dev nD) (t : Fin cfg0.N) :
    (Proj.dat V c).flushed 4 t = ((cfg0.win 4).blk t).view.read (Elt Ideal) (GP (V c main_arg0) (V c main_v0) 256 (by omega)) := by
  obtain ⟨-, -, -, -, -, -, -, -, -, -, -, e11, e12, e13⟩ := idx_facts t
  show (cfg0.win 4).cut (grid0.coords t) ((Proj.dat V c).after 4 t) = _
  rw [Proj.after_4]
  unfold Proj.outV
  rw [View.canon_unit_zero hz3]
  simp only [View.ld_unit_zero (S := S1x1024x1024) hz3, View.ld_unit_zero (S := S1024x384) hz2]
  funext j
  obtain ⟨u, r, h, rfl⟩ : ∃ (u : Fin 1) (r : Fin 1024) (h : Fin 128), j = ix3 u r h := ⟨j 0, j 1, j 2, eq_ix3 j⟩
  refine (pay4_apply _ _ u r h).trans ?_
  have hu : u.val = 0 := by omega
  have hb : (((cfg0.win 4).blk t).view.emb (ix3 u r h) 0).val = t.val / 2 := by
    show win0_4.index t (0 : Fin 3) * 1 + 1 * u.val = _; omega
  have ht : (((cfg0.win 4).blk t).view.emb (ix3 u r h) 1).val = (t.val % 2) * 1024 + r.val := by
    show win0_4.index t (1 : Fin 3) * 1024 + 1 * r.val = _; omega
  have hh : (((cfg0.win 4).blk t).view.emb (ix3 u r h) 2).val = h.val := by
    show win0_4.index t (2 : Fin 3) * 128 + 1 * h.val = _; omega
  show _ = rowCol (V c main_arg0) (V c main_v0) 256 (by omega) (((cfg0.win 4).blk t).view.emb (ix3 u r h) 0)
    (((cfg0.win 4).blk t).view.emb (ix3 u r h) 1) (((cfg0.win 4).blk t).view.emb (ix3 u r h) 2)
  unfold rowCol
  refine Finset.sum_congr rfl fun cc _ => ?_
  rw [iblk0_apply V c t r cc _ _ hb ht, iblk1_apply V c t cc _]
  simp only [hh]

/-- An index of the array is in point `t`'s block iff each coordinate is in the block's range on its axis. -/
theorem mem_blk4 (t : Fin cfg0.N) (i : S32x2048x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v1_2).slice (win0_4.rect t)).set ↔ _
  rw [View.set_slice_whole, Rect.mem_set_unit]
  exact Iff.rfl

/-- Every entry (b, t', h) lies in the block of the point 2·b + t' / 1024. -/
theorem cover4 (i : S32x2048x128.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 128 := (i 2).isLt
  have hN : cfg0.N = 64 := N_0
  obtain ⟨t, htv⟩ : ∃ t : Fin cfg0.N, t.val = (i 0).val * 2 + (i 1).val / 1024 := ⟨⟨(i 0).val * 2 + (i 1).val / 1024, by rw [hN]; omega⟩, rfl⟩
  obtain ⟨-, -, -, -, -, -, -, -, -, -, -, e11, e12, e13⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The array after the region. -/
theorem final4 (c : Dev nD) : (Proj.dat V c).arrAt 4 cfg0.N = GP (V c main_arg0) (V c main_v0) 256 (by omega) :=
  (Proj.dat V c).arrAt_eq_of_cover 4 _ (fun t _ => flushed4 V c t) cover4

end Cert.KernelIdeal.ProjV

end
-- ==== Proof.ProjArrays.lean ====
/-
  The three arrays the projection region leaves, as functions of the program's arguments: the joined weight matrix
  the host stretch writes is [Wq | Wk | Wv] entry by entry, so the product's column off + h is the product with the
  h-th column of Wq, Wk or Wv, and the three output arrays are the projections x·Wq, x·Wk, x·Wv.
-/
import proofs.«168448_j29377576304777_2_alg».proof.Proof.ProjValue
import proofs.«168448_j29377576304777_2_alg».proof.Proof.AttnSpec

set_option maxRecDepth 16384

noncomputable section

namespace Cert.KernelIdeal.ProjV

open Cert.KernelIdeal Cert.KernelIdeal.Gen
open Idealize.ShloMosaic Idealize.ShloMosaic.TcCoe Idealize.ShloMosaic.ValueIdx
open Idealize.SL Idealize.SL.Sem
open Idealize.ShloMosaic.StableHlo
open scoped BigOperators

theorem wcat0_apply (Wq Wk Wv : S1024x128.Idx → EReal) (cc : Fin 1024) (h : Fin 128) :
    concatenate S1024x384 1 [⟨S1024x128, Wq⟩, ⟨S1024x128, Wk⟩, ⟨S1024x128, Wv⟩] concatenates_S1024x128_S1024x128_S1024x128_S1024x384_d1
      (ix2 cc (⟨0 + h.val, by have := h.isLt; omega⟩ : Fin 384)) = Wq (ix2 cc h) :=
  concatenate_apply_piece (t := S1024x384) (1 : Fin 2) [⟨S1024x128, Wq⟩, ⟨S1024x128, Wk⟩, ⟨S1024x128, Wv⟩] concatenates_S1024x128_S1024x128_S1024x128_S1024x384_d1
    (ix2 cc (⟨0 + h.val, by have := h.isLt; omega⟩ : Fin 384)) 0 (by show 0 < 3; omega) S1024x128 Wq rfl rfl 0 rfl (ix2 cc h)
    (fun b hb => by match b with | ⟨0, _⟩ => rfl | ⟨1, _⟩ => exact absurd rfl hb) rfl

theorem wcat1_apply (Wq Wk Wv : S1024x128.Idx → EReal) (cc : Fin 1024) (h : Fin 128) :
    concatenate S1024x384 1 [⟨S1024x128, Wq⟩, ⟨S1024x128, Wk⟩, ⟨S1024x128, Wv⟩] concatenates_S1024x128_S1024x128_S1024x128_S1024x384_d1
      (ix2 cc (⟨128 + h.val, by have := h.isLt; omega⟩ : Fin 384)) = Wk (ix2 cc h) :=
  concatenate_apply_piece (t := S1024x384) (1 : Fin 2) [⟨S1024x128, Wq⟩, ⟨S1024x128, Wk⟩, ⟨S1024x128, Wv⟩] concatenates_S1024x128_S1024x128_S1024x128_S1024x384_d1
    (ix2 cc (⟨128 + h.val, by have := h.isLt; omega⟩ : Fin 384)) 1 (by show 1 < 3; omega) S1024x128 Wk rfl rfl 128 rfl (ix2 cc h)
    (fun b hb => by match b with | ⟨0, _⟩ => rfl | ⟨1, _⟩ => exact absurd rfl hb) rfl

theorem wcat2_apply (Wq Wk Wv : S1024x128.Idx → EReal) (cc : Fin 1024) (h : Fin 128) :
    concatenate S1024x384 1 [⟨S1024x128, Wq⟩, ⟨S1024x128, Wk⟩, ⟨S1024x128, Wv⟩] concatenates_S1024x128_S1024x128_S1024x128_S1024x384_d1
      (ix2 cc (⟨256 + h.val, by have := h.isLt; omega⟩ : Fin 384)) = Wv (ix2 cc h) :=
  concatenate_apply_piece (t := S1024x384) (1 : Fin 2) [⟨S1024x128, Wq⟩, ⟨S1024x128, Wk⟩, ⟨S1024x128, Wv⟩] concatenates_S1024x128_S1024x128_S1024x128_S1024x384_d1
    (ix2 cc (⟨256 + h.val, by have := h.isLt; omega⟩ : Fin 384)) 2 (by show 2 < 3; omega) S1024x128 Wv rfl rfl 256 rfl (ix2 cc h)
    (fun b hb => by match b with | ⟨0, _⟩ => rfl | ⟨1, _⟩ => exact absurd rfl hb) rfl

variable (m : (ℓ : Loc nD τ sig) → Buf (Elt Ideal) ℓ) (ρ : Dev nD → PrngReg)

/-- x at the projection region's entry holds its launch contents. -/
theorem E1_arg0 (c : Dev nD) : Whole.E1 m ρ c main_arg0 = m ((c : Thread nD τ).loc main_arg0) :=
  StableHlo.after_of_writes_sub hostOps0 _ hostOps0_writes (r := main_arg0) (by decide)

/-- The joined weights at the region's entry are the three weight matrices side by side. -/
theorem E1_v0 (c : Dev nD) : (Whole.E1 m ρ c main_v0 : S1024x384.Idx → EReal)
    = concatenate S1024x384 1 [⟨S1024x128, m ((c : Thread nD τ).loc main_arg1)⟩, ⟨S1024x128, m ((c : Thread nD τ).loc main_arg2)⟩, ⟨S1024x128, m ((c : Thread nD τ).loc main_arg3)⟩]
        concatenates_S1024x128_S1024x128_S1024x128_S1024x384_d1 := by
  dsimp only [Whole.E1, Whole.W1, hostOps0]
  after_results
  rfl

/-- The queries the attention region finds: x·Wq. -/
theorem E2_q (c : Dev nD) : (Whole.E2 m ρ c main_v1_0 : S32x2048x128.Idx → EReal)
    = fun y => Cert.AttnSpec.proj (m ((c : Thread nD τ).loc main_arg0)) (m ((c : Thread nD τ).loc main_arg1)) (y 0) (y 1) (y 2) := by
  refine (Whole.W2_arr m ρ c 2).trans ((final2 (Whole.E1 m ρ) c).trans ?_)
  rw [E1_arg0, E1_v0]
  funext y
  obtain ⟨b, t, h, rfl⟩ : ∃ (b : Fin 32) (t : Fin 2048) (h : Fin 128), y = ix3 b t h := ⟨y 0, y 1, y 2, eq_ix3 y⟩
  show rowCol _ _ 0 _ b t h = Cert.AttnSpec.proj _ _ b t h
  unfold rowCol Cert.AttnSpec.proj
  exact Finset.sum_congr rfl fun cc _ => by rw [wcat0_apply]
/-- The keys: x·Wk. -/
theorem E2_k (c : Dev nD) : (Whole.E2 m ρ c main_v1_1 : S32x2048x128.Idx → EReal)
    = fun y => Cert.AttnSpec.proj (m ((c : Thread nD τ).loc main_arg0)) (m ((c : Thread nD τ).loc main_arg2)) (y 0) (y 1) (y 2) := by
  refine (Whole.W2_arr m ρ c 3).trans ((final3 (Whole.E1 m ρ) c).trans ?_)
  rw [E1_arg0, E1_v0]
  funext y
  obtain ⟨b, t, h, rfl⟩ : ∃ (b : Fin 32) (t : Fin 2048) (h : Fin 128), y = ix3 b t h := ⟨y 0, y 1, y 2, eq_ix3 y⟩
  show rowCol _ _ 128 _ b t h = Cert.AttnSpec.proj _ _ b t h
  unfold rowCol Cert.AttnSpec.proj
  exact Finset.sum_congr rfl fun cc _ => by rw [wcat1_apply]
/-- The values: x·Wv. -/
theorem E2_v (c : Dev nD) : (Whole.E2 m ρ c main_v1_2 : S32x2048x128.Idx → EReal)
    = fun y => Cert.AttnSpec.proj (m ((c : Thread nD τ).loc main_arg0)) (m ((c : Thread nD τ).loc main_arg3)) (y 0) (y 1) (y 2) := by
  refine (Whole.W2_arr m ρ c 4).trans ((final4 (Whole.E1 m ρ) c).trans ?_)
  rw [E1_arg0, E1_v0]
  funext y
  obtain ⟨b, t, h, rfl⟩ : ∃ (b : Fin 32) (t : Fin 2048) (h : Fin 128), y = ix3 b t h := ⟨y 0, y 1, y 2, eq_ix3 y⟩
  show rowCol _ _ 256 _ b t h = Cert.AttnSpec.proj _ _ b t h
  unfold rowCol Cert.AttnSpec.proj
  exact Finset.sum_congr rfl fun cc _ => by rw [wcat2_apply]

end Cert.KernelIdeal.ProjV

end
-- ==== Proof.KernelValue.lean ====
/-
  The idealized kernel's run with its result named: the result array ends holding causal attention of the argument
  arrays, index by index, whenever their entries are real numbers. The projection region leaves x·Wq, x·Wk, x·Wv; the
  attention region leaves the whole-row softmax averages over those three arrays; and scaling the queries before the
  product is scaling the scores.
-/
import proofs.«168448_j29377576304777_2_alg».proof.Proof.AttnValue
import proofs.«168448_j29377576304777_2_alg».proof.Proof.ProjArrays

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Cert.AttnSpec

variable (m : (ℓ : Loc nD τ sig) → Buf (Elt Ideal) ℓ) (ρ : Dev nD → PrngReg)

/-- The result array after the run is causal attention of the launch contents of the arguments. -/
theorem result_eq (c : Dev nD)
    (h0 : ∀ i, ∃ x : ℝ, (m ((c : Thread nD τ).loc main_arg0) : S32x2048x1024.Idx → EReal) i = (x : EReal))
    (h1 : ∀ i, ∃ x : ℝ, (m ((c : Thread nD τ).loc main_arg1) : S1024x128.Idx → EReal) i = (x : EReal))
    (h2 : ∀ i, ∃ x : ℝ, (m ((c : Thread nD τ).loc main_arg2) : S1024x128.Idx → EReal) i = (x : EReal))
    (h3 : ∀ i, ∃ x : ℝ, (m ((c : Thread nD τ).loc main_arg3) : S1024x128.Idx → EReal) i = (x : EReal)) :
    (Attn.dat (E2 m ρ) c).arrAt 3 cfg1.N
      = fun y => attn (m ((c : Thread nD τ).loc main_arg0)) (m ((c : Thread nD τ).loc main_arg1)) (m ((c : Thread nD τ).loc main_arg2)) (m ((c : Thread nD τ).loc main_arg3)) y := by
  have eq := ProjV.E2_q m ρ c
  have ek := ProjV.E2_k m ρ c
  have ev := ProjV.E2_v m ρ c
  rw [AttnV.final3 (E2 m ρ) c
    (fun y => by rw [eq]; exact AttnV.proj_real _ _ h0 h1 _ _ _)
    (fun y => by rw [ek]; exact AttnV.proj_real _ _ h0 h2 _ _ _)
    (fun y => by rw [ev]; exact AttnV.proj_real _ _ h0 h3 _ _ _),
    eq, ek, ev]
  exact AttnV.GO_proj _ _ _ _ h0 h1 h2

end Cert.KernelIdeal.Whole

end
-- ==== Proof.RefAttn.lean ====
/-
  The reference's result, read index by index, is causal attention of its arguments: the three projections are the
  sums over the 1024 input features, the scores the scaled sums over the 128 head columns, the mask keeps the keys at
  or before the query, and the softmax is the exponentials of the scores less their row maximum over their row sum.
-/
import proofs.«168448_j29377576304777_2_alg».proof.Proof.Gen.ReferenceIdeal.Read
import proofs.«168448_j29377576304777_2_alg».proof.Proof.AttnSpec
import proofs.«168448_j29377576304777_2_alg».proof.Proof.LibRowOps

noncomputable section

namespace Cert.ReferenceIdeal.RefAttn

open Cert.ReferenceIdeal Cert.ReferenceIdeal.Gen Idealize.ShloMosaic Idealize.ShloMosaic.TcCoe Idealize.SL.Sem

section Reading

open Cert.ReferenceIdeal.Read Idealize.ShloMosaic.ValueIdx Cert.AttnSpec
open scoped BigOperators

/-! ## Words and indices -/

/-- The f32 word of minus infinity is the bottom of the extended reals. -/
theorem bot_f32 : Ideal.ofBits .f32 0xFF800000#32 = ⊥ := by simp [Ideal.ofBits, Ideal.ieee]

/-- For coordinates below 2048 the signed 32-bit comparison of their words is the comparison of the coordinates. -/
theorem sle_small (i j : Fin 2048) :
    (BitVec.ofNat 32 j.val).sle (BitVec.ofNat 32 i.val + 0#32) = decide (j.val ≤ i.val) := by
  have hi := i.isLt
  have hj := j.isLt
  rw [BitVec.add_zero, BitVec.sle_eq_decide]
  have n1 : (BitVec.ofNat 32 j.val).toNat = j.val := by rw [BitVec.toNat_ofNat]; omega
  have n2 : (BitVec.ofNat 32 i.val).toNat = i.val := by rw [BitVec.toNat_ofNat]; omega
  rw [BitVec.toInt_eq_toNat_of_lt (by rw [n1]; omega), BitVec.toInt_eq_toNat_of_lt (by rw [n2]; omega), n1, n2]
  simp

/-- The host's maximum-reduce along the last axis of a rank-3 array, at (i, j): the fold of max from the initial value
    over the entries of that row. -/
theorem hostLastMax3_apply {a b c : ℕ} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape))
    (hu : 0 < u.numel) (i : Fin a) (j : Fin b) :
    Host.reduce FloatOps.maximumf x init h' hu (ix2 i j)
      = (Finset.univ : Finset (Fin c)).fold max (init (Shape.Idx.first hu)) (fun k => x (ix3 i j k)) :=
  (Host.reduce_eq_fold_single FloatOps.maximumf x init h' h hu (ix2 i j)).trans
    (congrArg (fun f => Finset.fold max (init (Shape.Idx.first hu)) f (Finset.univ : Finset (Fin c)))
      (funext fun k => congrArg x (Cert.RowOps.lift_last3 h i j k)))

/-! The operand indices of each stage, at explicit coordinates. -/

theorem lidx_v0 (b : Fin 32) (t : Fin 2048) (h : Fin 128) (k : Fin 1024) : lidx_main_v0 (ix3 b t h) k = ix3 b t k :=
  funext fun a => Fin.ext (by match a with | ⟨0, _⟩ => rfl | ⟨1, _⟩ => rfl | ⟨2, _⟩ => rfl)
theorem ridx_v0 (b : Fin 32) (t : Fin 2048) (h : Fin 128) (k : Fin 1024) : ridx_main_v0 (ix3 b t h) k = ix2 k h :=
  funext fun a => Fin.ext (by match a with | ⟨0, _⟩ => rfl | ⟨1, _⟩ => rfl)
theorem lidx_v1 (b : Fin 32) (t : Fin 2048) (h : Fin 128) (k : Fin 1024) : lidx_main_v1 (ix3 b t h) k = ix3 b t k :=
  funext fun a => Fin.ext (by match a with | ⟨0, _⟩ => rfl | ⟨1, _⟩ => rfl | ⟨2, _⟩ => rfl)
theorem ridx_v1 (b : Fin 32) (t : Fin 2048) (h : Fin 128) (k : Fin 1024) : ridx_main_v1 (ix3 b t h) k = ix2 k h :=
  funext fun a => Fin.ext (by match a with | ⟨0, _⟩ => rfl | ⟨1, _⟩ => rfl)
theorem lidx_v2 (b : Fin 32) (t : Fin 2048) (h : Fin 128) (k : Fin 1024) : lidx_main_v2 (ix3 b t h) k = ix3 b t k :=
  funext fun a => Fin.ext (by match a with | ⟨0, _⟩ => rfl | ⟨1, _⟩ => rfl | ⟨2, _⟩ => rfl)
theorem ridx_v2 (b : Fin 32) (t : Fin 2048) (h : Fin 128) (k : Fin 1024) : ridx_main_v2 (ix3 b t h) k = ix2 k h :=
  funext fun a => Fin.ext (by match a with | ⟨0, _⟩ => rfl | ⟨1, _⟩ => rfl)
theorem lidx_v3 (b : Fin 32) (i j : Fin 2048) (k : Fin 128) : lidx_main_v3 (ix3 b i j) k = ix3 b i k :=
  funext fun a => Fin.ext (by match a with | ⟨0, _⟩ => rfl | ⟨1, _⟩ => rfl | ⟨2, _⟩ => rfl)
theorem ridx_v3 (b : Fin 32) (i j : Fin 2048) (k : Fin 128) : ridx_main_v3 (ix3 b i j) k = ix3 b j k :=
  funext fun a => Fin.ext (by match a with | ⟨0, _⟩ => rfl | ⟨1, _⟩ => rfl | ⟨2, _⟩ => rfl)
theorem idx_c1v1 (b : Fin 32) (i j : Fin 2048) : idx_main_call1_v1 (ix3 b i j) = ix2 i j :=
  funext fun a => Fin.ext (by match a with | ⟨0, _⟩ => rfl | ⟨1, _⟩ => rfl)
theorem idx_v13 (b : Fin 32) (i j : Fin 2048) : idx_main_v12 (idx_main_v13 (ix3 b i j)) = ix2 b i :=
  funext fun a => Fin.ext (by match a with | ⟨0, _⟩ => rfl | ⟨1, _⟩ => rfl)
theorem idx_v16 (b : Fin 32) (i : Fin 2048) (k : Fin 2048) : idx_main_v16 (ix2 b i) k = ix3 b i k :=
  funext fun a => Fin.ext (by match a with | ⟨0, _⟩ => rfl | ⟨1, _⟩ => rfl | ⟨2, _⟩ => rfl)
theorem idx_v18 (b : Fin 32) (i j : Fin 2048) : idx_main_v17 (idx_main_v18 (ix3 b i j)) = ix2 b i :=
  funext fun a => Fin.ext (by match a with | ⟨0, _⟩ => rfl | ⟨1, _⟩ => rfl)
theorem lidx_v20 (b : Fin 32) (i : Fin 2048) (h : Fin 128) (k : Fin 2048) : lidx_main_v20 (ix3 b i h) k = ix3 b i k :=
  funext fun a => Fin.ext (by match a with | ⟨0, _⟩ => rfl | ⟨1, _⟩ => rfl | ⟨2, _⟩ => rfl)
theorem ridx_v20 (b : Fin 32) (i : Fin 2048) (h : Fin 128) (k : Fin 2048) : ridx_main_v20 (ix3 b i h) k = ix3 b k h :=
  funext fun a => Fin.ext (by match a with | ⟨0, _⟩ => rfl | ⟨1, _⟩ => rfl | ⟨2, _⟩ => rfl)

/-! ## The stages, at explicit coordinates -/

section Stages
variable (X : (⟨3, ![32, 2048, 1024]⟩ : Shape).Idx → EReal) (Wq Wk Wv W : (⟨2, ![1024, 128]⟩ : Shape).Idx → EReal)

/-- The three projections are the sums over the 1024 input features. -/
theorem v0_at (b : Fin 32) (t : Fin 2048) (h : Fin 128) :
    val_main_v0 (F := Ideal) X W (ix3 b t h) = proj X W b t h := by
  rw [val_main_v0_apply]
  simp only [lidx_v0, ridx_v0]
  rfl
theorem v1_at (b : Fin 32) (t : Fin 2048) (h : Fin 128) :
    val_main_v1 (F := Ideal) X W (ix3 b t h) = proj X W b t h := by
  rw [val_main_v1_apply]
  simp only [lidx_v1, ridx_v1]
  rfl
theorem v2_at (b : Fin 32) (t : Fin 2048) (h : Fin 128) :
    val_main_v2 (F := Ideal) X W (ix3 b t h) = proj X W b t h := by
  rw [val_main_v2_apply]
  simp only [lidx_v2, ridx_v2]
  rfl

/-- The scaled scores are the sums over the 128 head columns, times the scale. -/
theorem v5_at (b : Fin 32) (i j : Fin 2048) :
    val_main_v5 (F := Ideal) X Wq Wk (ix3 b i j) = score X Wq Wk b i j := by
  rw [val_main_v5_apply, val_main_v3_apply, val_main_v4_apply, val_main_cst_apply]
  simp only [lidx_v3, ridx_v3, v0_at, v1_at, Ideal.mulf_def, Ideal.ofBits_def]
  rfl

/-- The lower-triangular mask: the bit at (i, j) is set exactly when key j is at or before query i. -/
theorem v7_at (i j : Fin 2048) :
    val_main_v7 (F := Ideal) (ix2 i j) = if j.val ≤ i.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (BitVec.ofBool ((BitVec.ofNat 32 j.val).sle (BitVec.ofNat 32 i.val + 0#32))) 1#1 0#1 = _
  rw [sle_small]
  by_cases h : j.val ≤ i.val
  · rw [if_pos h, decide_eq_true h]; rfl
  · rw [if_neg h, decide_eq_false h]; rfl

/-- The masked scores: the score where the key is seen, minus infinity elsewhere. -/
theorem v8_at (b : Fin 32) (i j : Fin 2048) :
    val_main_v8 (F := Ideal) X Wq Wk (ix3 b i j) = masked X Wq Wk b i j := by
  rw [val_main_v8_apply, val_main_call1_v1_apply, idx_c1v1, v7_at, v5_at, val_main_call1_v2_apply,
    val_main_call1_v0_apply, val_main_cst_0_apply, Ideal.ofBits_def, bot_f32]
  unfold masked
  by_cases h : j.val ≤ i.val
  · rw [if_pos h, if_pos h, select_one]
  · rw [if_neg h, if_neg h, select_zero]

/-- The row maximum of the masked scores. -/
def rowMax (b : Fin 32) (i : Fin 2048) : EReal :=
  Finset.univ.fold max ⊥ (fun j : Fin 2048 => masked X Wq Wk b i j)

theorem v9_at (b : Fin 32) (i : Fin 2048) :
    val_main_v9 (F := Ideal) X Wq Wk (ix2 b i) = rowMax X Wq Wk b i := by
  unfold val_main_v9
  rw [hostLastMax3_apply (val_main_v8 (F := Ideal) X Wq Wk) (val_main_cst_1 (F := Ideal))
    reducesTo_S32x2048x2048_S32x2048_d2 (by decide) h_S_ b i]
  rw [val_main_cst_1_apply, Ideal.ofBits_def, bot_f32]
  simp only [v8_at]
  rfl

theorem v13_at (b : Fin 32) (i j : Fin 2048) :
    val_main_v13 (F := Ideal) X Wq Wk (ix3 b i j) = rowMax X Wq Wk b i := by
  rw [val_main_v13_apply, val_main_v12_apply, idx_v13, val_main_v11_apply, val_main_v10_apply, val_main_cst_2_apply,
    v9_at, Ideal.maximumf_def, Ideal.ofBits_def, bot_f32]
  exact max_bot_left _

/-- The exponentials of the masked scores less their row maximum. -/
theorem v15_at (b : Fin 32) (i j : Fin 2048) :
    val_main_v15 (F := Ideal) X Wq Wk (ix3 b i j) = Ideal.exp (masked X Wq Wk b i j - rowMax X Wq Wk b i) := by
  rw [val_main_v15_apply, val_main_v14_apply, v8_at, v13_at, Ideal.hostUnary_exp_def, Ideal.subf_def]

/-- Their row sums. -/
theorem v18_at (b : Fin 32) (i j : Fin 2048) :
    val_main_v18 (F := Ideal) X Wq Wk (ix3 b i j)
      = ∑ j' : Fin 2048, Ideal.exp (masked X Wq Wk b i j' - rowMax X Wq Wk b i) := by
  rw [val_main_v18_apply, val_main_v17_apply, idx_v18, val_main_v16_apply, val_main_cst_3_apply, Ideal.ofBits_def,
    Ideal.ofBits_zero_f32, zero_add]
  simp only [idx_v16, v15_at]

/-- The softmax weights. -/
theorem v19_at (b : Fin 32) (i j : Fin 2048) :
    val_main_v19 (F := Ideal) X Wq Wk (ix3 b i j)
      = Ideal.div (Ideal.exp (masked X Wq Wk b i j - rowMax X Wq Wk b i))
          (∑ j' : Fin 2048, Ideal.exp (masked X Wq Wk b i j' - rowMax X Wq Wk b i)) := by
  rw [val_main_v19_apply, v15_at, v18_at, Ideal.hostDivf_def]

/-- The result: the weighted sum of the value rows. -/
theorem v20_at (b : Fin 32) (i : Fin 2048) (h : Fin 128) :
    val_main_v20 (F := Ideal) X Wq Wk Wv (ix3 b i h) = attn X Wq Wk Wv (ix3 b i h) := by
  rw [val_main_v20_apply]
  simp only [lidx_v20, ridx_v20, v19_at, v2_at]
  rfl

end Stages

end Reading

/-- The reference run's result term is causal attention of the argument arrays, index by index. -/
theorem res_eq_attn (m : (ℓ : Loc nD τ sig) → Buf (Elt Ideal) ℓ) (c : Dev nD) :
    Cert.ReferenceIdeal.Value.res_out0 (F := Ideal) m c
      = fun y => Cert.AttnSpec.attn (m ((c.tc : Thread nD τ).loc main_arg0)) (m ((c.tc : Thread nD τ).loc main_arg1))
          (m ((c.tc : Thread nD τ).loc main_arg2)) (m ((c.tc : Thread nD τ).loc main_arg3)) y := by
  funext y
  show Cert.ReferenceIdeal.Value.res_main_v20 (F := Ideal) m c y = _
  rw [Cert.ReferenceIdeal.Read.val_main_v20_eq, Idealize.ShloMosaic.ValueIdx.eq_ix3 y]
  exact v20_at _ _ _ _ _ _ _

end Cert.ReferenceIdeal.RefAttn

end
-- ==== Proof.Finite.lean ====
/-
  What the precondition gives: every entry of the four argument arrays is a real number. The precondition is the
  conjunction, over the four arrays, of "every |entry| is below +∞"; an extended real whose absolute value is below +∞
  is neither infinity, so it is (the coercion of) a real.
-/
import proofs.«168448_j29377576304777_2_alg».proof.Pre_finite_inputs
import proofs.«168448_j29377576304777_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- The f32 word of plus infinity is the top of the extended reals. -/
theorem top_f32 : Ideal.ofBits .f32 0x7F800000#32 = ⊤ := by simp [Ideal.ofBits, Ideal.ieee]

/-- An extended real whose absolute value compares below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_f32] at h
  have h' : max x (-x) < ⊤ := by
    have : Ideal.cmp .olt (max x (-x)) ⊤ = 1#1 := h
    unfold Ideal.cmp at this
    by_contra hc
    simp [hc] at this
  induction x using EReal.rec with
  | bot => simp at h'
  | coe r => exact ⟨r, rfl⟩
  | top => simp at h'

/-- One conjunct of the precondition: every entry of one array is real. -/
theorem all_real {s : Shape} (a : FVec Ideal s .f32) (hb : S_.BroadcastsInDim s (![] : Fin 0 → Fin s.rank)) {axes : List (Fin s.rank)}
    (hr : s.ReducesTo axes S_) (hu : 0 < S_.numel)
    (h : Host.reduce IntOp.andi (cmpf .olt (Host.absf a) (broadcastInDim s ![] hb (constant (F := Ideal) S_ .f32 0x7F800000#32))) (constantI S_ 1 1#1) hr hu ix0 = 1#1)
    (i : s.Idx) : ∃ r : ℝ, a i = (r : EReal) :=
  real_of_abs_lt (a i) (Host.reduce_andi_all _ _ hr hu ix0 h i)

/-- The precondition read back: the entries of x, Wq, Wk, Wv are real numbers. -/
theorem reals_of_pre (a0 : FVec Ideal S32x2048x1024 .f32) (a1 a2 a3 : FVec Ideal S1024x128 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ix0
  unfold fn fn_part1 at h0
  dsimp only at h0
  obtain ⟨h012, h3⟩ := IntOp.andi_eq_one.mp h0
  obtain ⟨h01, h2⟩ := IntOp.andi_eq_one.mp h012
  obtain ⟨h0', h1⟩ := IntOp.andi_eq_one.mp h01
  exact ⟨all_real a0 _ _ _ h0', all_real a1 _ _ _ h1, all_real a2 _ _ _ h2, all_real a3 _ _ _ h3⟩

end Cert.Finite

end
-- ==== Proof.lean ====
/-
  The certificate's claims: a single-head causal attention kernel (a QKV projection region, then an attention region
  that visits the key tiles in order and keeps a running row maximum, normaliser and weighted sum) against the jnp
  reference (three projections, scaled scores, the causal mask, a softmax over all 2048 keys, the weighted sum of values).

  * The three frames. The kernel's @main is one host stretch and two kernel regions; its run is assembled from the two
    regions' body runs at any float instance (so the same proof serves the printed kernel and its idealization). The
    reference is a straight-line host program.
  * preserves: the one named constant, the kernel's finite stand-in for minus infinity, denotes the bottom of the
    extended reals by the certificate's table.
  * algebraic: at the ideal values, with real-number inputs, both programs end with the result array at causal
    attention of the arguments. The kernel side: the projection leaves x·Wq, x·Wk, x·Wv; per query row the online
    (tile by tile) softmax average equals the whole-row softmax average; scaling the queries by 2⁻⁵ before the score
    product equals scaling the scores. The reference side: its operations read index by index are that same formula.
-/
import proofs.«168448_j29377576304777_2_alg».proof.Defs
import proofs.«168448_j29377576304777_2_alg».proof.Proof.Gen.Kernel
import proofs.«168448_j29377576304777_2_alg».proof.Proof.Gen.KernelIdeal
import proofs.«168448_j29377576304777_2_alg».proof.Proof.Gen.ReferenceIdeal
import proofs.«168448_j29377576304777_2_alg».proof.Proof.Gen.Pre_finite_inputs
import proofs.«168448_j29377576304777_2_alg».proof.Proof.BitsWholeRun
import proofs.«168448_j29377576304777_2_alg».proof.Proof.KernelValue
import proofs.«168448_j29377576304777_2_alg».proof.Proof.RefAttn
import proofs.«168448_j29377576304777_2_alg».proof.Proof.Finite
import Idealize.ShloMosaic.Adequacy
import Idealize.ShloMosaic.Init

noncomputable section

namespace Cert.Proof

open Idealize.ShloMosaic Idealize.ShloMosaic.TcCoe Idealize.SL.Sem

/-- The printed kernel runs to the end, faults nowhere and leaves its arguments unchanged: its whole run, at the
    word-level instance, with the result forgotten. -/
theorem frame_k : Cert.frame_Kernel := fun m ρ _ =>
  (θ_run Cert.Kernel.defs _ _).mono (fun _ h c => (h c).2) (Cert.Kernel.Whole.run (F := Bits) m ρ)

/-- The same of the idealized kernel, at the ideal instance. -/
theorem frame_ki : Cert.frame_KernelIdeal := fun m ρ _ =>
  (θ_run Cert.KernelIdeal.defs _ _).mono (fun _ h c => (h c).2) (Cert.KernelIdeal.Whole.run (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's finite mask value is named, and the table gives it minus infinity. -/
theorem preserves : Cert.preserves_Kernel_KernelIdeal :=
  IdealRules.named_const.statement Cert.KernelIdeal.κ "neg_big" .f32 0xFF333332#32 ⊥ rfl

/-- Both idealized programs end with the result array at causal attention of the (real-valued) arguments. -/
theorem algebraic : Cert.algebraic_KernelIdeal_ReferenceIdeal := by
  intro m ρ m' ρ' hpre hagree
  refine ⟨fun c => fun y => Cert.AttnSpec.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) y, ?_, ?_⟩
  · refine (θ_run Cert.KernelIdeal.defs _ _).mono (fun _ h c => ⟨(h c).1.trans ?_, (h c).2⟩) (Cert.KernelIdeal.Whole.run (F := Ideal) m ρ)
    obtain ⟨h0, h1, h2, h3⟩ := Cert.Finite.reals_of_pre _ _ _ _ (hpre c)
    exact Cert.KernelIdeal.Whole.result_eq m ρ c h0 h1 h2 h3
  · refine (θ_run Cert.ReferenceIdeal.defs _ _).mono (fun _ h c => ⟨(h c).1.trans ?_, (h c).2⟩) (Cert.ReferenceIdeal.Value.run (F := Ideal) m' ρ')
    have e := Cert.ReferenceIdeal.RefAttn.res_eq_attn m' c
    rw [(hagree c).1, (hagree c).2.1, (hagree c).2.2.1, (hagree c).2.2.2] at e
    exact e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
